-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S20x1x128 : Shape := ⟨3, ![20, 1, 128]⟩
abbrev S1x1x128 : Shape := ⟨3, ![1, 1, 128]⟩
abbrev S5000 : Shape := ⟨1, ![5000]⟩

abbrev nBuf : Space → Nat
  | .hbm => 70
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S1x128, .f32⟩
  | .hbm, ⟨43, _⟩ => ⟨S20x1x128, .f32⟩
  | .hbm, ⟨44, _⟩ => ⟨S20x1x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_cst_5 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S20x1x128_S128_d0_1 : S20x1x128.ReducesTo [0, 1] S128
  h_S_ : 0 < S_.numel
  bcast_S_S128 : S_.BroadcastsInDim S128 (![] : Fin 0 → Fin S128.rank)
  reduces_S5000x128_S5000 : S5000x128.Reduces [1] S5000
  shapeCasts_S5000_S5000x1 : S5000.ShapeCasts S5000x1
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S20x1x128.size a
  hwx1_3 : ∀ i : grid1.Coords, EltTy.bits .f32 = 32 ∨ (Rect.block (s := S20x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S20x1x128.size a
  hwx1_4 : ∀ i : grid1.Coords, EltTy.bits .f32 = 32 ∨ (Rect.block (s := S20x1x128) S1x1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28_0) S1x1x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_1) S1x1x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x1600000, .i32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S_, .i32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S100000x128, .f32⟩
  | .hbm, ⟨114, _⟩ => ⟨S_, .f32⟩
  | .hbm, ⟨115, _⟩ => ⟨S100000, .f32⟩
  | .hbm, ⟨116, _⟩ => ⟨S100000x1, .f32⟩
  | .hbm, ⟨117, _⟩ => ⟨S100000x1, .f32⟩
  | .hbm, ⟨118, _⟩ => ⟨S_, .f32⟩
  | .hbm, ⟨119, _⟩ => ⟨S100000x1, .f32⟩
  | .hbm, ⟨120, _⟩ => ⟨S100000x1, .f32⟩
  | .hbm, ⟨121, _⟩ => ⟨S100000x128, .f32⟩
  | .hbm, ⟨122, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_cst_1 : Ref sig .tc := ⟨.hbm, 85, rfl⟩
abbrev main_call2_v8 : Ref sig .tc := ⟨.hbm, 86, rfl⟩
abbrev main_call2_cst_2 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_cst_3 : Ref sig .tc := ⟨.hbm, 91, rfl⟩
abbrev main_call2_v12 : Ref sig .tc := ⟨.hbm, 92, rfl⟩
abbrev main_call2_cst_4 : Ref sig .tc := ⟨.hbm, 93, rfl⟩
abbrev main_call2_call0_v0 : Ref sig .tc := ⟨.hbm, 94, rfl⟩
abbrev main_call2_call0_v1 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_12 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_13 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_14 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The kernel program's run, with its result named.

  Every weakly fair execution of the program from a memory with zero counters terminates without a fault; in the final
  state the result buffer holds what the last boundary's contents say it holds — the fold of the host operations and
  the three regions' write-backs over the launch memory — and the six argument arrays are as launched.
-/
import proofs.«101444_j62766652064051_2_alg».proof.Proof.Gen.KernelIdeal.Frame

set_option maxRecDepth 16384

noncomputable section

namespace Cert.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the program terminates, nothing faults, the result buffer ends at the last boundary's contents and every
    argument array ends as launched. -/
theorem run_W8 : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KValue

end
-- ==== Proof.KSpec.lean ====
/-
  The four array functions the three kernels compute, index by index, over the extended reals.

  Rows are nodes (100000 of them, in 20 tiles of 5000), columns are features (128).
  * `G0`: the node features times the weight matrix, each row scaled by that node's scale factor `d2`.
  * `relu`: an aggregated row scaled by its node's factor, plus the bias, cut off below at zero.
  * `S1`, `S2`: per tile and per feature, the sum of `relu` and of its square over the tile's 5000 rows.
  * `G2`: `relu` standardised per feature (minus a mean, times a scale, times gamma, plus beta), then each row
    divided by its Euclidean length (but by no less than a small positive constant).
-/
import Idealize.ShloMosaic.PureOps.Ideal
import Idealize.ShloMosaic.PureOps.Ideal.Laws
import Idealize.ShloMosaic.Lib.ValueIdx

noncomputable section

namespace Cert.KSpec

open Idealize.ShloMosaic Idealize.ShloMosaic.ValueIdx
open scoped BigOperators

/-- A rank-2 array of extended reals. -/
abbrev Arr2 (a b : Nat) : Type := (⟨2, ![a, b]⟩ : Shape).Idx → EReal
/-- A rank-3 array of extended reals. -/
abbrev Arr3 (a b c : Nat) : Type := (⟨3, ![a, b, c]⟩ : Shape).Idx → EReal

/-- Row `p` of tile `t` is node `5000 t + p`. -/
def rowOf (t : Fin 20) (p : Fin 5000) : Fin 100000 := ⟨5000 * t.val + p.val, by omega⟩

/-- The product row `n`, column `c`, scaled by node `n`'s factor. -/
def g0 (x : Arr2 100000 128) (w : Arr2 128 128) (d2 : Arr2 100000 1) (n : Fin 100000) (c : Fin 128) : EReal :=
  (∑ k : Fin 128, x (ix2 n k) * w (ix2 k c)) * d2 (ix2 n (0 : Fin 1))

/-- `g0` as an array. -/
def G0 (x : Arr2 100000 128) (w : Arr2 128 128) (d2 : Arr2 100000 1) : Arr2 100000 128 :=
  fun i => g0 x w d2 ⟨(i 0).val, idx2_lt0 i⟩ ⟨(i 1).val, idx2_lt1 i⟩

/-- The scaled, biased, rectified aggregate at node `n`, feature `c`. -/
def relu (agg : Arr2 100000 128) (d2 : Arr2 100000 1) (b2 : Arr2 1 128) (n : Fin 100000) (c : Fin 128) : EReal :=
  max (agg (ix2 n c) * d2 (ix2 n (0 : Fin 1)) + b2 (ix2 (0 : Fin 1) c)) 0

/-- Per tile and feature, the sum of `relu` over the tile's rows. -/
def s1 (agg : Arr2 100000 128) (d2 : Arr2 100000 1) (b2 : Arr2 1 128) (t : Fin 20) (c : Fin 128) : EReal :=
  ∑ p : Fin 5000, relu agg d2 b2 (rowOf t p) c

/-- Per tile and feature, the sum of `relu` squared over the tile's rows. -/
def s2 (agg : Arr2 100000 128) (d2 : Arr2 100000 1) (b2 : Arr2 1 128) (t : Fin 20) (c : Fin 128) : EReal :=
  ∑ p : Fin 5000, relu agg d2 b2 (rowOf t p) c * relu agg d2 b2 (rowOf t p) c

/-- `s1` as an array `[20, 1, 128]`. -/
def S1 (agg : Arr2 100000 128) (d2 : Arr2 100000 1) (b2 : Arr2 1 128) : Arr3 20 1 128 :=
  fun i => s1 agg d2 b2 ⟨(i 0).val, (i 0).isLt⟩ ⟨(i 2).val, (i 2).isLt⟩

/-- `s2` as an array `[20, 1, 128]`. -/
def S2 (agg : Arr2 100000 128) (d2 : Arr2 100000 1) (b2 : Arr2 1 128) : Arr3 20 1 128 :=
  fun i => s2 agg d2 b2 ⟨(i 0).val, (i 0).isLt⟩ ⟨(i 2).val, (i 2).isLt⟩

/-- The standardised value at node `n`, feature `c`. -/
def bn (agg : Arr2 100000 128) (d2 : Arr2 100000 1) (b2 mean2 istd2 g2 be2 : Arr2 1 128) (n : Fin 100000) (c : Fin 128) :
    EReal :=
  (relu agg d2 b2 n c - mean2 (ix2 (0 : Fin 1) c)) * istd2 (ix2 (0 : Fin 1) c) * g2 (ix2 (0 : Fin 1) c)
    + be2 (ix2 (0 : Fin 1) c)

/-- The standardised row divided by its length (at least the small constant). -/
def g2 (agg : Arr2 100000 128) (d2 : Arr2 100000 1) (b2 mean2 istd2 gm2 be2 : Arr2 1 128) (n : Fin 100000) (c : Fin 128) :
    EReal :=
  Ideal.div (bn agg d2 b2 mean2 istd2 gm2 be2 n c)
    (max (Ideal.sqrt (∑ c' : Fin 128, bn agg d2 b2 mean2 istd2 gm2 be2 n c' * bn agg d2 b2 mean2 istd2 gm2 be2 n c'))
      (Ideal.ofBits .f32 0x2B8CBCCC#32))

/-- `g2` as an array. -/
def G2 (agg : Arr2 100000 128) (d2 : Arr2 100000 1) (b2 mean2 istd2 gm2 be2 : Arr2 1 128) : Arr2 100000 128 :=
  fun i => g2 agg d2 b2 mean2 istd2 gm2 be2 ⟨(i 0).val, idx2_lt0 i⟩ ⟨(i 1).val, idx2_lt1 i⟩

end Cert.KSpec

end
-- ==== Proof.KDefs.lean ====
/-
  The kernel program's host stages, one definition per stage, as functions of the six argument arrays.

  The program is one graph-convolution layer over 100000 nodes with 128 features and 1600000 directed edges, to which a
  self loop per node is added (1700000 edges in all). From the edge list it computes each node's in-degree `deg` and
  the scale `dis = deg^(-1/2)` (zero where the degree is zero); the first kernel forms `hs = (x · w)` with row `n` scaled
  by `dis n`; the rows of `hs` at the edge sources are gathered (`msgs`) and summed into the edge targets (`agg0`); the
  second kernel forms, per tile and feature, the sums of `relu (agg0 · dis + bias)` and of its square; from them come the
  per-feature mean and inverse standard deviation; the third kernel standardises, applies gamma and beta and divides
  every row by its Euclidean length.

  Each definition applies the same library operation as the program's line of that name, to the stages before it.
-/
import proofs.«101444_j62766652064051_2_alg».proof.Proof.Gen.KernelIdeal
import proofs.«101444_j62766652064051_2_alg».proof.Proof.KSpec

noncomputable section

namespace Cert.KValue

open Idealize.ShloMosaic Cert.KernelIdeal Cert.KernelIdeal.Gen

/-- The node numbers `0 … 99999`. -/
def iota : IVec S100000 32 := iotaInDim S100000 32 0

/-- The edge sources, then every node once (the self loops' sources). -/
def row (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩, ⟨S100000, iota⟩]
    concatenates_S1600000_S100000_S1700000_d0

/-- The edge targets, then every node once (the self loops' targets). -/
def col (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩, ⟨S100000, iota⟩]
    concatenates_S1600000_S100000_S1700000_d0

/-- The targets as a column of scatter indices. -/
def colB (ei : IVec S2x1600000 32) : IVec S1700000x1 32 :=
  broadcastInDim S1700000x1 ![0] bcast_S1700000_S1700000x1_0 (col ei)

/-- Each node's in-degree, self loop included: a one per edge summed into the edge's target. -/
def deg (ei : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (colB ei)
    (broadcastInDim S1700000 ![] bcast_S_S1700000 (constant (F := Ideal) S_ .f32 0x3F800000#32))

/-- The scale `deg^(-1/2)` where the degree is positive, zero elsewhere. -/
def dis (ei : IVec S2x1600000 32) : FVec Ideal S100000 .f32 :=
  select (cmpf .ogt (deg ei) (broadcastInDim S100000 ![] bcast_S_S100000 (constant (F := Ideal) S_ .f32 0x00000000#32)))
    (Host.rsqrt (F := Ideal) (deg ei))
    (broadcastInDim S100000 ![] bcast_S_S100000 (id (constant (F := Ideal) S_ .f32 0x00000000#32)))

/-- The scale as a column. -/
def dis2 (ei : IVec S2x1600000 32) : FVec Ideal S100000x1 .f32 :=
  shapeCast S100000x1 (dis ei) shapeCasts_S100000_S100000x1

/-- The first kernel's result: `x · w`, row `n` scaled by `dis n`. -/
def hs (x : FVec Ideal S100000x128 .f32) (w : FVec Ideal S128x128 .f32) (ei : IVec S2x1600000 32) :
    FVec Ideal S100000x128 .f32 :=
  Cert.KSpec.G0 x w (dis2 ei)

/-- The sources with a negative number wrapped around by the number of nodes. -/
def rowW (ei : IVec S2x1600000 32) : IVec S1700000 32 :=
  select (cmpi .slt (row ei) (broadcastInDim S1700000 ![] bcast_S_S1700000 (constantI S_ 32 0#32)))
    (addi (row ei) (broadcastInDim S1700000 ![] bcast_S_S1700000 (constantI S_ 32 100000#32)))
    (row ei)

/-- The wrapped sources as a column of gather indices. -/
def rowWB (ei : IVec S2x1600000 32) : IVec S1700000x1 32 :=
  broadcastInDim S1700000x1 ![0] bcast_S1700000_S1700000x1_0 (rowW ei)

/-- One message per edge: the row of `hs` at the edge's source. -/
def msgs (x : FVec Ideal S100000x128 .f32) (w : FVec Ideal S128x128 .f32) (ei : IVec S2x1600000 32) :
    FVec Ideal S1700000x128 .f32 :=
  Host.gather gather_S100000x128_S1700000x1_S1700000x128_1_0_n_n_0_1_1128 (hs x w ei) (rowWB ei)

/-- The messages summed into their edges' targets. -/
def agg0 (x : FVec Ideal S100000x128 .f32) (w : FVec Ideal S128x128 .f32) (ei : IVec S2x1600000 32) :
    FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (colB ei)
    (msgs x w ei)

/-- A feature vector as a row. -/
def row2 (v : FVec Ideal S128 .f32) : FVec Ideal S1x128 .f32 := shapeCast S1x128 v shapeCasts_S128_S1x128

/-- The bias as a row. -/
def bias2 (bias : FVec Ideal S128 .f32) : FVec Ideal S1x128 .f32 := row2 bias

/-- The second kernel's first result: per tile and feature, the sum of the rectified rows. -/
def sumP (x : FVec Ideal S100000x128 .f32) (w : FVec Ideal S128x128 .f32) (bias : FVec Ideal S128 .f32)
    (ei : IVec S2x1600000 32) : FVec Ideal S20x1x128 .f32 :=
  Cert.KSpec.S1 (agg0 x w ei) (dis2 ei) (bias2 bias)

/-- The second kernel's second result: per tile and feature, the sum of the rectified rows' squares. -/
def sumsqP (x : FVec Ideal S100000x128 .f32) (w : FVec Ideal S128x128 .f32) (bias : FVec Ideal S128 .f32)
    (ei : IVec S2x1600000 32) : FVec Ideal S20x1x128 .f32 :=
  Cert.KSpec.S2 (agg0 x w ei) (dis2 ei) (bias2 bias)

/-- A `[20, 1, 128]` array summed over its tiles. -/
def sumTiles (p : FVec Ideal S20x1x128 .f32) : FVec Ideal S128 .f32 :=
  Host.reduceAdd (F := Ideal) p (constant (F := Ideal) S_ .f32 0x00000000#32) reducesTo_S20x1x128_S128_d0_1 h_S_

/-- Per feature, the sum of the rectified rows over all nodes. -/
def sum (x : FVec Ideal S100000x128 .f32) (w : FVec Ideal S128x128 .f32) (bias : FVec Ideal S128 .f32)
    (ei : IVec S2x1600000 32) : FVec Ideal S128 .f32 :=
  sumTiles (sumP x w bias ei)

/-- Per feature, the sum of the rectified rows' squares over all nodes. -/
def sumsq (x : FVec Ideal S100000x128 .f32) (w : FVec Ideal S128x128 .f32) (bias : FVec Ideal S128 .f32)
    (ei : IVec S2x1600000 32) : FVec Ideal S128 .f32 :=
  sumTiles (sumsqP x w bias ei)

/-- The number of nodes, per feature. -/
def nodes : FVec Ideal S128 .f32 := broadcastInDim S128 ![] bcast_S_S128 (constant (F := Ideal) S_ .f32 0x47C35000#32)

/-- Per feature, the mean of a `[20, 1, 128]` array of per-tile sums: their sum over the tiles divided by the number of nodes. -/
def meanOf (p : FVec Ideal S20x1x128 .f32) : FVec Ideal S128 .f32 :=
  Host.divf (F := Ideal) (sumTiles p) nodes

/-- Per feature, the variance from the per-tile sums `p` and sums of squares `q`: the mean of the squares minus the
    square of the mean, cut off below at zero. -/
def varOf (p q : FVec Ideal S20x1x128 .f32) : FVec Ideal S128 .f32 :=
  maximumf (F := Ideal) (subf (F := Ideal) (meanOf q) (mulf (F := Ideal) (meanOf p) (meanOf p)))
    (broadcastInDim S128 ![] bcast_S_S128 (constant (F := Ideal) S_ .f32 0x00000000#32))

/-- Per feature, the inverse standard deviation `(var + eps)^(-1/2)` from the per-tile sums and sums of squares. -/
def istdOf (p q : FVec Ideal S20x1x128 .f32) : FVec Ideal S128 .f32 :=
  Host.rsqrt (F := Ideal) (addf (F := Ideal) (varOf p q)
    (broadcastInDim S128 ![] bcast_S_S128 (constant (F := Ideal) S_ .f32 0x3727C5AC#32)))

/-- Per feature, the mean. -/
def mean (x : FVec Ideal S100000x128 .f32) (w : FVec Ideal S128x128 .f32) (bias : FVec Ideal S128 .f32)
    (ei : IVec S2x1600000 32) : FVec Ideal S128 .f32 :=
  meanOf (sumP x w bias ei)

/-- Per feature, the mean of the squares. -/
def meansq (x : FVec Ideal S100000x128 .f32) (w : FVec Ideal S128x128 .f32) (bias : FVec Ideal S128 .f32)
    (ei : IVec S2x1600000 32) : FVec Ideal S128 .f32 :=
  meanOf (sumsqP x w bias ei)

/-- Per feature, the variance. -/
def var (x : FVec Ideal S100000x128 .f32) (w : FVec Ideal S128x128 .f32) (bias : FVec Ideal S128 .f32)
    (ei : IVec S2x1600000 32) : FVec Ideal S128 .f32 :=
  varOf (sumP x w bias ei) (sumsqP x w bias ei)

/-- Per feature, the inverse standard deviation. -/
def istd (x : FVec Ideal S100000x128 .f32) (w : FVec Ideal S128x128 .f32) (bias : FVec Ideal S128 .f32)
    (ei : IVec S2x1600000 32) : FVec Ideal S128 .f32 :=
  istdOf (sumP x w bias ei) (sumsqP x w bias ei)

/-- The mean as a row. -/
def mean2 (x : FVec Ideal S100000x128 .f32) (w : FVec Ideal S128x128 .f32) (bias : FVec Ideal S128 .f32)
    (ei : IVec S2x1600000 32) : FVec Ideal S1x128 .f32 :=
  row2 (mean x w bias ei)

/-- The inverse standard deviation as a row. -/
def istd2 (x : FVec Ideal S100000x128 .f32) (w : FVec Ideal S128x128 .f32) (bias : FVec Ideal S128 .f32)
    (ei : IVec S2x1600000 32) : FVec Ideal S1x128 .f32 :=
  row2 (istd x w bias ei)

/-- Gamma as a row. -/
def gamma2 (gamma : FVec Ideal S128 .f32) : FVec Ideal S1x128 .f32 := row2 gamma

/-- Beta as a row. -/
def beta2 (beta : FVec Ideal S128 .f32) : FVec Ideal S1x128 .f32 := row2 beta

/-- The program's result: the third kernel's, at the stages above. -/
def out (x : FVec Ideal S100000x128 .f32) (w : FVec Ideal S128x128 .f32) (bias gamma beta : FVec Ideal S128 .f32)
    (ei : IVec S2x1600000 32) : FVec Ideal S100000x128 .f32 :=
  Cert.KSpec.G2 (agg0 x w ei) (dis2 ei) (bias2 bias) (mean2 x w bias ei) (istd2 x w bias ei) (gamma2 gamma) (beta2 beta)

end Cert.KValue

end
-- ==== Proof.KStages0.lean ====
/-
  The host stages before the first kernel, read off the program's operation lists over any starting contents.

  From contents `W` the first eighteen operations leave the edge sources and targets (with the self loops), the
  comparison `deg > 0`, `deg^(-1/2)` and a zero; the three operations of the outlined selection leave the scale `dis`;
  the last operation leaves it as a column. Composed: the column holds `dis2` of the edge list, and the sources and
  targets are still there.
-/
import proofs.«101444_j62766652064051_2_alg».proof.Proof.Gen.KernelIdeal.Launch
import proofs.«101444_j62766652064051_2_alg».proof.Proof.KDefs
import Idealize.ShloMosaic.Lib.StableHlo.Run

noncomputable section

namespace Cert.KValue

open Idealize.ShloMosaic Idealize.ShloMosaic.StableHlo Idealize.ShloMosaic.TcCoe Cert.KernelIdeal Cert.KernelIdeal.Gen

variable (W : Valuation τ sig (Elt Ideal))

/-- Closes `after hostOps0, hostOps0_1, hostOps0_2 W b = W b` for a buffer `b` that no operation of the stretch writes: the stretch's result
    buffers are listed and `b` is told apart from each. -/
macro "host_keeps0" : tactic =>
  `(tactic| (refine StableHlo.after_of_forall_not_mem _ _ (List.forall_iff_forall_mem.mp (by
      simp only [hostOps0, hostOps0_1, hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

/-! ## The first stretch -/

theorem ops0_v3 : after (hostOps0 (F := Ideal)) W (Proc.devRef .tc main_v3) = row (W (Proc.devRef .tc main_arg5)) := by
  dsimp only [hostOps0]; after_results; all_goals rfl

theorem ops0_v6 : after (hostOps0 (F := Ideal)) W (Proc.devRef .tc main_v6) = col (W (Proc.devRef .tc main_arg5)) := by
  dsimp only [hostOps0]; after_results; all_goals rfl

theorem ops0_v12 : after (hostOps0 (F := Ideal)) W (Proc.devRef .tc main_v12)
    = cmpf .ogt (deg (W (Proc.devRef .tc main_arg5))) (broadcastInDim S100000 ![] bcast_S_S100000 (constant (F := Ideal) S_ .f32 0x00000000#32)) := by
  dsimp only [hostOps0]; after_results; all_goals rfl

theorem ops0_v13 : after (hostOps0 (F := Ideal)) W (Proc.devRef .tc main_v13) = Host.rsqrt (F := Ideal) (deg (W (Proc.devRef .tc main_arg5))) := by
  dsimp only [hostOps0]; after_results; all_goals rfl

theorem ops0_cst_2 : after (hostOps0 (F := Ideal)) W (Proc.devRef .tc main_cst_2) = (constant (F := Ideal) S_ .f32 0x00000000#32) := by
  dsimp only [hostOps0]; after_results; all_goals rfl

/-! ## The outlined selection, and the column -/

theorem ops0_1_v14 : after (hostOps0_1 (F := Ideal)) W (Proc.devRef .tc main_v14)
    = select (W (Proc.devRef .tc main_v12)) (W (Proc.devRef .tc main_v13)) (broadcastInDim S100000 ![] bcast_S_S100000 (id (W (Proc.devRef .tc main_cst_2)))) := by
  dsimp only [hostOps0_1]; after_results; all_goals rfl

theorem ops0_2_v15 : after (hostOps0_2 (F := Ideal)) W (Proc.devRef .tc main_v15)
    = shapeCast S100000x1 (W (Proc.devRef .tc main_v14)) shapeCasts_S100000_S100000x1 := by
  dsimp only [hostOps0_2]; after_results; all_goals rfl

/-! ## The three stretches composed -/

/-- The contents when the first kernel is entered, from launch contents `W`. -/
abbrev pre : Valuation τ sig (Elt Ideal) :=
  after (hostOps0_2 (F := Ideal)) (after (hostOps0_1 (F := Ideal)) (after (hostOps0 (F := Ideal)) W))

theorem pre_v15 : pre W (Proc.devRef .tc main_v15) = dis2 (W (Proc.devRef .tc main_arg5)) := by
  unfold pre
  rw [ops0_2_v15, ops0_1_v14, ops0_v12, ops0_v13, ops0_cst_2]
  rfl

theorem pre_v3 : pre W (Proc.devRef .tc main_v3) = row (W (Proc.devRef .tc main_arg5)) := by
  unfold pre
  rw [show after (hostOps0_2 (F := Ideal)) _ (Proc.devRef .tc main_v3) = _ by host_keeps0,
    show after (hostOps0_1 (F := Ideal)) _ (Proc.devRef .tc main_v3) = _ by host_keeps0, ops0_v3]

theorem pre_v6 : pre W (Proc.devRef .tc main_v6) = col (W (Proc.devRef .tc main_arg5)) := by
  unfold pre
  rw [show after (hostOps0_2 (F := Ideal)) _ (Proc.devRef .tc main_v6) = _ by host_keeps0,
    show after (hostOps0_1 (F := Ideal)) _ (Proc.devRef .tc main_v6) = _ by host_keeps0, ops0_v6]

/-- An argument array is as launched when the first kernel is entered. -/
theorem pre_arg (b : Ref sig .tc) (hb : b = main_arg0 ∨ b = main_arg1 ∨ b = main_arg2 ∨ b = main_arg3 ∨ b = main_arg4) :
    pre W (Proc.devRef .tc b) = W (Proc.devRef .tc b) := by
  unfold pre
  rcases hb with rfl | rfl | rfl | rfl | rfl <;>
  · rw [show after (hostOps0_2 (F := Ideal)) _ _ = _ by host_keeps0,
      show after (hostOps0_1 (F := Ideal)) _ _ = _ by host_keeps0,
      show after (hostOps0 (F := Ideal)) _ _ = _ by host_keeps0]

end Cert.KValue

end
-- ==== Proof.KStages1.lean ====
/-
  The host stage between the first and the second kernel, read off the program's operation list over any starting
  contents.

  From contents `W` the fourteen operations gather the rows of the first kernel's result at the (wrapped) edge sources
  and sum them into the edge targets, and lay the bias out as a row; the scale column is not touched.
-/
import proofs.«101444_j62766652064051_2_alg».proof.Proof.Gen.KernelIdeal.Launch
import proofs.«101444_j62766652064051_2_alg».proof.Proof.KDefs
import Idealize.ShloMosaic.Lib.StableHlo.Run

noncomputable section

namespace Cert.KValue

open Idealize.ShloMosaic Idealize.ShloMosaic.StableHlo Idealize.ShloMosaic.TcCoe Cert.KernelIdeal Cert.KernelIdeal.Gen

variable (W : Valuation τ sig (Elt Ideal))

/-- Closes `after hostOps1 W b = W b` for a buffer `b` that no operation of the stretch writes: the stretch's result
    buffers are listed and `b` is told apart from each. -/
macro "host_keeps1" : tactic =>
  `(tactic| (refine StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

/-- The aggregation from a row array `h`, sources `r` and targets `cl`: the rows of `h` at the sources (a negative source
    wrapped around by the number of nodes), summed into the targets. -/
def aggOf (h : FVec Ideal S100000x128 .f32) (r cl : IVec S1700000 32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 cl)
    (Host.gather gather_S100000x128_S1700000x1_S1700000x128_1_0_n_n_0_1_1128 h
      (broadcastInDim S1700000x1 ![0] bcast_S1700000_S1700000x1_0
        (select (cmpi .slt r (broadcastInDim S1700000 ![] bcast_S_S1700000 (constantI S_ 32 0#32)))
          (addi r (broadcastInDim S1700000 ![] bcast_S_S1700000 (constantI S_ 32 100000#32))) r)))

/-- At the first kernel's result and the edge list's sources and targets this is `agg0`. -/
theorem aggOf_eq (x : FVec Ideal S100000x128 .f32) (w : FVec Ideal S128x128 .f32) (ei : IVec S2x1600000 32) :
    aggOf (hs x w ei) (row ei) (col ei) = agg0 x w ei := rfl

theorem ops1_v26 : after (hostOps1 (F := Ideal)) W (Proc.devRef .tc main_v26)
    = aggOf (W (Proc.devRef .tc main_v16)) (W (Proc.devRef .tc main_v3)) (W (Proc.devRef .tc main_v6)) := by
  dsimp only [hostOps1]; after_results; all_goals rfl

theorem ops1_v27 : after (hostOps1 (F := Ideal)) W (Proc.devRef .tc main_v27) = row2 (W (Proc.devRef .tc main_arg2)) := by
  dsimp only [hostOps1]; after_results; all_goals rfl

theorem ops1_v15 : after (hostOps1 (F := Ideal)) W (Proc.devRef .tc main_v15) = W (Proc.devRef .tc main_v15) := by host_keeps1

/-- An argument array the later stages read is not touched. -/
theorem ops1_arg (b : Ref sig .tc) (hb : b = main_arg2 ∨ b = main_arg3 ∨ b = main_arg4) :
    after (hostOps1 (F := Ideal)) W (Proc.devRef .tc b) = W (Proc.devRef .tc b) := by
  rcases hb with rfl | rfl | rfl <;> host_keeps1

end Cert.KValue

end
-- ==== Proof.KStages2.lean ====
/-
  The host stage between the second and the third kernel, read off the program's operation list over any starting
  contents.

  From contents `W` the twenty-four operations sum the second kernel's two results over the tiles, form the mean and
  the inverse standard deviation per feature, and lay these two, the bias, gamma and beta out as rows; the aggregate
  and the scale column are not touched.
-/
import proofs.«101444_j62766652064051_2_alg».proof.Proof.Gen.KernelIdeal.Launch
import proofs.«101444_j62766652064051_2_alg».proof.Proof.KDefs
import Idealize.ShloMosaic.Lib.StableHlo.Run

noncomputable section

namespace Cert.KValue

open Idealize.ShloMosaic Idealize.ShloMosaic.StableHlo Idealize.ShloMosaic.TcCoe Cert.KernelIdeal Cert.KernelIdeal.Gen

variable (W : Valuation τ sig (Elt Ideal))

/-- Closes `after hostOps2 W b = W b` for a buffer `b` that no operation of the stretch writes: the stretch's result
    buffers are listed and `b` is told apart from each. -/
macro "host_keeps2" : tactic =>
  `(tactic| (refine StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

theorem ops2_v42 : after (hostOps2 (F := Ideal)) W (Proc.devRef .tc main_v42) = row2 (W (Proc.devRef .tc main_arg2)) := by
  dsimp only [hostOps2]; after_results; all_goals rfl

theorem ops2_v43 : after (hostOps2 (F := Ideal)) W (Proc.devRef .tc main_v43) = row2 (meanOf (W (Proc.devRef .tc main_v28_0))) := by
  dsimp only [hostOps2]; after_results; all_goals rfl

theorem ops2_v44 : after (hostOps2 (F := Ideal)) W (Proc.devRef .tc main_v44)
    = row2 (istdOf (W (Proc.devRef .tc main_v28_0)) (W (Proc.devRef .tc main_v28_1))) := by
  dsimp only [hostOps2]; after_results; all_goals rfl

theorem ops2_v45 : after (hostOps2 (F := Ideal)) W (Proc.devRef .tc main_v45) = row2 (W (Proc.devRef .tc main_arg3)) := by
  dsimp only [hostOps2]; after_results; all_goals rfl

theorem ops2_v46 : after (hostOps2 (F := Ideal)) W (Proc.devRef .tc main_v46) = row2 (W (Proc.devRef .tc main_arg4)) := by
  dsimp only [hostOps2]; after_results; all_goals rfl

theorem ops2_v26 : after (hostOps2 (F := Ideal)) W (Proc.devRef .tc main_v26) = W (Proc.devRef .tc main_v26) := by host_keeps2

theorem ops2_v15 : after (hostOps2 (F := Ideal)) W (Proc.devRef .tc main_v15) = W (Proc.devRef .tc main_v15) := by host_keeps2

end Cert.KValue

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.KRegions0.lean ====
/-
  The first kernel's output array as one function of its three input arrays.

  The kernel walks the 100000 node rows in 20 tiles of 5000. At tile t it holds rows 5000 t … 5000 t + 4999 of the
  feature array x, the whole weight matrix w, and the same rows of the scale column d2, and it stores, at row p and
  column q of the tile, (∑ k, x (5000 t + p, k) · w (k, q)) · d2 (5000 t + p, 0): the matrix product contracts the
  128 features, rounding to the narrower float format is the identity over the extended reals, the product
  accumulates from the zero word, and the scale column is spread along the 128 columns. Tile t is written back to rows
  5000 t … 5000 t + 4999 of the output; row r of the output is in tile r / 5000, so the 20 tiles fill the output and it
  ends as `KSpec.G0 x w d2` at every index.
-/
import proofs.«101444_j62766652064051_2_alg».proof.Proof.Gen.KernelIdeal.Frame
import proofs.«101444_j62766652064051_2_alg».proof.Proof.KSpec
import proofs.«101444_j62766652064051_2_alg».proof.Proof.LibDotRows
import proofs.«101444_j62766652064051_2_alg».proof.Proof.LibColumns
import Idealize.ShloMosaic.Lib.Pipeline.Value

noncomputable section

namespace Cert.KRegions

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One tile's stored value at row p, column q -/

/-- The tile's matrix product from a zero accumulator, at (p, q): the sum over the 128 contracted features of
    left (p, k) times right (k, q). -/
theorem dot0 (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  dot_rows dot_S5000x128_S128x128_S5000x128_1_0_0_1_n_n S5000x128 S128x128 128

/-- What the kernel stores at (p, q) of a tile: the product row p, column q, times the scale column's entry p. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  refine (mulf_apply _ _ _).trans ?_
  refine congrArg₂ (· * ·) ((dot0 _ _ p q).trans ?_) ?_
  · rfl
  · rw [shapeCast_self]
    exact Cert.Columns.broadcastTo_a1_ab_apply _ _ p q

/-- When the tile's three blocks hold row n of the feature array, the weight matrix, and entry n of the scale column,
    the stored value at (p, q) is `KSpec.g0` at node n, column q. -/
theorem point0 (x0 : Vec Ideal S5000x128 .f32) (x1 : Vec Ideal S128x128 .f32) (x2 : Vec Ideal S5000x1 .f32)
    (A0 : Cert.KSpec.Arr2 100000 128) (A1 : Cert.KSpec.Arr2 128 128) (A2 : Cert.KSpec.Arr2 100000 1)
    (n : Fin 100000) (p : Fin 5000) (q : Fin 128)
    (h0 : ∀ k : Fin 128, x0 (ix2 p k) = A0 (ix2 n k))
    (h1 : ∀ k : Fin 128, x1 (ix2 k q) = A1 (ix2 k q))
    (h2 : x2 (ix2 p (0 : Fin 1)) = A2 (ix2 n (0 : Fin 1))) :
    k0_pay1 (F := Ideal) x0 x1 x2 (ix2 p q) = Cert.KSpec.g0 A0 A1 A2 n q := by
  rw [pay0_apply, h2]
  unfold Cert.KSpec.g0
  refine congrArg (· * _) (Finset.sum_congr rfl fun k _ => ?_)
  rw [h0 k, h1 k]

/-! ## From the 20 tiles to the whole array -/

theorem hz0 : (![0, 0] : Fin 2 → Nat) = fun _ => 0 := funext fun a => by fin_cases a <;> rfl

/-- The block each window holds at tile t: tile t of the rows for the feature array, the scale column and the output,
    the one whole block for the weight matrix. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What tile t writes back is rows 5000 t … 5000 t + 4999 of `KSpec.G0` of the three input arrays. -/
theorem flushed0_eq (c : Dev nD) (t : Fin cfg0.N) :
    (dat0 (F := Ideal) V c).flushed 3 t
      = ((cfg0.win 3).blk t).view.read (Elt Ideal) (Cert.KSpec.G0 (V c main_arg0) (V c main_arg1) (V c main_v15)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  obtain ⟨e00, e01, e10, e11, e20, e21, e30, e31⟩ := idx_facts0 t
  have hN : cfg0.N = 20 := N_0
  have ht : t.val < 20 := hN ▸ t.isLt
  funext j
  obtain ⟨p, q, rfl⟩ : ∃ (p : Fin 5000) (q : Fin 128), j = (ix2 p q : S5000x128.Idx) :=
    ⟨j 0, j 1, eq_ix2 (n0 := 5000) (n1 := 128) j⟩
  show k0_pay1 (F := Ideal) (iblk0 V c 0 t) (iblk0 V c 1 t) (iblk0 V c 2 t) (ix2 p q)
    = Cert.KSpec.G0 (V c main_arg0) (V c main_arg1) (V c main_v15) (((cfg0.win 3).blk t).view.emb (ix2 p q))
  refine (point0 (iblk0 V c 0 t) (iblk0 V c 1 t) (iblk0 V c 2 t) (V c main_arg0) (V c main_arg1) (V c main_v15)
    ⟨5000 * t.val + p.val, by have := p.isLt; omega⟩ p q ?_ ?_ ?_).trans ?_
  · -- the feature block's row p is row 5000 t + p of the array
    intro k
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  · -- the weight block is the whole matrix
    intro k
    show V c main_arg1 (((cfg0.win 1).blk t).view.emb (ix2 k q)) = _
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · -- the scale block's entry p is entry 5000 t + p of the column
    show V c main_v15 (((cfg0.win 2).blk t).view.emb (ix2 p (0 : Fin 1))) = _
    refine congrArg (V c main_v15) (funext fun a => Fin.ext ?_)
    match a with
    | ⟨0, _⟩ => show win0_2.index t (0 : Fin 2) * 5000 + 1 * p.val = 5000 * t.val + p.val; omega
    | ⟨1, _⟩ => show win0_2.index t (1 : Fin 2) * 1 + 1 * 0 = 0; omega
  · -- and (p, q) of the output block is (5000 t + p, q) of the output
    unfold Cert.KSpec.G0
    refine congrArg₂ (Cert.KSpec.g0 _ _ _) (Fin.ext ?_) (Fin.ext ?_)
    · show 5000 * t.val + p.val = win0_3.index t (0 : Fin 2) * 5000 + 1 * p.val; omega
    · show q.val = win0_3.index t (1 : Fin 2) * 128 + 1 * q.val; omega

/-- An index of the output is in tile t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every index of the output is in some tile's block: row r is in tile r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨_, _, _, _, _, _, e30, e31⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The first kernel's output array, after all 20 tiles, is `KSpec.G0` of its three input arrays. -/
theorem arr0 (c : Dev nD) :
    (dat0 (F := Ideal) V c).arrAt 3 cfg0.N = Cert.KSpec.G0 (V c main_arg0) (V c main_arg1) (V c main_v15) :=
  (dat0 (F := Ideal) V c).arrAt_eq_of_cover 3 (Cert.KSpec.G0 (V c main_arg0) (V c main_arg1) (V c main_v15))
    (fun t _ => flushed0_eq V c t) cover0

end Cert.KRegions

end
-- ==== Proof.KRegions1.lean ====
/-
  The statistics kernel: its two output arrays as functions of its three input arrays.

  The kernel runs over 20 tiles of 5000 rows. At tile `t` it takes rows `5000 t … 5000 t + 4999` of the
  aggregate `[100000, 128]` and of the per-row factor `[100000, 1]`, and the whole bias row `[1, 128]`;
  it forms, entry by entry, the scaled, biased aggregate cut off below at zero, and sums it — and its
  square — down the tile's 5000 rows, one value per feature. Each sum lands in row `t` of an array
  `[20, 1, 128]`. Over the extended reals addition is exact, so the sum down the rows is the plain finite
  sum whatever order the hardware adds in; hence the two arrays are `S1` and `S2` of the specification.
-/
import proofs.«101444_j62766652064051_2_alg».proof.Proof.Gen.KernelIdeal.Frame
import proofs.«101444_j62766652064051_2_alg».proof.Proof.KSpec
import proofs.«101444_j62766652064051_2_alg».proof.Proof.LibColumns
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KRegions

open Cert.KernelIdeal Cert.KernelIdeal.Gen Idealize.ShloMosaic Idealize.ShloMosaic.TcCoe Idealize.ShloMosaic.ValueIdx
open Idealize.ShloMosaic.Pipeline (Dat)
open scoped BigOperators

/-! ## The body's values at an index -/

/-- Column `c` of the reduced array with coordinate `k` put back on the reduced (first) axis is the index `(k, c)`. -/
theorem lift_col {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A sum of an `[a, b]` array down its first axis, at the extended reals, read at column `c`: the sum of the
    column's `a` entries. -/
theorem multiReduction_add_col {a b : ℕ} (src : FVec Ideal ⟨2, ![a, b]⟩ .f32)
    (h : (⟨2, ![a, b]⟩ : Shape).Reduces [0] (⟨1, ![b]⟩ : Shape)) (hφ : FKind.Formats FTy.f32)
    (hacc : (0x00000000#32 : BitVec 32) = 0x00000000#32) (c : Fin b) :
    multiReduction .add [0] ⟨1, ![b]⟩ src 0x00000000#32 h hφ hacc (ix1 c) = ∑ p : Fin a, src (ix2 p c) := by
  refine (Ideal.multiReduction_add_single src 0x00000000#32 h hφ hacc (ix1 c)).trans ?_
  exact congrArg (fun f => Finset.sum (Finset.univ : Finset (Fin a)) f)
    (funext fun k => congrArg src (lift_col h c k))

/-- The rectified value the body forms at row `p`, feature `c` of a tile: the aggregate's entry times the row's
    factor, plus the feature's bias, cut off below at zero. -/
theorem rect_apply (x0 : Vec Ideal S5000x128 .f32) (x1 : Vec Ideal S5000x1 .f32) (x2 : Vec Ideal S1x128 .f32)
    (p : Fin 5000) (c : Fin 128) :
    k1_pay1 x0 x1 x2 (ix2 p c)
      = max (x0 (ix2 p c) * x1 (ix2 p (0 : Fin 1)) + x2 (ix2 (0 : Fin 1) c)) 0 := by
  unfold k1_pay1
  rw [maximumf_apply, addf_apply, mulf_apply, broadcast_apply, shapeCast_self, shapeCast_self, shapeCast_self,
    Cert.Columns.broadcastTo_a1_ab_apply, broadcastTo_1b_ab_apply]
  exact congrArg (max _) Ideal.ofBits_zero_f32

/-- What the body stores for the first output, at feature `c`: the sum of the rectified values down the tile's rows. -/
theorem sum_apply (x0 : Vec Ideal S5000x128 .f32) (x1 : Vec Ideal S5000x1 .f32) (x2 : Vec Ideal S1x128 .f32)
    (u v : Fin 1) (c : Fin 128) :
    k1_pay2 x0 x1 x2 (ix3 u v c)
      = ∑ p : Fin 5000, max (x0 (ix2 p c) * x1 (ix2 p (0 : Fin 1)) + x2 (ix2 (0 : Fin 1) c)) 0 := by
  unfold k1_pay2
  refine (shapeCast_ab_1ab_apply _ _ u v c).trans ?_
  refine (shapeCast_a_1a_apply _ _ v c).trans ?_
  refine (multiReduction_add_col _ _ _ _ c).trans ?_
  exact Finset.sum_congr rfl fun p _ => rect_apply x0 x1 x2 p c

/-- What the body stores for the second output, at feature `c`: the sum of the squared rectified values down the
    tile's rows. -/
theorem sumsq_apply (x0 : Vec Ideal S5000x128 .f32) (x1 : Vec Ideal S5000x1 .f32) (x2 : Vec Ideal S1x128 .f32)
    (u v : Fin 1) (c : Fin 128) :
    k1_pay3 x0 x1 x2 (ix3 u v c)
      = ∑ p : Fin 5000, max (x0 (ix2 p c) * x1 (ix2 p (0 : Fin 1)) + x2 (ix2 (0 : Fin 1) c)) 0
          * max (x0 (ix2 p c) * x1 (ix2 p (0 : Fin 1)) + x2 (ix2 (0 : Fin 1) c)) 0 := by
  unfold k1_pay3
  refine (shapeCast_ab_1ab_apply _ _ u v c).trans ?_
  refine (shapeCast_a_1a_apply _ _ v c).trans ?_
  refine (multiReduction_add_col _ _ _ _ c).trans ?_
  exact Finset.sum_congr rfl fun p _ => by rw [mulf_apply, rect_apply]

/-! ## The specification's arrays at an index given by coordinates -/

/-- `S1` at an index whose first coordinate is tile `t` and whose last is feature `cc`. -/
theorem S1_apply (agg : Cert.KSpec.Arr2 100000 128) (d2 : Cert.KSpec.Arr2 100000 1) (b2 : Cert.KSpec.Arr2 1 128)
    (i : (⟨3, ![20, 1, 128]⟩ : Shape).Idx) (t : Fin 20) (cc : Fin 128) (h0 : (i 0).val = t.val) (h2 : (i 2).val = cc.val) :
    Cert.KSpec.S1 agg d2 b2 i = Cert.KSpec.s1 agg d2 b2 t cc :=
  congrArg₂ (Cert.KSpec.s1 agg d2 b2) (Fin.ext h0) (Fin.ext h2)

/-- `S2` at an index whose first coordinate is tile `t` and whose last is feature `cc`. -/
theorem S2_apply (agg : Cert.KSpec.Arr2 100000 128) (d2 : Cert.KSpec.Arr2 100000 1) (b2 : Cert.KSpec.Arr2 1 128)
    (i : (⟨3, ![20, 1, 128]⟩ : Shape).Idx) (t : Fin 20) (cc : Fin 128) (h0 : (i 0).val = t.val) (h2 : (i 2).val = cc.val) :
    Cert.KSpec.S2 agg d2 b2 i = Cert.KSpec.s2 agg d2 b2 t cc :=
  congrArg₂ (Cert.KSpec.s2 agg d2 b2) (Fin.ext h0) (Fin.ext h2)

/-! ## The windows' blocks -/

variable (V : (c : Dev nD) → (b : Ref sig .tc) → Buf (Elt Ideal) ((c : Thread nD τ).loc b))

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- A grid point as a tile number. -/
def tile (t : Fin cfg1.N) : Fin 20 := ⟨t.val, lt_of_lt_of_eq t.isLt N_1⟩

/-- The windows' index maps, decided over the 20 grid points: the two row-tiled inputs and the two outputs sit at
    block `t` on their first axis and block 0 on the others; the bias row is always block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- The aggregate's block at tile `t` is rows `5000 t … 5000 t + 4999` of the array. -/
theorem blk0_apply (c : Dev nD) (t : Fin cfg1.N) (p : Fin 5000) (cc : Fin 128) :
    (iblk1 V c 0 t : Vec Ideal S5000x128 .f32) (ix2 p cc)
      = (V c main_v26 : S100000x128.Idx → EReal) (ix2 (Cert.KSpec.rowOf (tile t) p) cc) := by
  obtain ⟨e0, e1, -⟩ := idx_facts t
  show V c main_v26 (((cfg1.win 0).blk t).view.emb (ix2 p cc)) = V c main_v26 _
  refine congrArg (V c main_v26) ?_
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * cc.val = cc.val; rw [e1]; omega

/-- The row factors' block at tile `t` is rows `5000 t … 5000 t + 4999` of the column. -/
theorem blk1_apply (c : Dev nD) (t : Fin cfg1.N) (p : Fin 5000) (u : Fin 1) :
    (iblk1 V c 1 t : Vec Ideal S5000x1 .f32) (ix2 p u)
      = (V c main_v15 : S100000x1.Idx → EReal) (ix2 (Cert.KSpec.rowOf (tile t) p) (0 : Fin 1)) := by
  obtain ⟨-, -, e0, e1, -⟩ := idx_facts t
  show V c main_v15 (((cfg1.win 1).blk t).view.emb (ix2 p u)) = V c main_v15 _
  refine congrArg (V c main_v15) ?_
  funext a; apply Fin.ext
  match a with
  | ⟨0, _⟩ => show win1_1.index t (0 : Fin 2) * 5000 + 1 * p.val = 5000 * t.val + p.val; rw [e0]; omega
  | ⟨1, _⟩ => show win1_1.index t (1 : Fin 2) * 1 + 1 * u.val = 0; rw [e1]; omega

/-- The bias row's block is the whole row at every tile. -/
theorem blk2_apply (c : Dev nD) (t : Fin cfg1.N) (u : Fin 1) (cc : Fin 128) :
    (iblk1 V c 2 t : Vec Ideal S1x128 .f32) (ix2 u cc)
      = (V c main_v27 : S1x128.Idx → EReal) (ix2 (0 : Fin 1) cc) := by
  obtain ⟨-, -, -, -, e0, e1, -⟩ := idx_facts t
  show V c main_v27 (((cfg1.win 2).blk t).view.emb (ix2 u cc)) = V c main_v27 _
  refine congrArg (V c main_v27) ?_
  funext a; apply Fin.ext
  match a with
  | ⟨0, _⟩ => show win1_2.index t (0 : Fin 2) * 1 + 1 * u.val = 0; rw [e0]; omega
  | ⟨1, _⟩ => show win1_2.index t (1 : Fin 2) * 128 + 1 * cc.val = cc.val; rw [e1]; omega

/-! ## What a tile writes back -/

/-- Tile `t` writes back block `t` of `S1` of the three arrays as the region finds them. -/
theorem flushed3_eq (c : Dev nD) (t : Fin cfg1.N) :
    (dat1 (F := Ideal) V c).flushed 3 t = ((cfg1.win 3).blk t).view.read (Elt Ideal)
      (Cert.KSpec.S1 (V c main_v26) (V c main_v15) (V c main_v27)) := by
  show (cfg1.win 3).cut (grid1.coords t) ((dat1 V c).after 3 t) = _
  rw [after1_3]
  unfold out1_3
  rw [View.canon_unit_zero hz1_3]
  simp only [View.ld_unit_zero (S := S5000x128) hz1_2, View.ld_unit_zero (S := S5000x1) hz1_2, View.ld_unit_zero (S := S1x128) hz1_2]
  obtain ⟨-, -, -, -, -, -, e0, e1, e2, -⟩ := idx_facts t
  funext j
  obtain ⟨u, v, cc, rfl⟩ : ∃ (u v : Fin 1) (cc : Fin 128), j = ix3 u v cc := ⟨j 0, j 1, j 2, eq_ix3 j⟩
  show k1_pay2 (iblk1 V c 0 t) (iblk1 V c 1 t) (iblk1 V c 2 t) (ix3 u v cc)
    = Cert.KSpec.S1 (V c main_v26) (V c main_v15) (V c main_v27) (((cfg1.win 3).blk t).view.emb (ix3 u v cc))
  refine (sum_apply (iblk1 V c 0 t) (iblk1 V c 1 t) (iblk1 V c 2 t) u v cc).trans ?_
  refine Eq.trans ?_ (S1_apply (V c main_v26) (V c main_v15) (V c main_v27) _ (tile t) cc ?_ ?_).symm
  · unfold Cert.KSpec.s1 Cert.KSpec.relu
    refine Finset.sum_congr rfl fun p _ => ?_
    rw [blk0_apply V c t p cc, blk1_apply V c t p (0 : Fin 1), blk2_apply V c t (0 : Fin 1) cc]
  · show win1_3.index t (0 : Fin 3) * 1 + 1 * u.val = t.val
    rw [e0]; omega
  · show win1_3.index t (2 : Fin 3) * 128 + 1 * cc.val = cc.val
    rw [e2]; omega

/-- An index of the first output array is in tile `t`'s block iff each coordinate is in the block's range. -/
theorem mem_blk3 (t : Fin cfg1.N) (i : S20x1x128.Idx) :
    i ∈ ((cfg1.win 3).blk t).view.set ↔ ∀ a : Fin 3, win1_3.index t a * S1x1x128.size a ≤ (i a).val
      ∧ (i a).val < win1_3.index t a * S1x1x128.size a + S1x1x128.size a := by
  show i ∈ ((View.whole main_v28_0).slice (win1_3.rect t)).set ↔ _
  rw [View.set_slice_whole, Rect.mem_set_unit]
  exact Iff.rfl

/-- Every index `(b, 0, c)` of the first output array is in tile `b`'s block. -/
theorem cover3 (i : S20x1x128.Idx) :
    ∃ t : Fin cfg1.N, (cfg1.win 3).flush t = true ∧ i ∈ ((cfg1.win 3).blk t).view.set := by
  have h0 : (i 0).val < 20 := (i 0).isLt
  have h1 : (i 1).val < 1 := (i 1).isLt
  have h2 : (i 2).val < 128 := (i 2).isLt
  have hN : cfg1.N = 20 := N_1
  refine ⟨⟨(i 0).val, by omega⟩, flush1_3 _, ?_⟩
  rw [mem_blk3]
  obtain ⟨-, -, -, -, -, -, e0, e1, e2, -⟩ := idx_facts ⟨(i 0).val, by omega⟩
  intro a
  match a with
  | ⟨0, _⟩ =>
    show win1_3.index _ (0 : Fin 3) * 1 ≤ (i 0).val ∧ (i 0).val < win1_3.index _ (0 : Fin 3) * 1 + 1
    rw [e0]; show (i 0).val * 1 ≤ (i 0).val ∧ (i 0).val < (i 0).val * 1 + 1; omega
  | ⟨1, _⟩ =>
    show win1_3.index _ (1 : Fin 3) * 1 ≤ (i 1).val ∧ (i 1).val < win1_3.index _ (1 : Fin 3) * 1 + 1
    rw [e1]; omega
  | ⟨2, _⟩ =>
    show win1_3.index _ (2 : Fin 3) * 128 ≤ (i 2).val ∧ (i 2).val < win1_3.index _ (2 : Fin 3) * 128 + 128
    rw [e2]; omega

/-- The first output array after the region: per tile and feature, the sum of the rectified values over the tile's rows. -/
theorem arr1_3 (c : Dev nD) :
    (dat1 (F := Ideal) V c).arrAt 3 cfg1.N = Cert.KSpec.S1 (V c main_v26) (V c main_v15) (V c main_v27) :=
  (dat1 V c).arrAt_eq_of_cover 3 (Cert.KSpec.S1 (V c main_v26) (V c main_v15) (V c main_v27))
    (fun t _ => flushed3_eq V c t) cover3

/-- Tile `t` writes back block `t` of `S2` of the three arrays as the region finds them. -/
theorem flushed4_eq (c : Dev nD) (t : Fin cfg1.N) :
    (dat1 (F := Ideal) V c).flushed 4 t = ((cfg1.win 4).blk t).view.read (Elt Ideal)
      (Cert.KSpec.S2 (V c main_v26) (V c main_v15) (V c main_v27)) := by
  show (cfg1.win 4).cut (grid1.coords t) ((dat1 V c).after 4 t) = _
  rw [after1_4]
  unfold out1_4
  rw [View.canon_unit_zero hz1_3]
  simp only [View.ld_unit_zero (S := S5000x128) hz1_2, View.ld_unit_zero (S := S5000x1) hz1_2, View.ld_unit_zero (S := S1x128) hz1_2]
  obtain ⟨-, -, -, -, -, -, -, -, -, e0, e1, e2⟩ := idx_facts t
  funext j
  obtain ⟨u, v, cc, rfl⟩ : ∃ (u v : Fin 1) (cc : Fin 128), j = ix3 u v cc := ⟨j 0, j 1, j 2, eq_ix3 j⟩
  show k1_pay3 (iblk1 V c 0 t) (iblk1 V c 1 t) (iblk1 V c 2 t) (ix3 u v cc)
    = Cert.KSpec.S2 (V c main_v26) (V c main_v15) (V c main_v27) (((cfg1.win 4).blk t).view.emb (ix3 u v cc))
  refine (sumsq_apply (iblk1 V c 0 t) (iblk1 V c 1 t) (iblk1 V c 2 t) u v cc).trans ?_
  refine Eq.trans ?_ (S2_apply (V c main_v26) (V c main_v15) (V c main_v27) _ (tile t) cc ?_ ?_).symm
  · unfold Cert.KSpec.s2 Cert.KSpec.relu
    refine Finset.sum_congr rfl fun p _ => ?_
    rw [blk0_apply V c t p cc, blk1_apply V c t p (0 : Fin 1), blk2_apply V c t (0 : Fin 1) cc]
  · show win1_4.index t (0 : Fin 3) * 1 + 1 * u.val = t.val
    rw [e0]; omega
  · show win1_4.index t (2 : Fin 3) * 128 + 1 * cc.val = cc.val
    rw [e2]; omega

/-- An index of the second output array is in tile `t`'s block iff each coordinate is in the block's range. -/
theorem mem_blk4 (t : Fin cfg1.N) (i : S20x1x128.Idx) :
    i ∈ ((cfg1.win 4).blk t).view.set ↔ ∀ a : Fin 3, win1_4.index t a * S1x1x128.size a ≤ (i a).val
      ∧ (i a).val < win1_4.index t a * S1x1x128.size a + S1x1x128.size a := by
  show i ∈ ((View.whole main_v28_1).slice (win1_4.rect t)).set ↔ _
  rw [View.set_slice_whole, Rect.mem_set_unit]
  exact Iff.rfl

/-- Every index `(b, 0, c)` of the second output array is in tile `b`'s block. -/
theorem cover4 (i : S20x1x128.Idx) :
    ∃ t : Fin cfg1.N, (cfg1.win 4).flush t = true ∧ i ∈ ((cfg1.win 4).blk t).view.set := by
  have h0 : (i 0).val < 20 := (i 0).isLt
  have h1 : (i 1).val < 1 := (i 1).isLt
  have h2 : (i 2).val < 128 := (i 2).isLt
  have hN : cfg1.N = 20 := N_1
  refine ⟨⟨(i 0).val, by omega⟩, flush1_4 _, ?_⟩
  rw [mem_blk4]
  obtain ⟨-, -, -, -, -, -, -, -, -, e0, e1, e2⟩ := idx_facts ⟨(i 0).val, by omega⟩
  intro a
  match a with
  | ⟨0, _⟩ =>
    show win1_4.index _ (0 : Fin 3) * 1 ≤ (i 0).val ∧ (i 0).val < win1_4.index _ (0 : Fin 3) * 1 + 1
    rw [e0]; show (i 0).val * 1 ≤ (i 0).val ∧ (i 0).val < (i 0).val * 1 + 1; omega
  | ⟨1, _⟩ =>
    show win1_4.index _ (1 : Fin 3) * 1 ≤ (i 1).val ∧ (i 1).val < win1_4.index _ (1 : Fin 3) * 1 + 1
    rw [e1]; omega
  | ⟨2, _⟩ =>
    show win1_4.index _ (2 : Fin 3) * 128 ≤ (i 2).val ∧ (i 2).val < win1_4.index _ (2 : Fin 3) * 128 + 128
    rw [e2]; omega

/-- The second output array after the region: per tile and feature, the sum of the squared rectified values over the
    tile's rows. -/
theorem arr1_4 (c : Dev nD) :
    (dat1 (F := Ideal) V c).arrAt 4 cfg1.N = Cert.KSpec.S2 (V c main_v26) (V c main_v15) (V c main_v27) :=
  (dat1 V c).arrAt_eq_of_cover 4 (Cert.KSpec.S2 (V c main_v26) (V c main_v15) (V c main_v27))
    (fun t _ => flushed4_eq V c t) cover4

end Cert.KRegions

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«101444_j62766652064051_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.KRegions2.lean ====
/-
  The third kernel's output array as one function of its seven input arrays.

  The kernel walks the 100000 node rows in 20 tiles of 5000. At tile t it holds rows 5000 t … 5000 t + 4999 of the
  aggregate and of the scale column d2, and the five parameter rows (bias, mean, inverse deviation, gamma, beta), each a
  whole [1, 128] array. At row p and column q of the tile it forms
    bn (p, q) = (max (agg (p, q) · d2 (p, 0) + bias q) 0 − mean q) · istd q · gamma q + beta q,
  sums bn (p, ·)² along the row's 128 columns (over the extended reals the sum is exact, whatever its order), takes the
  square root, bounds it below by the small constant, and stores bn (p, q) divided by that bound. Tile t is written back
  to rows 5000 t … 5000 t + 4999 of the output; row r of the output is in tile r / 5000, so the 20 tiles fill the
  output and it ends as `KSpec.G2` of the seven arrays at every index.
-/
import proofs.«101444_j62766652064051_2_alg».proof.Proof.Gen.KernelIdeal.Frame
import proofs.«101444_j62766652064051_2_alg».proof.Proof.KSpec
import proofs.«101444_j62766652064051_2_alg».proof.Proof.LibColumns
import proofs.«101444_j62766652064051_2_alg».proof.Proof.LibRowSum
import Idealize.ShloMosaic.Lib.Pipeline.Value

noncomputable section

namespace Cert.KRegions

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One tile's stored value at row p, column q -/

/-- The standardised tile: the aggregate scaled by the scale column, plus the bias row, cut off below at zero,
    minus the mean row, times the inverse-deviation row, times the gamma row, plus the beta row. -/
def bnv2 (x0 : Vec Ideal S5000x128 .f32) (x1 : Vec Ideal S5000x1 .f32) (x2 x3 x4 x5 x6 : Vec Ideal S1x128 .f32) :
    FVec Ideal S5000x128 .f32 :=
  addf (mulf (mulf (subf (maximumf (addf (mulf (shapeCast S5000x128 x0 shapeCasts_S5000x128_S5000x128)
      (broadcastTo S5000x128 (shapeCast S5000x1 x1 shapeCasts_S5000x1_S5000x1) broadcasts_S5000x1_S5000x128))
      (broadcastTo S5000x128 (shapeCast S1x128 x2 shapeCasts_S1x128_S1x128) broadcasts_S1x128_S5000x128))
      (broadcast S5000x128 (Scalar.ofBits .f32 0x00000000#32)))
      (broadcastTo S5000x128 (shapeCast S1x128 x3 shapeCasts_S1x128_S1x128) broadcasts_S1x128_S5000x128))
      (broadcastTo S5000x128 (shapeCast S1x128 x4 shapeCasts_S1x128_S1x128) broadcasts_S1x128_S5000x128))
      (broadcastTo S5000x128 (shapeCast S1x128 x5 shapeCasts_S1x128_S1x128) broadcasts_S1x128_S5000x128))
      (broadcastTo S5000x128 (shapeCast S1x128 x6 shapeCasts_S1x128_S1x128) broadcasts_S1x128_S5000x128)

/-- The stored tile is the standardised tile divided, entrywise, by the column of bounded row lengths spread along the
    128 columns; the standardised tile occurs three times in it. -/
theorem pay2_split (x0 : Vec Ideal S5000x128 .f32) (x1 : Vec Ideal S5000x1 .f32) (x2 x3 x4 x5 x6 : Vec Ideal S1x128 .f32) :
    k2_pay1 (F := Ideal) x0 x1 x2 x3 x4 x5 x6
      = divf (bnv2 x0 x1 x2 x3 x4 x5 x6)
          (broadcastTo S5000x128
            (maximumf
              (sqrt (shapeCast S5000x1
                (multiReduction .add [1] S5000 (mulf (bnv2 x0 x1 x2 x3 x4 x5 x6) (bnv2 x0 x1 x2 x3 x4 x5 x6)) 0x00000000#32
                  reduces_S5000x128_S5000 (.inl rfl) rfl) shapeCasts_S5000_S5000x1))
              (broadcast S5000x1 (Scalar.ofBits .f32 0x2B8CBCCC#32)))
            broadcasts_S5000x1_S5000x128) := rfl

/-- The standardised tile at (p, q), through the column and row broadcasts. -/
theorem bnv2_apply (x0 : Vec Ideal S5000x128 .f32) (x1 : Vec Ideal S5000x1 .f32) (x2 x3 x4 x5 x6 : Vec Ideal S1x128 .f32)
    (p : Fin 5000) (q : Fin 128) :
    bnv2 x0 x1 x2 x3 x4 x5 x6 (ix2 p q)
      = (max (x0 (ix2 p q) * x1 (ix2 p (0 : Fin 1)) + x2 (ix2 (0 : Fin 1) q)) 0 - x3 (ix2 (0 : Fin 1) q))
          * x4 (ix2 (0 : Fin 1) q) * x5 (ix2 (0 : Fin 1) q) + x6 (ix2 (0 : Fin 1) q) := by
  unfold bnv2
  simp only [shapeCast_self]
  rw [addf_apply, mulf_apply, mulf_apply, subf_apply, maximumf_apply, addf_apply, mulf_apply, broadcast_apply,
    Cert.Columns.broadcastTo_a1_ab_apply, broadcastTo_1b_ab_apply, broadcastTo_1b_ab_apply, broadcastTo_1b_ab_apply,
    broadcastTo_1b_ab_apply, broadcastTo_1b_ab_apply]
  rw [Ideal.ofBits_def, Ideal.ofBits_zero_f32]

/-- A tile's lane sum from the zero word, at row p: the sum of the row's 128 entries. -/
theorem rowsum2 (src : FVec Ideal S5000x128 .f32) (h : S5000x128.Reduces [1] S5000) (hφ : FKind.Formats .f32)
    (hacc : (0x00000000#32 : BitVec 32) = 0x00000000#32) (p : Fin 5000) :
    multiReduction .add [1] S5000 src 0x00000000#32 h hφ hacc (ix1 p) = ∑ k : Fin 128, src (ix2 p k) :=
  Cert.RowSum.multiReduction_add_row src 0x00000000#32 h hφ hacc p

/-- What the kernel stores at (p, q) of a tile: the standardised value divided by the row's length, the length
    no less than the small constant. -/
theorem pay2_apply (x0 : Vec Ideal S5000x128 .f32) (x1 : Vec Ideal S5000x1 .f32) (x2 x3 x4 x5 x6 : Vec Ideal S1x128 .f32)
    (p : Fin 5000) (q : Fin 128) :
    k2_pay1 (F := Ideal) x0 x1 x2 x3 x4 x5 x6 (ix2 p q)
      = Ideal.div (bnv2 x0 x1 x2 x3 x4 x5 x6 (ix2 p q))
          (max (Ideal.sqrt (∑ k : Fin 128, bnv2 x0 x1 x2 x3 x4 x5 x6 (ix2 p k) * bnv2 x0 x1 x2 x3 x4 x5 x6 (ix2 p k)))
            (Ideal.ofBits .f32 0x2B8CBCCC#32)) := by
  rw [pay2_split]
  refine (divf_apply _ _ _).trans ?_
  refine congrArg (Ideal.div _) ?_
  refine (Cert.Columns.broadcastTo_a1_ab_apply _ _ p q).trans ?_
  refine (maximumf_apply _ _ _).trans ?_
  refine congrArg₂ max ?_ rfl
  show Ideal.sqrt (shapeCast S5000x1 _ shapeCasts_S5000_S5000x1 (ix2 p (0 : Fin 1))) = _
  refine congrArg Ideal.sqrt ?_
  refine (Cert.Columns.shapeCast_a_a1_apply _ _ p (0 : Fin 1)).trans ?_
  refine (rowsum2 _ _ _ _ p).trans ?_
  rfl

/-- When the tile's blocks hold row n of the aggregate, entry n of the scale column and the five parameter rows,
    the stored value at (p, q) is `KSpec.g2` at node n, column q. -/
theorem point2 (x0 : Vec Ideal S5000x128 .f32) (x1 : Vec Ideal S5000x1 .f32) (x2 x3 x4 x5 x6 : Vec Ideal S1x128 .f32)
    (A0 : Cert.KSpec.Arr2 100000 128) (A1 : Cert.KSpec.Arr2 100000 1) (A2 A3 A4 A5 A6 : Cert.KSpec.Arr2 1 128)
    (n : Fin 100000) (p : Fin 5000) (q : Fin 128)
    (h0 : ∀ k : Fin 128, x0 (ix2 p k) = A0 (ix2 n k))
    (h1 : x1 (ix2 p (0 : Fin 1)) = A1 (ix2 n (0 : Fin 1)))
    (h2 : ∀ k : Fin 128, x2 (ix2 (0 : Fin 1) k) = A2 (ix2 (0 : Fin 1) k))
    (h3 : ∀ k : Fin 128, x3 (ix2 (0 : Fin 1) k) = A3 (ix2 (0 : Fin 1) k))
    (h4 : ∀ k : Fin 128, x4 (ix2 (0 : Fin 1) k) = A4 (ix2 (0 : Fin 1) k))
    (h5 : ∀ k : Fin 128, x5 (ix2 (0 : Fin 1) k) = A5 (ix2 (0 : Fin 1) k))
    (h6 : ∀ k : Fin 128, x6 (ix2 (0 : Fin 1) k) = A6 (ix2 (0 : Fin 1) k)) :
    k2_pay1 (F := Ideal) x0 x1 x2 x3 x4 x5 x6 (ix2 p q) = Cert.KSpec.g2 A0 A1 A2 A3 A4 A5 A6 n q := by
  have hb : ∀ k : Fin 128, bnv2 x0 x1 x2 x3 x4 x5 x6 (ix2 p k) = Cert.KSpec.bn A0 A1 A2 A3 A4 A5 A6 n k := fun k => by
    rw [bnv2_apply, h0 k, h1, h2 k, h3 k, h4 k, h5 k, h6 k]
    rfl
  rw [pay2_apply]
  unfold Cert.KSpec.g2
  refine congrArg₂ Ideal.div (hb q) ?_
  refine congrArg (fun s => max (Ideal.sqrt s) (Ideal.ofBits .f32 0x2B8CBCCC#32)) ?_
  exact Finset.sum_congr rfl fun k _ => by rw [hb k]

/-! ## From the 20 tiles to the whole array -/

theorem hz2 : (![0, 0] : Fin 2 → Nat) = fun _ => 0 := funext fun a => by fin_cases a <;> rfl

/-- The block each window holds at tile t: tile t of the rows for the aggregate, the scale column and the output,
    the one whole block for each of the five parameter rows. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

variable (V : (c : Dev nD) → (b : Ref sig .tc) → Buf (Elt Ideal) ((c : Thread nD τ).loc b))

/-- What tile t writes back is rows 5000 t … 5000 t + 4999 of `KSpec.G2` of the seven input arrays. -/
theorem flushed2_eq (c : Dev nD) (t : Fin cfg2.N) :
    (dat2 (F := Ideal) V c).flushed 7 t
      = ((cfg2.win 7).blk t).view.read (Elt Ideal)
          (Cert.KSpec.G2 (V c main_v26) (V c main_v15) (V c main_v42) (V c main_v43) (V c main_v44) (V c main_v45) (V c main_v46)) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S5000x1) hz2, View.ld_unit_zero (S := S1x128) hz2]
  obtain ⟨e00, e01, e10, e11, e20, e21, e30, e31, e40, e41, e50, e51, e60, e61, e70, e71⟩ := idx_facts2 t
  have hN : cfg2.N = 20 := N_2
  have ht : t.val < 20 := hN ▸ t.isLt
  funext j
  obtain ⟨p, q, rfl⟩ : ∃ (p : Fin 5000) (q : Fin 128), j = (ix2 p q : S5000x128.Idx) :=
    ⟨j 0, j 1, eq_ix2 (n0 := 5000) (n1 := 128) j⟩
  show k2_pay1 (F := Ideal) (iblk2 V c 0 t) (iblk2 V c 1 t) (iblk2 V c 2 t) (iblk2 V c 3 t) (iblk2 V c 4 t) (iblk2 V c 5 t)
      (iblk2 V c 6 t) (ix2 p q)
    = Cert.KSpec.G2 (V c main_v26) (V c main_v15) (V c main_v42) (V c main_v43) (V c main_v44) (V c main_v45) (V c main_v46)
        (((cfg2.win 7).blk t).view.emb (ix2 p q))
  refine (point2 (iblk2 V c 0 t) (iblk2 V c 1 t) (iblk2 V c 2 t) (iblk2 V c 3 t) (iblk2 V c 4 t) (iblk2 V c 5 t) (iblk2 V c 6 t)
    (V c main_v26) (V c main_v15) (V c main_v42) (V c main_v43) (V c main_v44) (V c main_v45) (V c main_v46)
    ⟨5000 * t.val + p.val, by have := p.isLt; omega⟩ p q ?_ ?_ ?_ ?_ ?_ ?_ ?_).trans ?_
  · -- the aggregate block's row p is row 5000 t + p of the array
    intro k
    show V c main_v26 (((cfg2.win 0).blk t).view.emb (ix2 p k)) = _
    refine congrArg (V c main_v26) (funext fun a => Fin.ext ?_)
    match a with
    | ⟨0, _⟩ => show win2_0.index t (0 : Fin 2) * 5000 + 1 * p.val = 5000 * t.val + p.val; omega
    | ⟨1, _⟩ => show win2_0.index t (1 : Fin 2) * 128 + 1 * k.val = k.val; omega
  · -- the scale block's entry p is entry 5000 t + p of the column
    show V c main_v15 (((cfg2.win 1).blk t).view.emb (ix2 p (0 : Fin 1))) = _
    refine congrArg (V c main_v15) (funext fun a => Fin.ext ?_)
    match a with
    | ⟨0, _⟩ => show win2_1.index t (0 : Fin 2) * 5000 + 1 * p.val = 5000 * t.val + p.val; omega
    | ⟨1, _⟩ => show win2_1.index t (1 : Fin 2) * 1 + 1 * 0 = 0; omega
  · -- each parameter block is its whole row
    intro k
    show V c main_v42 (((cfg2.win 2).blk t).view.emb (ix2 (0 : Fin 1) k)) = _
    refine congrArg (V c main_v42) (funext fun a => Fin.ext ?_)
    match a with
    | ⟨0, _⟩ => show win2_2.index t (0 : Fin 2) * 1 + 1 * 0 = 0; omega
    | ⟨1, _⟩ => show win2_2.index t (1 : Fin 2) * 128 + 1 * k.val = k.val; omega
  · intro k
    show V c main_v43 (((cfg2.win 3).blk t).view.emb (ix2 (0 : Fin 1) k)) = _
    refine congrArg (V c main_v43) (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  · intro k
    show V c main_v44 (((cfg2.win 4).blk t).view.emb (ix2 (0 : Fin 1) k)) = _
    refine congrArg (V c main_v44) (funext fun a => Fin.ext ?_)
    match a with
    | ⟨0, _⟩ => show win2_4.index t (0 : Fin 2) * 1 + 1 * 0 = 0; omega
    | ⟨1, _⟩ => show win2_4.index t (1 : Fin 2) * 128 + 1 * k.val = k.val; omega
  · intro k
    show V c main_v45 (((cfg2.win 5).blk t).view.emb (ix2 (0 : Fin 1) k)) = _
    refine congrArg (V c main_v45) (funext fun a => Fin.ext ?_)
    match a with
    | ⟨0, _⟩ => show win2_5.index t (0 : Fin 2) * 1 + 1 * 0 = 0; omega
    | ⟨1, _⟩ => show win2_5.index t (1 : Fin 2) * 128 + 1 * k.val = k.val; omega
  · intro k
    show V c main_v46 (((cfg2.win 6).blk t).view.emb (ix2 (0 : Fin 1) k)) = _
    refine congrArg (V c main_v46) (funext fun a => Fin.ext ?_)
    match a with
    | ⟨0, _⟩ => show win2_6.index t (0 : Fin 2) * 1 + 1 * 0 = 0; omega
    | ⟨1, _⟩ => show win2_6.index t (1 : Fin 2) * 128 + 1 * k.val = k.val; omega
  · -- and (p, q) of the output block is (5000 t + p, q) of the output
    unfold Cert.KSpec.G2
    refine congrArg₂ (Cert.KSpec.g2 _ _ _ _ _ _ _) (Fin.ext ?_) (Fin.ext ?_)
    · show 5000 * t.val + p.val = win2_7.index t (0 : Fin 2) * 5000 + 1 * p.val; omega
    · show q.val = win2_7.index t (1 : Fin 2) * 128 + 1 * q.val; omega

/-- An index of the output is in tile t's block iff each coordinate is in the block's range on its axis. -/
theorem mem_blk2 (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v47).slice (win2_7.rect t)).set ↔ _
  rw [View.set_slice_whole, Rect.mem_set_unit]
  exact Iff.rfl

/-- Every index of the output is in some tile's block: row r is in tile r / 5000. -/
theorem cover2 (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨_, _, _, _, _, _, _, _, _, _, _, _, _, _, e70, e71⟩ := idx_facts2 t
  refine ⟨t, flush2_7 t, ?_⟩
  rw [mem_blk2]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 128 ≤ (i 1).val ∧ (i 1).val < win2_7.index t (1 : Fin 2) * 128 + 128
    omega

/-- The third kernel's output array, after all 20 tiles, is `KSpec.G2` of its seven input arrays. -/
theorem arr2_7 (c : Dev nD) :
    (dat2 (F := Ideal) V c).arrAt 7 cfg2.N
      = Cert.KSpec.G2 (V c main_v26) (V c main_v15) (V c main_v42) (V c main_v43) (V c main_v44) (V c main_v45) (V c main_v46) :=
  (dat2 (F := Ideal) V c).arrAt_eq_of_cover 7
    (Cert.KSpec.G2 (V c main_v26) (V c main_v15) (V c main_v42) (V c main_v43) (V c main_v44) (V c main_v45) (V c main_v46))
    (fun t _ => flushed2_eq V c t) cover2

end Cert.KRegions

end
-- ==== Proof.KWalk.lean ====
/-
  The kernel program's result is `out` of its six argument arrays.

  The contents of the buffers at each boundary of the program — after each stretch of host operations and after each
  of the three kernels — are followed from the launch memory forward. At every boundary only the buffers a later stage
  reads are named: a host stretch's results are its operations applied to the contents before it; a kernel's result
  arrays are the functions its region computes of its input arrays; an input array of a kernel and a buffer that is no
  array of it come out as they went in. At the last boundary the result buffer holds the third kernel's function of
  the stages, which is `out`.
-/
import proofs.«101444_j62766652064051_2_alg».proof.Proof.Gen.KernelIdeal.Frame
import proofs.«101444_j62766652064051_2_alg».proof.Proof.KRun
import proofs.«101444_j62766652064051_2_alg».proof.Proof.KStages0
import proofs.«101444_j62766652064051_2_alg».proof.Proof.KStages1
import proofs.«101444_j62766652064051_2_alg».proof.Proof.KStages2
import proofs.«101444_j62766652064051_2_alg».proof.Proof.KRegions0
import proofs.«101444_j62766652064051_2_alg».proof.Proof.KRegions1
import proofs.«101444_j62766652064051_2_alg».proof.Proof.KRegions2

set_option maxRecDepth 16384

noncomputable section

namespace Cert.KValue

open Idealize.ShloMosaic Idealize.ShloMosaic.StableHlo Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## When the first kernel is entered -/

theorem W3_v15 : W3 m ρ c (Proc.devRef .tc main_v15) = dis2 (m ((c.tc : Thread nD τ).loc main_arg5)) := pre_v15 (W0 m ρ c)
theorem W3_v3 : W3 m ρ c (Proc.devRef .tc main_v3) = row (m ((c.tc : Thread nD τ).loc main_arg5)) := pre_v3 (W0 m ρ c)
theorem W3_v6 : W3 m ρ c (Proc.devRef .tc main_v6) = col (m ((c.tc : Thread nD τ).loc main_arg5)) := pre_v6 (W0 m ρ c)
theorem W3_arg0 : W3 m ρ c (Proc.devRef .tc main_arg0) = (m ((c.tc : Thread nD τ).loc main_arg0)) := pre_arg (W0 m ρ c) main_arg0 (.inl rfl)
theorem W3_arg1 : W3 m ρ c (Proc.devRef .tc main_arg1) = (m ((c.tc : Thread nD τ).loc main_arg1)) := pre_arg (W0 m ρ c) main_arg1 (.inr (.inl rfl))
theorem W3_arg2 : W3 m ρ c (Proc.devRef .tc main_arg2) = (m ((c.tc : Thread nD τ).loc main_arg2)) := pre_arg (W0 m ρ c) main_arg2 (.inr (.inr (.inl rfl)))
theorem W3_arg3 : W3 m ρ c (Proc.devRef .tc main_arg3) = (m ((c.tc : Thread nD τ).loc main_arg3)) := pre_arg (W0 m ρ c) main_arg3 (.inr (.inr (.inr (.inl rfl))))
theorem W3_arg4 : W3 m ρ c (Proc.devRef .tc main_arg4) = (m ((c.tc : Thread nD τ).loc main_arg4)) := pre_arg (W0 m ρ c) main_arg4 (.inr (.inr (.inr (.inr rfl))))

/-! ## When the first kernel is left -/

theorem W4_v15 : W4 m ρ c (Proc.devRef .tc main_v15) = dis2 (m ((c.tc : Thread nD τ).loc main_arg5)) := ((W4_arr m ρ c 2).trans (((dat0 (V3 m ρ) c).arrAt_in 2 rfl _).trans (A_eq0 (V3 m ρ) c 2))).trans (W3_v15 m ρ c)
theorem W4_v3 : W4 m ρ c (Proc.devRef .tc main_v3) = row (m ((c.tc : Thread nD τ).loc main_arg5)) := (W4_of_ne m ρ c main_v3 (by decide)).trans (W3_v3 m ρ c)
theorem W4_v6 : W4 m ρ c (Proc.devRef .tc main_v6) = col (m ((c.tc : Thread nD τ).loc main_arg5)) := (W4_of_ne m ρ c main_v6 (by decide)).trans (W3_v6 m ρ c)
theorem W4_arg2 : W4 m ρ c (Proc.devRef .tc main_arg2) = (m ((c.tc : Thread nD τ).loc main_arg2)) := (W4_of_ne m ρ c main_arg2 (by decide)).trans (W3_arg2 m ρ c)
theorem W4_arg3 : W4 m ρ c (Proc.devRef .tc main_arg3) = (m ((c.tc : Thread nD τ).loc main_arg3)) := (W4_of_ne m ρ c main_arg3 (by decide)).trans (W3_arg3 m ρ c)
theorem W4_arg4 : W4 m ρ c (Proc.devRef .tc main_arg4) = (m ((c.tc : Thread nD τ).loc main_arg4)) := (W4_of_ne m ρ c main_arg4 (by decide)).trans (W3_arg4 m ρ c)

theorem W4_v16 : W4 m ρ c (Proc.devRef .tc main_v16) = hs (m ((c.tc : Thread nD τ).loc main_arg0)) (m ((c.tc : Thread nD τ).loc main_arg1)) (m ((c.tc : Thread nD τ).loc main_arg5)) := by
  have e0 : V3 m ρ c main_arg0 = (m ((c.tc : Thread nD τ).loc main_arg0)) := W3_arg0 m ρ c
  have e1 : V3 m ρ c main_arg1 = (m ((c.tc : Thread nD τ).loc main_arg1)) := W3_arg1 m ρ c
  have e2 : V3 m ρ c main_v15 = dis2 (m ((c.tc : Thread nD τ).loc main_arg5)) := W3_v15 m ρ c
  refine (W4_arr m ρ c 3).trans ((Cert.KRegions.arr0 (V3 m ρ) c).trans ?_)
  rw [e0, e1, e2]; rfl

/-! ## When the second kernel is entered -/

theorem W5_v26 : W5 m ρ c (Proc.devRef .tc main_v26) = agg0 (m ((c.tc : Thread nD τ).loc main_arg0)) (m ((c.tc : Thread nD τ).loc main_arg1)) (m ((c.tc : Thread nD τ).loc main_arg5)) := by
  refine (ops1_v26 (W4 m ρ c)).trans ?_
  rw [W4_v16 m ρ c, W4_v3 m ρ c, W4_v6 m ρ c]
  exact aggOf_eq _ _ _
theorem W5_v27 : W5 m ρ c (Proc.devRef .tc main_v27) = bias2 (m ((c.tc : Thread nD τ).loc main_arg2)) := by
  refine (ops1_v27 (W4 m ρ c)).trans ?_
  rw [W4_arg2 m ρ c]; rfl
theorem W5_v15 : W5 m ρ c (Proc.devRef .tc main_v15) = dis2 (m ((c.tc : Thread nD τ).loc main_arg5)) := (ops1_v15 (W4 m ρ c)).trans (W4_v15 m ρ c)
theorem W5_arg2 : W5 m ρ c (Proc.devRef .tc main_arg2) = (m ((c.tc : Thread nD τ).loc main_arg2)) := (ops1_arg (W4 m ρ c) main_arg2 (.inl rfl)).trans (W4_arg2 m ρ c)
theorem W5_arg3 : W5 m ρ c (Proc.devRef .tc main_arg3) = (m ((c.tc : Thread nD τ).loc main_arg3)) := (ops1_arg (W4 m ρ c) main_arg3 (.inr (.inl rfl))).trans (W4_arg3 m ρ c)
theorem W5_arg4 : W5 m ρ c (Proc.devRef .tc main_arg4) = (m ((c.tc : Thread nD τ).loc main_arg4)) := (ops1_arg (W4 m ρ c) main_arg4 (.inr (.inr rfl))).trans (W4_arg4 m ρ c)

/-! ## When the second kernel is left -/

theorem W6_v28_0 : W6 m ρ c (Proc.devRef .tc main_v28_0) = sumP (m ((c.tc : Thread nD τ).loc main_arg0)) (m ((c.tc : Thread nD τ).loc main_arg1)) (m ((c.tc : Thread nD τ).loc main_arg2)) (m ((c.tc : Thread nD τ).loc main_arg5)) := by
  have e0 : V5 m ρ c main_v26 = agg0 (m ((c.tc : Thread nD τ).loc main_arg0)) (m ((c.tc : Thread nD τ).loc main_arg1)) (m ((c.tc : Thread nD τ).loc main_arg5)) := W5_v26 m ρ c
  have e1 : V5 m ρ c main_v15 = dis2 (m ((c.tc : Thread nD τ).loc main_arg5)) := W5_v15 m ρ c
  have e2 : V5 m ρ c main_v27 = bias2 (m ((c.tc : Thread nD τ).loc main_arg2)) := W5_v27 m ρ c
  refine (W6_arr m ρ c 3).trans ((Cert.KRegions.arr1_3 (V5 m ρ) c).trans ?_)
  rw [e0, e1, e2]; rfl
theorem W6_v28_1 : W6 m ρ c (Proc.devRef .tc main_v28_1) = sumsqP (m ((c.tc : Thread nD τ).loc main_arg0)) (m ((c.tc : Thread nD τ).loc main_arg1)) (m ((c.tc : Thread nD τ).loc main_arg2)) (m ((c.tc : Thread nD τ).loc main_arg5)) := by
  have e0 : V5 m ρ c main_v26 = agg0 (m ((c.tc : Thread nD τ).loc main_arg0)) (m ((c.tc : Thread nD τ).loc main_arg1)) (m ((c.tc : Thread nD τ).loc main_arg5)) := W5_v26 m ρ c
  have e1 : V5 m ρ c main_v15 = dis2 (m ((c.tc : Thread nD τ).loc main_arg5)) := W5_v15 m ρ c
  have e2 : V5 m ρ c main_v27 = bias2 (m ((c.tc : Thread nD τ).loc main_arg2)) := W5_v27 m ρ c
  refine (W6_arr m ρ c 4).trans ((Cert.KRegions.arr1_4 (V5 m ρ) c).trans ?_)
  rw [e0, e1, e2]; rfl
theorem W6_v26 : W6 m ρ c (Proc.devRef .tc main_v26) = agg0 (m ((c.tc : Thread nD τ).loc main_arg0)) (m ((c.tc : Thread nD τ).loc main_arg1)) (m ((c.tc : Thread nD τ).loc main_arg5)) := ((W6_arr m ρ c 0).trans (((dat1 (V5 m ρ) c).arrAt_in 0 rfl _).trans (A_eq1 (V5 m ρ) c 0))).trans (W5_v26 m ρ c)
theorem W6_v15 : W6 m ρ c (Proc.devRef .tc main_v15) = dis2 (m ((c.tc : Thread nD τ).loc main_arg5)) := ((W6_arr m ρ c 1).trans (((dat1 (V5 m ρ) c).arrAt_in 1 rfl _).trans (A_eq1 (V5 m ρ) c 1))).trans (W5_v15 m ρ c)
theorem W6_arg2 : W6 m ρ c (Proc.devRef .tc main_arg2) = (m ((c.tc : Thread nD τ).loc main_arg2)) := (W6_of_ne m ρ c main_arg2 (by decide)).trans (W5_arg2 m ρ c)
theorem W6_arg3 : W6 m ρ c (Proc.devRef .tc main_arg3) = (m ((c.tc : Thread nD τ).loc main_arg3)) := (W6_of_ne m ρ c main_arg3 (by decide)).trans (W5_arg3 m ρ c)
theorem W6_arg4 : W6 m ρ c (Proc.devRef .tc main_arg4) = (m ((c.tc : Thread nD τ).loc main_arg4)) := (W6_of_ne m ρ c main_arg4 (by decide)).trans (W5_arg4 m ρ c)

/-! ## When the third kernel is entered -/

theorem W7_v26 : W7 m ρ c (Proc.devRef .tc main_v26) = agg0 (m ((c.tc : Thread nD τ).loc main_arg0)) (m ((c.tc : Thread nD τ).loc main_arg1)) (m ((c.tc : Thread nD τ).loc main_arg5)) := (ops2_v26 (W6 m ρ c)).trans (W6_v26 m ρ c)
theorem W7_v15 : W7 m ρ c (Proc.devRef .tc main_v15) = dis2 (m ((c.tc : Thread nD τ).loc main_arg5)) := (ops2_v15 (W6 m ρ c)).trans (W6_v15 m ρ c)
theorem W7_v42 : W7 m ρ c (Proc.devRef .tc main_v42) = bias2 (m ((c.tc : Thread nD τ).loc main_arg2)) := by
  refine (ops2_v42 (W6 m ρ c)).trans ?_
  rw [W6_arg2 m ρ c]; rfl
theorem W7_v43 : W7 m ρ c (Proc.devRef .tc main_v43) = mean2 (m ((c.tc : Thread nD τ).loc main_arg0)) (m ((c.tc : Thread nD τ).loc main_arg1)) (m ((c.tc : Thread nD τ).loc main_arg2)) (m ((c.tc : Thread nD τ).loc main_arg5)) := by
  refine (ops2_v43 (W6 m ρ c)).trans ?_
  rw [W6_v28_0 m ρ c]; rfl
theorem W7_v44 : W7 m ρ c (Proc.devRef .tc main_v44) = istd2 (m ((c.tc : Thread nD τ).loc main_arg0)) (m ((c.tc : Thread nD τ).loc main_arg1)) (m ((c.tc : Thread nD τ).loc main_arg2)) (m ((c.tc : Thread nD τ).loc main_arg5)) := by
  refine (ops2_v44 (W6 m ρ c)).trans ?_
  rw [W6_v28_0 m ρ c, W6_v28_1 m ρ c]; rfl
theorem W7_v45 : W7 m ρ c (Proc.devRef .tc main_v45) = gamma2 (m ((c.tc : Thread nD τ).loc main_arg3)) := by
  refine (ops2_v45 (W6 m ρ c)).trans ?_
  rw [W6_arg3 m ρ c]; rfl
theorem W7_v46 : W7 m ρ c (Proc.devRef .tc main_v46) = beta2 (m ((c.tc : Thread nD τ).loc main_arg4)) := by
  refine (ops2_v46 (W6 m ρ c)).trans ?_
  rw [W6_arg4 m ρ c]; rfl

/-! ## The result -/

/-- The result buffer at the last boundary holds `out` of the argument arrays. -/
theorem W8_out : W8 m ρ c (Proc.devRef .tc main_v47) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 : V7 m ρ c main_v26 = agg0 (m ((c.tc : Thread nD τ).loc main_arg0)) (m ((c.tc : Thread nD τ).loc main_arg1)) (m ((c.tc : Thread nD τ).loc main_arg5)) := W7_v26 m ρ c
  have e1 : V7 m ρ c main_v15 = dis2 (m ((c.tc : Thread nD τ).loc main_arg5)) := W7_v15 m ρ c
  have e2 : V7 m ρ c main_v42 = bias2 (m ((c.tc : Thread nD τ).loc main_arg2)) := W7_v42 m ρ c
  have e3 : V7 m ρ c main_v43 = mean2 (m ((c.tc : Thread nD τ).loc main_arg0)) (m ((c.tc : Thread nD τ).loc main_arg1)) (m ((c.tc : Thread nD τ).loc main_arg2)) (m ((c.tc : Thread nD τ).loc main_arg5)) := W7_v43 m ρ c
  have e4 : V7 m ρ c main_v44 = istd2 (m ((c.tc : Thread nD τ).loc main_arg0)) (m ((c.tc : Thread nD τ).loc main_arg1)) (m ((c.tc : Thread nD τ).loc main_arg2)) (m ((c.tc : Thread nD τ).loc main_arg5)) := W7_v44 m ρ c
  have e5 : V7 m ρ c main_v45 = gamma2 (m ((c.tc : Thread nD τ).loc main_arg3)) := W7_v45 m ρ c
  have e6 : V7 m ρ c main_v46 = beta2 (m ((c.tc : Thread nD τ).loc main_arg4)) := W7_v46 m ρ c
  refine (W8_arr m ρ c 7).trans ((Cert.KRegions.arr2_7 (V7 m ρ) c).trans ?_)
  rw [e0, e1, e2, e3, e4, e5, e6]; rfl

/-- The kernel program's run: every weakly fair execution from a memory with zero counters terminates, nothing
    faults, the result buffer ends at `out` of the argument arrays and the argument arrays end as launched. -/
theorem run : θ_run (defs (F := Ideal)) (onTc (τ := τ) (main (F := Ideal))) ⟨m, fun _ => 0, ρ⟩ (fun r => ∀ c : Dev nD,
      r.2.mem ((c.tc : Thread nD τ).loc main_v47) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W8_out m ρ c), (h c).2⟩) (run_W8 m ρ)

end Cert.KValue

end
-- ==== Proof.RefRunOps.lean ====
/-
  The reference program's @main as one straight line of operations.

  The printed @main is two consecutive windows, and three of its lines are calls of outlined functions (the select
  behind `where`, the rectifier, the variance, which itself calls a second select). Here every call is replaced by
  the callee's operations over that call's own buffers, each spelt at its buffers' literal types, and the resulting
  117 operations are listed in thirteen consecutive pieces, cut where few intermediate arrays are still needed later.
  The program equals the run of the concatenated list, window by window; every operation touches device buffers only.
-/
import proofs.«101444_j62766652064051_2_alg».proof.Proof.Gen.ReferenceIdeal
import Idealize.ShloMosaic.Lib.StableHlo.Run

noncomputable section

namespace Cert.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- The product, the node numbers, and the two end-point lists (operations 1 … 8). -/
abbrev c1 : List (HloOp τ sig (Elt F)) :=
  [ StableHlo.binary main_arg0 main_arg1 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v1 (iotaInDim S100000 32 0),
    StableHlo.unary main_arg5 main_v2 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_v3 main_v1 main_v4 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg5 main_v5 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v5 main_v6 rfl shapeCasts_S1x1600000_S1600000,
    StableHlo.binary main_v6 main_v1 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The degrees (operations 9 … 14). -/
abbrev c2 : List (HloOp τ sig (Elt F)) :=
  [ StableHlo.nullary main_cst (constant S_ .f32 0x3F800000#32),
    StableHlo.unary main_cst main_v8 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- The degrees' inverse square roots, zero where the degree is not positive (operations 15 … 22). -/
abbrev c3 : List (HloOp τ sig (Elt F)) :=
  [ StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v13 main_v14 main_call0_v1 main_v15 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- Per edge, the factor of its first end point (operations 23 … 31). -/
abbrev c4 : List (HloOp τ sig (Elt F)) :=
  [ StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v4 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v4 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v4 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ]

/-- Per edge, the factor of its second end point, and the product of the two (operations 32 … 41). -/
abbrev c5 : List (HloOp τ sig (Elt F)) :=
  [ StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v7 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v7 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)) ]

/-- Per edge, the product row of its first end point (operations 42 … 50). -/
abbrev c6 : List (HloOp τ sig (Elt F)) :=
  [ StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v4 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v4 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v4 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v0 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) ]

/-- The scaled rows summed into their target rows (operations 51 … 57). -/
abbrev c7 : List (HloOp τ sig (Elt F)) :=
  [ StableHlo.unary main_v30 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v7 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The bias added, the cut-off at zero, and the zero the next sum starts from (operations 58 … 64). -/
abbrev c8 : List (HloOp τ sig (Elt F)) :=
  [ StableHlo.unary main_arg2 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.nullary main_call1_cst (constant S_ .f32 0x00000000#32),
    StableHlo.unary main_call1_cst main_call1_v0 (broadcastInDim S100000x128 ![] bcast_S_S100000x128 : (⟨S_, .f32⟩ : BufTy).Contents (Elt F) → (⟨S100000x128, .f32⟩ : BufTy).Contents (Elt F)),
    StableHlo.binary main_v46 main_call1_v0 main_v47 (maximumf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x00000000#32) ]

/-- The mean per feature, and the zero degrees of freedom (operations 65 … 69). -/
abbrev c9 : List (HloOp τ sig (Elt F)) :=
  [ StableHlo.binary main_v47 main_cst_9 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32) ]

/-- Inside the variance: the mean again, the centred values and their squares (operations 70 … 78). -/
abbrev c10 : List (HloOp τ sig (Elt F)) :=
  [ StableHlo.nullary main_call2_cst (constant S_ .f32 0x00000000#32),
    StableHlo.binary main_v47 main_call2_cst main_call2_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v0 main_call2_v1 (broadcastInDim S1x128 ![1] bcast_S128_S1x128_1 : (⟨S128, .f32⟩ : BufTy).Contents (Elt F) → (⟨S1x128, .f32⟩ : BufTy).Contents (Elt F)),
    StableHlo.nullary main_call2_cst_0 (constant S_ .f32 0x47C35000#32),
    StableHlo.unary main_call2_cst_0 main_call2_v2 (broadcastInDim S1x128 ![] bcast_S_S1x128 : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 (broadcastInDim S100000x128 ![0, 1] bcast_S1x128_S100000x128_0_1 : (⟨S1x128, .f32⟩ : BufTy).Contents (Elt F) → (⟨S100000x128, .f32⟩ : BufTy).Contents (Elt F)),
    StableHlo.binary main_v47 main_call2_v4 main_call2_v5 (subf : (⟨S100000x128, .f32⟩ : BufTy).Contents (Elt F) → (⟨S100000x128, .f32⟩ : BufTy).Contents (Elt F) → (⟨S100000x128, .f32⟩ : BufTy).Contents (Elt F)),
    StableHlo.binary main_call2_v5 main_call2_v5 main_call2_v6 (mulf : (⟨S100000x128, .f32⟩ : BufTy).Contents (Elt F) → (⟨S100000x128, .f32⟩ : BufTy).Contents (Elt F) → (⟨S100000x128, .f32⟩ : BufTy).Contents (Elt F)) ]

/-- Inside the variance: the divisor, the quotient, and the select on the divisor's sign (operations 79 … 91). -/
abbrev c11 : List (HloOp τ sig (Elt F)) :=
  [ StableHlo.unary main_c_11 main_call2_v7 (sitofp .f32 : (⟨S_, .i32⟩ : BufTy).Contents (Elt F) → (⟨S_, .f32⟩ : BufTy).Contents (Elt F)),
    StableHlo.nullary main_call2_cst_1 (constant S_ .f32 0x47C35000#32),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v8 main_call2_v10 (broadcastInDim S128 ![] bcast_S_S128 : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 (constant S_ .f32 0x00000000#32),
    StableHlo.binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 (broadcastInDim S128 ![] bcast_S_S128 : (⟨S_, .f32⟩ : BufTy).Contents (Elt F) → (⟨S128, .f32⟩ : BufTy).Contents (Elt F)),
    StableHlo.ternary main_call2_v12 main_call2_v11 main_call2_call0_v1 main_v51 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The standardised values times gamma plus beta (operations 92 … 107). -/
abbrev c12 : List (HloOp τ sig (Elt F)) :=
  [ StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg3 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_arg4 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)) ]

/-- Each row divided by its length (operations 108 … 117). -/
abbrev c13 : List (HloOp τ sig (Elt F)) :=
  [ StableHlo.binary main_v66 main_v66 main_v67 (mulf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x00000000#32),
    StableHlo.binary main_v67 main_cst_13 main_v68 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v68 main_v69 (broadcastInDim S100000x1 ![0] bcast_S100000_S100000x1_0 : (⟨S100000, .f32⟩ : BufTy).Contents (Elt F) → (⟨S100000x1, .f32⟩ : BufTy).Contents (Elt F)),
    StableHlo.unary main_v69 main_v70 (Host.sqrt : (⟨S100000x1, .f32⟩ : BufTy).Contents (Elt F) → (⟨S100000x1, .f32⟩ : BufTy).Contents (Elt F)),
    StableHlo.nullary main_cst_14 (constant S_ .f32 0x2B8CBCCC#32),
    StableHlo.unary main_cst_14 main_v71 (broadcastInDim S100000x1 ![] bcast_S_S100000x1 : (⟨S_, .f32⟩ : BufTy).Contents (Elt F) → (⟨S100000x1, .f32⟩ : BufTy).Contents (Elt F)),
    StableHlo.binary main_v70 main_v71 main_v72 (maximumf : (⟨S100000x1, .f32⟩ : BufTy).Contents (Elt F) → (⟨S100000x1, .f32⟩ : BufTy).Contents (Elt F) → (⟨S100000x1, .f32⟩ : BufTy).Contents (Elt F)),
    StableHlo.unary main_v72 main_v73 (broadcastInDim S100000x128 ![0, 1] bcast_S100000x1_S100000x128_0_1 : (⟨S100000x1, .f32⟩ : BufTy).Contents (Elt F) → (⟨S100000x128, .f32⟩ : BufTy).Contents (Elt F)),
    StableHlo.binary main_v66 main_v73 main_v74 (Host.divf : (⟨S100000x128, .f32⟩ : BufTy).Contents (Elt F) → (⟨S100000x128, .f32⟩ : BufTy).Contents (Elt F) → (⟨S100000x128, .f32⟩ : BufTy).Contents (Elt F)) ]

/-- The first window's operations (1 … 64). -/
abbrev ops0 : List (HloOp τ sig (Elt F)) := c1 ++ (c2 ++ (c3 ++ (c4 ++ (c5 ++ (c6 ++ (c7 ++ (c8)))))))

/-- The second window's operations (65 … 117). -/
abbrev ops1 : List (HloOp τ sig (Elt F)) := c9 ++ (c10 ++ (c11 ++ (c12 ++ (c13))))

/-- All of @main's operations, in order. -/
abbrev ops : List (HloOp τ sig (Elt F)) := ops0 ++ ops1

set_option maxHeartbeats 4000000 in
/-- The first window is the run of its list: the two calls unfolded, the sequencing re-associated; an outlined
    operation's transports along its buffers' type equations are the identity at these literal buffers. -/
theorem main_part0_eq (c : Dev nD) : main_part0 (F := F) c = seq ops0 := by
  simp only [main_part0, fn_where.body, fn_relu.body, ops0, c1, c2, c3, c4, c5, c6, c7, c8, List.cons_append, List.nil_append, seq, bind_assoc, pure_bind]
  rfl

set_option maxHeartbeats 4000000 in
/-- The second window is the run of its list: the variance and its inner select unfolded. -/
theorem main_part1_eq (c : Dev nD) : main_part1 (F := F) c = seq ops1 := by
  simp only [main_part1, fn_var.body, fn_where_0.body, ops1, c9, c10, c11, c12, c13, List.cons_append, List.nil_append, seq, bind_assoc, pure_bind]
  rfl

/-- @main is the run of the whole list. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem c1_sub : (c1 : List (HloOp τ sig (Elt F))).Forall fun op => op.bufs ⊆ tcRefs τ sig :=
  ⟨binary_bufs_sub .., nullary_bufs_sub .., unary_bufs_sub .., reshape_bufs_sub .., binary_bufs_sub .., unary_bufs_sub .., reshape_bufs_sub .., binary_bufs_sub ..⟩
theorem c2_sub : (c2 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
theorem c3_sub : (c3 : List (HloOp τ sig (Elt F))).Forall fun op => op.bufs ⊆ tcRefs τ sig :=
  ⟨nullary_bufs_sub .., unary_bufs_sub .., binary_bufs_sub .., unary_bufs_sub .., nullary_bufs_sub .., unary_bufs_sub .., unary_bufs_sub .., ternary_bufs_sub ..⟩
theorem c4_sub : (c4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem c5_sub : (c5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem c6_sub : (c6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem c7_sub : (c7 : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub ..⟩
theorem c8_sub : (c8 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub ..⟩
theorem c9_sub : (c9 : List (HloOp τ sig (Elt F))).Forall fun op => op.bufs ⊆ tcRefs τ sig :=
  ⟨binary_bufs_sub .., nullary_bufs_sub .., unary_bufs_sub .., binary_bufs_sub .., nullary_bufs_sub ..⟩
theorem c10_sub : (c10 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub ..⟩
theorem c11_sub : (c11 : List (HloOp τ sig (Elt F))).Forall fun op => op.bufs ⊆ tcRefs τ sig :=
  ⟨unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem c12_sub : (c12 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem c13_sub : (c13 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, ops0, ops1, List.mem_append] at h
    rcases h with (h | h | h | h | h | h | h | h) | (h | h | h | h | h)
    exacts [List.forall_iff_forall_mem.mp c1_sub op h, List.forall_iff_forall_mem.mp c2_sub op h, List.forall_iff_forall_mem.mp c3_sub op h, List.forall_iff_forall_mem.mp c4_sub op h, List.forall_iff_forall_mem.mp c5_sub op h, List.forall_iff_forall_mem.mp c6_sub op h, List.forall_iff_forall_mem.mp c7_sub op h, List.forall_iff_forall_mem.mp c8_sub op h, List.forall_iff_forall_mem.mp c9_sub op h, List.forall_iff_forall_mem.mp c10_sub op h, List.forall_iff_forall_mem.mp c11_sub op h, List.forall_iff_forall_mem.mp c12_sub op h, List.forall_iff_forall_mem.mp c13_sub op h]

end Cert.RefValue

end
-- ==== Proof.RefDefs.lean ====
/-
  The reference computation, stage by stage, as functions of its six argument arrays.

  One graph-convolution layer over 100000 nodes with 128 features and 1600000 edges (plus one self loop per node):
  the features times the weight matrix; each node's in-degree; its inverse square root (zero where the degree is not
  positive); per edge the product of the two end points' factors; the source rows gathered, scaled and summed into
  their target rows; the bias added and the result cut off below at zero; per feature the mean and the variance over
  all nodes; the standardised value times gamma plus beta; and each row divided by its Euclidean length (but by no
  less than a small positive constant).

  Every stage applies the same library operation as the corresponding line of the printed program, so the term the
  program's run composes is this chain by unfolding. The buffer each stage is held in is named in its docstring.
-/
import proofs.«101444_j62766652064051_2_alg».proof.ReferenceIdeal
import Idealize.ShloMosaic.PureOps
import Idealize.ShloMosaic.PureOps.Ideal

noncomputable section

namespace Cert.RefValue

open Idealize.ShloMosaic Cert.ReferenceIdeal Cert.ReferenceIdeal.Facts₀

variable [Cert.ReferenceIdeal.Facts]

/-- The float zero as a rank-0 array. -/
abbrev zeroS : FVec Ideal S_ .f32 := constant (F := Ideal) S_ .f32 0x00000000#32
/-- The node count 100000 as a rank-0 float array. -/
abbrev countS : FVec Ideal S_ .f32 := constant (F := Ideal) S_ .f32 0x47C35000#32

/-- A length-128 vector as every row of a [100000, 128] array (through [1, 128]). -/
abbrev rows (v : FVec Ideal S128 .f32) : FVec Ideal S100000x128 .f32 :=
  broadcastInDim S100000x128 ![0, 1] bcast_S1x128_S100000x128_0_1 (broadcastInDim S1x128 ![1] bcast_S128_S1x128_1 v)

/-- `main_v0`: the node features times the weight matrix. -/
def h (x : FVec Ideal S100000x128 .f32) (w : FVec Ideal S128x128 .f32) : FVec Ideal S100000x128 .f32 :=
  Host.dotGeneral (F := Ideal) dot_S100000x128_S128x128_S100000x128_1_0_0_1_n_n none x w

/-- `main_v1`: the node numbers 0 … 99999 (the self loops' end points). -/
def iota : IVec S100000 32 := iotaInDim S100000 32 0

/-- `main_v4`: the edges' first end points (row 0 of the edge list) followed by the self loops'. -/
def row (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
     ⟨S100000, iota⟩] concatenates_S1600000_S100000_S1700000_d0

/-- `main_v7`: the edges' second end points (row 1 of the edge list) followed by the self loops'. -/
def col (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
     ⟨S100000, iota⟩] concatenates_S1600000_S100000_S1700000_d0

/-- `main_v11`: each node's degree — a one added at every edge's second end point. -/
def deg (ei : IVec S2x1600000 32) : FVec Ideal S100000 .f32 :=
  Host.scatterAdd (F := Ideal) scatter_S100000_S1700000x1_S1700000_n_0_0_1
    (broadcastInDim S100000 ![] bcast_S_S100000 zeroS)
    (broadcastInDim S1700000x1 ![0] bcast_S1700000_S1700000x1_0 (col ei))
    (broadcastInDim S1700000 ![] bcast_S_S1700000 (constant (F := Ideal) S_ .f32 0x3F800000#32))

/-- `main_v15`: the degree's inverse square root where the degree is positive, zero elsewhere. -/
def dis (ei : IVec S2x1600000 32) : FVec Ideal S100000 .f32 :=
  select (cmpf (F := Ideal) .ogt (deg ei) (broadcastInDim S100000 ![] bcast_S_S100000 zeroS))
    (Host.rsqrt (F := Ideal) (deg ei)) (broadcastInDim S100000 ![] bcast_S_S100000 zeroS)

/-- An end-point list with 100000 added to its negative entries (`main_v20`, `main_v27`, `main_v35`). -/
def wrap (e : IVec S1700000 32) : IVec S1700000 32 :=
  select (cmpi .slt e (broadcastInDim S1700000 ![] bcast_S_S1700000 (constantI S_ 32 0#32)))
    (addi e (broadcastInDim S1700000 ![] bcast_S_S1700000 (constantI S_ 32 100000#32))) e

/-- `main_v20` (and `main_v35`): the first end points, wrapped when negative. -/
def rowW (ei : IVec S2x1600000 32) : IVec S1700000 32 := wrap (row ei)

/-- `main_v21` (and `main_v36`): `rowW` as a column of one-entry index vectors. -/
def rowWB (ei : IVec S2x1600000 32) : IVec S1700000x1 32 :=
  broadcastInDim S1700000x1 ![0] bcast_S1700000_S1700000x1_0 (rowW ei)

/-- `main_v27`: the second end points, wrapped when negative. -/
def colW (ei : IVec S2x1600000 32) : IVec S1700000 32 := wrap (col ei)

/-- `main_v28`: `colW` as a column of one-entry index vectors. -/
def colWB (ei : IVec S2x1600000 32) : IVec S1700000x1 32 :=
  broadcastInDim S1700000x1 ![0] bcast_S1700000_S1700000x1_0 (colW ei)

/-- `main_v22`: per edge, the factor of its first end point. -/
def disRow (ei : IVec S2x1600000 32) : FVec Ideal S1700000 .f32 :=
  Host.gather gather_S100000_S1700000x1_S1700000_n_0_n_n_0_1_1 (dis ei) (rowWB ei)

/-- `main_v29`: per edge, the factor of its second end point. -/
def disCol (ei : IVec S2x1600000 32) : FVec Ideal S1700000 .f32 :=
  Host.gather gather_S100000_S1700000x1_S1700000_n_0_n_n_0_1_1 (dis ei) (colWB ei)

/-- `main_v30`: per edge, the product of its two end points' factors. -/
def norm (ei : IVec S2x1600000 32) : FVec Ideal S1700000 .f32 :=
  mulf (F := Ideal) (disRow ei) (disCol ei)

/-- `main_v37`: per edge, the product row of its first end point. -/
def hRows (x : FVec Ideal S100000x128 .f32) (w : FVec Ideal S128x128 .f32) (ei : IVec S2x1600000 32) :
    FVec Ideal S1700000x128 .f32 :=
  Host.gather gather_S100000x128_S1700000x1_S1700000x128_1_0_n_n_0_1_1128 (h x w) (rowWB ei)

/-- `main_v40`: per edge, that row times the edge's factor. -/
def msgs (x : FVec Ideal S100000x128 .f32) (w : FVec Ideal S128x128 .f32) (ei : IVec S2x1600000 32) :
    FVec Ideal S1700000x128 .f32 :=
  mulf (F := Ideal) (hRows x w ei)
    (broadcastInDim S1700000x128 ![0, 1] bcast_S1700000x1_S1700000x128_0_1
      (broadcastInDim S1700000x1 ![0] bcast_S1700000_S1700000x1_0 (norm ei)))

/-- `main_v43`: the edges' rows summed into the rows of their second end points. -/
def agg (x : FVec Ideal S100000x128 .f32) (w : FVec Ideal S128x128 .f32) (ei : IVec S2x1600000 32) :
    FVec Ideal S100000x128 .f32 :=
  Host.scatterAdd (F := Ideal) scatter_S100000x128_S1700000x1_S1700000x128_1_0_0_1
    (broadcastInDim S100000x128 ![] bcast_S_S100000x128 zeroS)
    (broadcastInDim S1700000x1 ![0] bcast_S1700000_S1700000x1_0 (col ei))
    (msgs x w ei)

/-- `main_v46`: the aggregate plus the bias. -/
def pre (x : FVec Ideal S100000x128 .f32) (w : FVec Ideal S128x128 .f32) (bias : FVec Ideal S128 .f32)
    (ei : IVec S2x1600000 32) : FVec Ideal S100000x128 .f32 :=
  addf (F := Ideal) (agg x w ei) (rows bias)

/-- `main_v47`: that, cut off below at zero. -/
def r (x : FVec Ideal S100000x128 .f32) (w : FVec Ideal S128x128 .f32) (bias : FVec Ideal S128 .f32)
    (ei : IVec S2x1600000 32) : FVec Ideal S100000x128 .f32 :=
  maximumf (F := Ideal) (pre x w bias ei) (broadcastInDim S100000x128 ![] bcast_S_S100000x128 zeroS)

/-- `main_v50`: per feature, the mean over all nodes. -/
def mean (x : FVec Ideal S100000x128 .f32) (w : FVec Ideal S128x128 .f32) (bias : FVec Ideal S128 .f32)
    (ei : IVec S2x1600000 32) : FVec Ideal S128 .f32 :=
  Host.divf (F := Ideal) (Host.reduceAdd (F := Ideal) (r x w bias ei) zeroS reducesTo_S100000x128_S128_d0 h_S_)
    (broadcastInDim S128 ![] bcast_S_S128 countS)

/-- `main_call2_v3`: the same mean, as computed again inside the variance (a [1, 128] array). -/
def varMean (x : FVec Ideal S100000x128 .f32) (w : FVec Ideal S128x128 .f32) (bias : FVec Ideal S128 .f32)
    (ei : IVec S2x1600000 32) : FVec Ideal S1x128 .f32 :=
  Host.divf (F := Ideal)
    (broadcastInDim S1x128 ![1] bcast_S128_S1x128_1
      (Host.reduceAdd (F := Ideal) (r x w bias ei) zeroS reducesTo_S100000x128_S128_d0 h_S_))
    (broadcastInDim S1x128 ![] bcast_S_S1x128 countS)

/-- `main_call2_v5`: the values minus that mean. -/
def centered (x : FVec Ideal S100000x128 .f32) (w : FVec Ideal S128x128 .f32) (bias : FVec Ideal S128 .f32)
    (ei : IVec S2x1600000 32) : FVec Ideal S100000x128 .f32 :=
  subf (F := Ideal) (r x w bias ei)
    (broadcastInDim S100000x128 ![0, 1] bcast_S1x128_S100000x128_0_1 (varMean x w bias ei))

/-- `main_call2_v6`: their squares. -/
def sq (x : FVec Ideal S100000x128 .f32) (w : FVec Ideal S128x128 .f32) (bias : FVec Ideal S128 .f32)
    (ei : IVec S2x1600000 32) : FVec Ideal S100000x128 .f32 :=
  mulf (F := Ideal) (centered x w bias ei) (centered x w bias ei)

/-- `main_call2_v8`: the variance's divisor, the node count minus zero degrees of freedom. -/
def denom : FVec Ideal S_ .f32 :=
  subf (F := Ideal) countS (sitofp (F := Ideal) .f32 (constantI S_ 32 0#32))

/-- `main_call2_v11`: per feature, the sum of the squares over the divisor. -/
def varRaw (x : FVec Ideal S100000x128 .f32) (w : FVec Ideal S128x128 .f32) (bias : FVec Ideal S128 .f32)
    (ei : IVec S2x1600000 32) : FVec Ideal S128 .f32 :=
  Host.divf (F := Ideal) (Host.reduceAdd (F := Ideal) (sq x w bias ei) zeroS reducesTo_S100000x128_S128_d0 h_S_)
    (broadcastInDim S128 ![] bcast_S_S128 denom)

/-- `main_call2_v12`: whether the divisor is positive. -/
def varOk : IVec S_ 1 := cmpf (F := Ideal) .ogt denom zeroS

/-- `main_v51`: per feature, the variance (the not-a-number literal if the divisor were not positive). -/
def var (x : FVec Ideal S100000x128 .f32) (w : FVec Ideal S128x128 .f32) (bias : FVec Ideal S128 .f32)
    (ei : IVec S2x1600000 32) : FVec Ideal S128 .f32 :=
  select (broadcastInDim S128 ![] bcast_S_S128 varOk) (varRaw x w bias ei)
    (broadcastInDim S128 ![] bcast_S_S128 (constant (F := Ideal) S_ .f32 0x7FC00000#32))

/-- `main_v54`: the values minus the mean. -/
def centred (x : FVec Ideal S100000x128 .f32) (w : FVec Ideal S128x128 .f32) (bias : FVec Ideal S128 .f32)
    (ei : IVec S2x1600000 32) : FVec Ideal S100000x128 .f32 :=
  subf (F := Ideal) (r x w bias ei) (rows (mean x w bias ei))

/-- `main_v57`: per feature, the inverse square root of the variance plus a small constant. -/
def istd (x : FVec Ideal S100000x128 .f32) (w : FVec Ideal S128x128 .f32) (bias : FVec Ideal S128 .f32)
    (ei : IVec S2x1600000 32) : FVec Ideal S128 .f32 :=
  Host.rsqrt (F := Ideal)
    (addf (F := Ideal) (var x w bias ei) (broadcastInDim S128 ![] bcast_S_S128 (constant (F := Ideal) S_ .f32 0x3727C5AC#32)))

/-- `main_v66`: the standardised values times gamma plus beta. -/
def bnr (x : FVec Ideal S100000x128 .f32) (w : FVec Ideal S128x128 .f32) (bias gamma beta : FVec Ideal S128 .f32)
    (ei : IVec S2x1600000 32) : FVec Ideal S100000x128 .f32 :=
  addf (F := Ideal)
    (mulf (F := Ideal) (mulf (F := Ideal) (centred x w bias ei) (rows (istd x w bias ei))) (rows gamma))
    (rows beta)

/-- `main_v68`: per node, the sum of the squares of its row. -/
def rowSq (x : FVec Ideal S100000x128 .f32) (w : FVec Ideal S128x128 .f32) (bias gamma beta : FVec Ideal S128 .f32)
    (ei : IVec S2x1600000 32) : FVec Ideal S100000 .f32 :=
  Host.reduceAdd (F := Ideal) (mulf (F := Ideal) (bnr x w bias gamma beta ei) (bnr x w bias gamma beta ei)) zeroS
    reducesTo_S100000x128_S100000_d1 h_S_

/-- `main_v72`: per node, the row's Euclidean length, but no less than a small positive constant (a column). -/
def len (x : FVec Ideal S100000x128 .f32) (w : FVec Ideal S128x128 .f32) (bias gamma beta : FVec Ideal S128 .f32)
    (ei : IVec S2x1600000 32) : FVec Ideal S100000x1 .f32 :=
  maximumf (F := Ideal)
    (Host.sqrt (F := Ideal) (broadcastInDim S100000x1 ![0] bcast_S100000_S100000x1_0 (rowSq x w bias gamma beta ei)))
    (broadcastInDim S100000x1 ![] bcast_S_S100000x1 (constant (F := Ideal) S_ .f32 0x2B8CBCCC#32))

/-- `main_v74`, the result: each row divided by that length. -/
def out (x : FVec Ideal S100000x128 .f32) (w : FVec Ideal S128x128 .f32) (bias gamma beta : FVec Ideal S128 .f32)
    (ei : IVec S2x1600000 32) : FVec Ideal S100000x128 .f32 :=
  Host.divf (F := Ideal) (bnr x w bias gamma beta ei)
    (broadcastInDim S100000x128 ![0, 1] bcast_S100000x1_S100000x128_0_1 (len x w bias gamma beta ei))

end Cert.RefValue

end
-- ==== Proof.RefRunVal.lean ====
/-
  What the device's buffers hold as the reference's operations run, piece by piece.

  The operations are read in the thirteen pieces of the list. After each piece, every array that a later piece (or the
  final statement) still reads is identified with a stage of the reference computation applied to the six argument
  arrays as they were at the start; an array the piece does not write keeps what it held. Within a piece each
  operation's result is the operation's function of what its operands hold, and the stage's definition is that same
  composition, so each identification closes by unfolding.
-/
import proofs.«101444_j62766652064051_2_alg».proof.Proof.RefRunOps
import proofs.«101444_j62766652064051_2_alg».proof.Proof.RefDefs

noncomputable section

namespace Cert.RefValue

open Cert.ReferenceIdeal Idealize.ShloMosaic Idealize.ShloMosaic.TcCoe Idealize.SL.Sem Idealize.ShloMosaic.StableHlo
open Cert.ReferenceIdeal.Facts₀

/-- Running two lists one after the other is running their concatenation. -/
theorem after_append' : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_append' l₁ l₂]

/-- The buffers' contents before the first piece. -/
def val0 (V0 : Valuation τ sig (Elt Ideal)) : Valuation τ sig (Elt Ideal) := V0
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl
theorem val0_main_arg3 (V0 : Valuation τ sig (Elt Ideal)) : val0 V0 (no_index (Proc.devRef .tc main_arg3)) = V0 (Proc.devRef .tc main_arg3) := rfl
theorem val0_main_arg4 (V0 : Valuation τ sig (Elt Ideal)) : val0 V0 (no_index (Proc.devRef .tc main_arg4)) = V0 (Proc.devRef .tc main_arg4) := rfl
theorem val0_main_arg5 (V0 : Valuation τ sig (Elt Ideal)) : val0 V0 (no_index (Proc.devRef .tc main_arg5)) = V0 (Proc.devRef .tc main_arg5) := rfl

/-- The buffers' contents after the first 1 piece. -/
def val1 (V0 : Valuation τ sig (Elt Ideal)) : Valuation τ sig (Elt Ideal) := after c1 (val0 V0)
theorem val1_main_arg0 (V0 : Valuation τ sig (Elt Ideal)) : val1 V0 (no_index (Proc.devRef .tc main_arg0)) = V0 (Proc.devRef .tc main_arg0) := by
  unfold val1
  simp only [c1]
  after_results_simp
  exact val0_main_arg0 V0
theorem val1_main_arg1 (V0 : Valuation τ sig (Elt Ideal)) : val1 V0 (no_index (Proc.devRef .tc main_arg1)) = V0 (Proc.devRef .tc main_arg1) := by
  unfold val1
  simp only [c1]
  after_results_simp
  exact val0_main_arg1 V0
theorem val1_main_arg2 (V0 : Valuation τ sig (Elt Ideal)) : val1 V0 (no_index (Proc.devRef .tc main_arg2)) = V0 (Proc.devRef .tc main_arg2) := by
  unfold val1
  simp only [c1]
  after_results_simp
  exact val0_main_arg2 V0
theorem val1_main_arg3 (V0 : Valuation τ sig (Elt Ideal)) : val1 V0 (no_index (Proc.devRef .tc main_arg3)) = V0 (Proc.devRef .tc main_arg3) := by
  unfold val1
  simp only [c1]
  after_results_simp
  exact val0_main_arg3 V0
theorem val1_main_arg4 (V0 : Valuation τ sig (Elt Ideal)) : val1 V0 (no_index (Proc.devRef .tc main_arg4)) = V0 (Proc.devRef .tc main_arg4) := by
  unfold val1
  simp only [c1]
  after_results_simp
  exact val0_main_arg4 V0
theorem val1_main_arg5 (V0 : Valuation τ sig (Elt Ideal)) : val1 V0 (no_index (Proc.devRef .tc main_arg5)) = V0 (Proc.devRef .tc main_arg5) := by
  unfold val1
  simp only [c1]
  after_results_simp
  exact val0_main_arg5 V0
theorem val1_main_v0 (V0 : Valuation τ sig (Elt Ideal)) : val1 V0 (no_index (Proc.devRef .tc main_v0)) = h (V0 (Proc.devRef .tc main_arg0)) (V0 (Proc.devRef .tc main_arg1)) := by
  unfold val1
  simp only [c1]
  after_results_simp
  all_goals (try simp only [val0_main_arg0, val0_main_arg1, val0_main_arg2, val0_main_arg3, val0_main_arg4, val0_main_arg5])
  all_goals rfl
theorem val1_main_v4 (V0 : Valuation τ sig (Elt Ideal)) : val1 V0 (no_index (Proc.devRef .tc main_v4)) = row (V0 (Proc.devRef .tc main_arg5)) := by
  unfold val1
  simp only [c1]
  after_results_simp
  all_goals (try simp only [val0_main_arg0, val0_main_arg1, val0_main_arg2, val0_main_arg3, val0_main_arg4, val0_main_arg5])
  all_goals rfl
theorem val1_main_v7 (V0 : Valuation τ sig (Elt Ideal)) : val1 V0 (no_index (Proc.devRef .tc main_v7)) = col (V0 (Proc.devRef .tc main_arg5)) := by
  unfold val1
  simp only [c1]
  after_results_simp
  all_goals (try simp only [val0_main_arg0, val0_main_arg1, val0_main_arg2, val0_main_arg3, val0_main_arg4, val0_main_arg5])
  all_goals rfl

/-- The buffers' contents after the first 2 pieces. -/
def val2 (V0 : Valuation τ sig (Elt Ideal)) : Valuation τ sig (Elt Ideal) := after c2 (val1 V0)
theorem val2_main_arg0 (V0 : Valuation τ sig (Elt Ideal)) : val2 V0 (no_index (Proc.devRef .tc main_arg0)) = V0 (Proc.devRef .tc main_arg0) := by
  unfold val2
  simp only [c2]
  after_results_simp
  exact val1_main_arg0 V0
theorem val2_main_arg1 (V0 : Valuation τ sig (Elt Ideal)) : val2 V0 (no_index (Proc.devRef .tc main_arg1)) = V0 (Proc.devRef .tc main_arg1) := by
  unfold val2
  simp only [c2]
  after_results_simp
  exact val1_main_arg1 V0
theorem val2_main_arg2 (V0 : Valuation τ sig (Elt Ideal)) : val2 V0 (no_index (Proc.devRef .tc main_arg2)) = V0 (Proc.devRef .tc main_arg2) := by
  unfold val2
  simp only [c2]
  after_results_simp
  exact val1_main_arg2 V0
theorem val2_main_arg3 (V0 : Valuation τ sig (Elt Ideal)) : val2 V0 (no_index (Proc.devRef .tc main_arg3)) = V0 (Proc.devRef .tc main_arg3) := by
  unfold val2
  simp only [c2]
  after_results_simp
  exact val1_main_arg3 V0
theorem val2_main_arg4 (V0 : Valuation τ sig (Elt Ideal)) : val2 V0 (no_index (Proc.devRef .tc main_arg4)) = V0 (Proc.devRef .tc main_arg4) := by
  unfold val2
  simp only [c2]
  after_results_simp
  exact val1_main_arg4 V0
theorem val2_main_arg5 (V0 : Valuation τ sig (Elt Ideal)) : val2 V0 (no_index (Proc.devRef .tc main_arg5)) = V0 (Proc.devRef .tc main_arg5) := by
  unfold val2
  simp only [c2]
  after_results_simp
  exact val1_main_arg5 V0
theorem val2_main_v0 (V0 : Valuation τ sig (Elt Ideal)) : val2 V0 (no_index (Proc.devRef .tc main_v0)) = h (V0 (Proc.devRef .tc main_arg0)) (V0 (Proc.devRef .tc main_arg1)) := by
  unfold val2
  simp only [c2]
  after_results_simp
  exact val1_main_v0 V0
theorem val2_main_v4 (V0 : Valuation τ sig (Elt Ideal)) : val2 V0 (no_index (Proc.devRef .tc main_v4)) = row (V0 (Proc.devRef .tc main_arg5)) := by
  unfold val2
  simp only [c2]
  after_results_simp
  exact val1_main_v4 V0
theorem val2_main_v7 (V0 : Valuation τ sig (Elt Ideal)) : val2 V0 (no_index (Proc.devRef .tc main_v7)) = col (V0 (Proc.devRef .tc main_arg5)) := by
  unfold val2
  simp only [c2]
  after_results_simp
  exact val1_main_v7 V0
theorem val2_main_v11 (V0 : Valuation τ sig (Elt Ideal)) : val2 V0 (no_index (Proc.devRef .tc main_v11)) = deg (V0 (Proc.devRef .tc main_arg5)) := by
  unfold val2
  simp only [c2]
  after_results_simp
  all_goals (try simp only [val1_main_arg0, val1_main_arg1, val1_main_arg2, val1_main_arg3, val1_main_arg4, val1_main_arg5, val1_main_v0, val1_main_v4, val1_main_v7])
  all_goals rfl

/-- The buffers' contents after the first 3 pieces. -/
def val3 (V0 : Valuation τ sig (Elt Ideal)) : Valuation τ sig (Elt Ideal) := after c3 (val2 V0)
theorem val3_main_arg0 (V0 : Valuation τ sig (Elt Ideal)) : val3 V0 (no_index (Proc.devRef .tc main_arg0)) = V0 (Proc.devRef .tc main_arg0) := by
  unfold val3
  simp only [c3]
  after_results_simp
  exact val2_main_arg0 V0
theorem val3_main_arg1 (V0 : Valuation τ sig (Elt Ideal)) : val3 V0 (no_index (Proc.devRef .tc main_arg1)) = V0 (Proc.devRef .tc main_arg1) := by
  unfold val3
  simp only [c3]
  after_results_simp
  exact val2_main_arg1 V0
theorem val3_main_arg2 (V0 : Valuation τ sig (Elt Ideal)) : val3 V0 (no_index (Proc.devRef .tc main_arg2)) = V0 (Proc.devRef .tc main_arg2) := by
  unfold val3
  simp only [c3]
  after_results_simp
  exact val2_main_arg2 V0
theorem val3_main_arg3 (V0 : Valuation τ sig (Elt Ideal)) : val3 V0 (no_index (Proc.devRef .tc main_arg3)) = V0 (Proc.devRef .tc main_arg3) := by
  unfold val3
  simp only [c3]
  after_results_simp
  exact val2_main_arg3 V0
theorem val3_main_arg4 (V0 : Valuation τ sig (Elt Ideal)) : val3 V0 (no_index (Proc.devRef .tc main_arg4)) = V0 (Proc.devRef .tc main_arg4) := by
  unfold val3
  simp only [c3]
  after_results_simp
  exact val2_main_arg4 V0
theorem val3_main_arg5 (V0 : Valuation τ sig (Elt Ideal)) : val3 V0 (no_index (Proc.devRef .tc main_arg5)) = V0 (Proc.devRef .tc main_arg5) := by
  unfold val3
  simp only [c3]
  after_results_simp
  exact val2_main_arg5 V0
theorem val3_main_v0 (V0 : Valuation τ sig (Elt Ideal)) : val3 V0 (no_index (Proc.devRef .tc main_v0)) = h (V0 (Proc.devRef .tc main_arg0)) (V0 (Proc.devRef .tc main_arg1)) := by
  unfold val3
  simp only [c3]
  after_results_simp
  exact val2_main_v0 V0
theorem val3_main_v4 (V0 : Valuation τ sig (Elt Ideal)) : val3 V0 (no_index (Proc.devRef .tc main_v4)) = row (V0 (Proc.devRef .tc main_arg5)) := by
  unfold val3
  simp only [c3]
  after_results_simp
  exact val2_main_v4 V0
theorem val3_main_v7 (V0 : Valuation τ sig (Elt Ideal)) : val3 V0 (no_index (Proc.devRef .tc main_v7)) = col (V0 (Proc.devRef .tc main_arg5)) := by
  unfold val3
  simp only [c3]
  after_results_simp
  exact val2_main_v7 V0
theorem val3_main_v15 (V0 : Valuation τ sig (Elt Ideal)) : val3 V0 (no_index (Proc.devRef .tc main_v15)) = dis (V0 (Proc.devRef .tc main_arg5)) := by
  unfold val3
  simp only [c3]
  after_results_simp
  all_goals (try simp only [val2_main_arg0, val2_main_arg1, val2_main_arg2, val2_main_arg3, val2_main_arg4, val2_main_arg5, val2_main_v0, val2_main_v4, val2_main_v7, val2_main_v11])
  all_goals rfl

/-- The buffers' contents after the first 4 pieces. -/
def val4 (V0 : Valuation τ sig (Elt Ideal)) : Valuation τ sig (Elt Ideal) := after c4 (val3 V0)
theorem val4_main_arg0 (V0 : Valuation τ sig (Elt Ideal)) : val4 V0 (no_index (Proc.devRef .tc main_arg0)) = V0 (Proc.devRef .tc main_arg0) := by
  unfold val4
  simp only [c4]
  after_results_simp
  exact val3_main_arg0 V0
theorem val4_main_arg1 (V0 : Valuation τ sig (Elt Ideal)) : val4 V0 (no_index (Proc.devRef .tc main_arg1)) = V0 (Proc.devRef .tc main_arg1) := by
  unfold val4
  simp only [c4]
  after_results_simp
  exact val3_main_arg1 V0
theorem val4_main_arg2 (V0 : Valuation τ sig (Elt Ideal)) : val4 V0 (no_index (Proc.devRef .tc main_arg2)) = V0 (Proc.devRef .tc main_arg2) := by
  unfold val4
  simp only [c4]
  after_results_simp
  exact val3_main_arg2 V0
theorem val4_main_arg3 (V0 : Valuation τ sig (Elt Ideal)) : val4 V0 (no_index (Proc.devRef .tc main_arg3)) = V0 (Proc.devRef .tc main_arg3) := by
  unfold val4
  simp only [c4]
  after_results_simp
  exact val3_main_arg3 V0
theorem val4_main_arg4 (V0 : Valuation τ sig (Elt Ideal)) : val4 V0 (no_index (Proc.devRef .tc main_arg4)) = V0 (Proc.devRef .tc main_arg4) := by
  unfold val4
  simp only [c4]
  after_results_simp
  exact val3_main_arg4 V0
theorem val4_main_arg5 (V0 : Valuation τ sig (Elt Ideal)) : val4 V0 (no_index (Proc.devRef .tc main_arg5)) = V0 (Proc.devRef .tc main_arg5) := by
  unfold val4
  simp only [c4]
  after_results_simp
  exact val3_main_arg5 V0
theorem val4_main_v0 (V0 : Valuation τ sig (Elt Ideal)) : val4 V0 (no_index (Proc.devRef .tc main_v0)) = h (V0 (Proc.devRef .tc main_arg0)) (V0 (Proc.devRef .tc main_arg1)) := by
  unfold val4
  simp only [c4]
  after_results_simp
  exact val3_main_v0 V0
theorem val4_main_v4 (V0 : Valuation τ sig (Elt Ideal)) : val4 V0 (no_index (Proc.devRef .tc main_v4)) = row (V0 (Proc.devRef .tc main_arg5)) := by
  unfold val4
  simp only [c4]
  after_results_simp
  exact val3_main_v4 V0
theorem val4_main_v7 (V0 : Valuation τ sig (Elt Ideal)) : val4 V0 (no_index (Proc.devRef .tc main_v7)) = col (V0 (Proc.devRef .tc main_arg5)) := by
  unfold val4
  simp only [c4]
  after_results_simp
  exact val3_main_v7 V0
theorem val4_main_v15 (V0 : Valuation τ sig (Elt Ideal)) : val4 V0 (no_index (Proc.devRef .tc main_v15)) = dis (V0 (Proc.devRef .tc main_arg5)) := by
  unfold val4
  simp only [c4]
  after_results_simp
  exact val3_main_v15 V0
theorem val4_main_v22 (V0 : Valuation τ sig (Elt Ideal)) : val4 V0 (no_index (Proc.devRef .tc main_v22)) = disRow (V0 (Proc.devRef .tc main_arg5)) := by
  unfold val4
  simp only [c4]
  after_results_simp
  all_goals (try simp only [val3_main_arg0, val3_main_arg1, val3_main_arg2, val3_main_arg3, val3_main_arg4, val3_main_arg5, val3_main_v0, val3_main_v4, val3_main_v7, val3_main_v15])
  all_goals rfl

/-- The buffers' contents after the first 5 pieces. -/
def val5 (V0 : Valuation τ sig (Elt Ideal)) : Valuation τ sig (Elt Ideal) := after c5 (val4 V0)
theorem val5_main_arg0 (V0 : Valuation τ sig (Elt Ideal)) : val5 V0 (no_index (Proc.devRef .tc main_arg0)) = V0 (Proc.devRef .tc main_arg0) := by
  unfold val5
  simp only [c5]
  after_results_simp
  exact val4_main_arg0 V0
theorem val5_main_arg1 (V0 : Valuation τ sig (Elt Ideal)) : val5 V0 (no_index (Proc.devRef .tc main_arg1)) = V0 (Proc.devRef .tc main_arg1) := by
  unfold val5
  simp only [c5]
  after_results_simp
  exact val4_main_arg1 V0
theorem val5_main_arg2 (V0 : Valuation τ sig (Elt Ideal)) : val5 V0 (no_index (Proc.devRef .tc main_arg2)) = V0 (Proc.devRef .tc main_arg2) := by
  unfold val5
  simp only [c5]
  after_results_simp
  exact val4_main_arg2 V0
theorem val5_main_arg3 (V0 : Valuation τ sig (Elt Ideal)) : val5 V0 (no_index (Proc.devRef .tc main_arg3)) = V0 (Proc.devRef .tc main_arg3) := by
  unfold val5
  simp only [c5]
  after_results_simp
  exact val4_main_arg3 V0
theorem val5_main_arg4 (V0 : Valuation τ sig (Elt Ideal)) : val5 V0 (no_index (Proc.devRef .tc main_arg4)) = V0 (Proc.devRef .tc main_arg4) := by
  unfold val5
  simp only [c5]
  after_results_simp
  exact val4_main_arg4 V0
theorem val5_main_arg5 (V0 : Valuation τ sig (Elt Ideal)) : val5 V0 (no_index (Proc.devRef .tc main_arg5)) = V0 (Proc.devRef .tc main_arg5) := by
  unfold val5
  simp only [c5]
  after_results_simp
  exact val4_main_arg5 V0
theorem val5_main_v0 (V0 : Valuation τ sig (Elt Ideal)) : val5 V0 (no_index (Proc.devRef .tc main_v0)) = h (V0 (Proc.devRef .tc main_arg0)) (V0 (Proc.devRef .tc main_arg1)) := by
  unfold val5
  simp only [c5]
  after_results_simp
  exact val4_main_v0 V0
theorem val5_main_v4 (V0 : Valuation τ sig (Elt Ideal)) : val5 V0 (no_index (Proc.devRef .tc main_v4)) = row (V0 (Proc.devRef .tc main_arg5)) := by
  unfold val5
  simp only [c5]
  after_results_simp
  exact val4_main_v4 V0
theorem val5_main_v7 (V0 : Valuation τ sig (Elt Ideal)) : val5 V0 (no_index (Proc.devRef .tc main_v7)) = col (V0 (Proc.devRef .tc main_arg5)) := by
  unfold val5
  simp only [c5]
  after_results_simp
  exact val4_main_v7 V0
theorem val5_main_v30 (V0 : Valuation τ sig (Elt Ideal)) : val5 V0 (no_index (Proc.devRef .tc main_v30)) = norm (V0 (Proc.devRef .tc main_arg5)) := by
  unfold val5
  simp only [c5]
  after_results_simp
  all_goals (try simp only [val4_main_arg0, val4_main_arg1, val4_main_arg2, val4_main_arg3, val4_main_arg4, val4_main_arg5, val4_main_v0, val4_main_v4, val4_main_v7, val4_main_v15, val4_main_v22])
  all_goals rfl

/-- The buffers' contents after the first 6 pieces. -/
def val6 (V0 : Valuation τ sig (Elt Ideal)) : Valuation τ sig (Elt Ideal) := after c6 (val5 V0)
theorem val6_main_arg0 (V0 : Valuation τ sig (Elt Ideal)) : val6 V0 (no_index (Proc.devRef .tc main_arg0)) = V0 (Proc.devRef .tc main_arg0) := by
  unfold val6
  simp only [c6]
  after_results_simp
  exact val5_main_arg0 V0
theorem val6_main_arg1 (V0 : Valuation τ sig (Elt Ideal)) : val6 V0 (no_index (Proc.devRef .tc main_arg1)) = V0 (Proc.devRef .tc main_arg1) := by
  unfold val6
  simp only [c6]
  after_results_simp
  exact val5_main_arg1 V0
theorem val6_main_arg2 (V0 : Valuation τ sig (Elt Ideal)) : val6 V0 (no_index (Proc.devRef .tc main_arg2)) = V0 (Proc.devRef .tc main_arg2) := by
  unfold val6
  simp only [c6]
  after_results_simp
  exact val5_main_arg2 V0
theorem val6_main_arg3 (V0 : Valuation τ sig (Elt Ideal)) : val6 V0 (no_index (Proc.devRef .tc main_arg3)) = V0 (Proc.devRef .tc main_arg3) := by
  unfold val6
  simp only [c6]
  after_results_simp
  exact val5_main_arg3 V0
theorem val6_main_arg4 (V0 : Valuation τ sig (Elt Ideal)) : val6 V0 (no_index (Proc.devRef .tc main_arg4)) = V0 (Proc.devRef .tc main_arg4) := by
  unfold val6
  simp only [c6]
  after_results_simp
  exact val5_main_arg4 V0
theorem val6_main_arg5 (V0 : Valuation τ sig (Elt Ideal)) : val6 V0 (no_index (Proc.devRef .tc main_arg5)) = V0 (Proc.devRef .tc main_arg5) := by
  unfold val6
  simp only [c6]
  after_results_simp
  exact val5_main_arg5 V0
theorem val6_main_v7 (V0 : Valuation τ sig (Elt Ideal)) : val6 V0 (no_index (Proc.devRef .tc main_v7)) = col (V0 (Proc.devRef .tc main_arg5)) := by
  unfold val6
  simp only [c6]
  after_results_simp
  exact val5_main_v7 V0
theorem val6_main_v30 (V0 : Valuation τ sig (Elt Ideal)) : val6 V0 (no_index (Proc.devRef .tc main_v30)) = norm (V0 (Proc.devRef .tc main_arg5)) := by
  unfold val6
  simp only [c6]
  after_results_simp
  exact val5_main_v30 V0
theorem val6_main_v37 (V0 : Valuation τ sig (Elt Ideal)) : val6 V0 (no_index (Proc.devRef .tc main_v37)) = hRows (V0 (Proc.devRef .tc main_arg0)) (V0 (Proc.devRef .tc main_arg1)) (V0 (Proc.devRef .tc main_arg5)) := by
  unfold val6
  simp only [c6]
  after_results_simp
  all_goals (try simp only [val5_main_arg0, val5_main_arg1, val5_main_arg2, val5_main_arg3, val5_main_arg4, val5_main_arg5, val5_main_v0, val5_main_v4, val5_main_v7, val5_main_v30])
  all_goals rfl

/-- The buffers' contents after the first 7 pieces. -/
def val7 (V0 : Valuation τ sig (Elt Ideal)) : Valuation τ sig (Elt Ideal) := after c7 (val6 V0)
theorem val7_main_arg0 (V0 : Valuation τ sig (Elt Ideal)) : val7 V0 (no_index (Proc.devRef .tc main_arg0)) = V0 (Proc.devRef .tc main_arg0) := by
  unfold val7
  simp only [c7]
  after_results_simp
  exact val6_main_arg0 V0
theorem val7_main_arg1 (V0 : Valuation τ sig (Elt Ideal)) : val7 V0 (no_index (Proc.devRef .tc main_arg1)) = V0 (Proc.devRef .tc main_arg1) := by
  unfold val7
  simp only [c7]
  after_results_simp
  exact val6_main_arg1 V0
theorem val7_main_arg2 (V0 : Valuation τ sig (Elt Ideal)) : val7 V0 (no_index (Proc.devRef .tc main_arg2)) = V0 (Proc.devRef .tc main_arg2) := by
  unfold val7
  simp only [c7]
  after_results_simp
  exact val6_main_arg2 V0
theorem val7_main_arg3 (V0 : Valuation τ sig (Elt Ideal)) : val7 V0 (no_index (Proc.devRef .tc main_arg3)) = V0 (Proc.devRef .tc main_arg3) := by
  unfold val7
  simp only [c7]
  after_results_simp
  exact val6_main_arg3 V0
theorem val7_main_arg4 (V0 : Valuation τ sig (Elt Ideal)) : val7 V0 (no_index (Proc.devRef .tc main_arg4)) = V0 (Proc.devRef .tc main_arg4) := by
  unfold val7
  simp only [c7]
  after_results_simp
  exact val6_main_arg4 V0
theorem val7_main_arg5 (V0 : Valuation τ sig (Elt Ideal)) : val7 V0 (no_index (Proc.devRef .tc main_arg5)) = V0 (Proc.devRef .tc main_arg5) := by
  unfold val7
  simp only [c7]
  after_results_simp
  exact val6_main_arg5 V0
theorem val7_main_v43 (V0 : Valuation τ sig (Elt Ideal)) : val7 V0 (no_index (Proc.devRef .tc main_v43)) = agg (V0 (Proc.devRef .tc main_arg0)) (V0 (Proc.devRef .tc main_arg1)) (V0 (Proc.devRef .tc main_arg5)) := by
  unfold val7
  simp only [c7]
  after_results_simp
  all_goals (try simp only [val6_main_arg0, val6_main_arg1, val6_main_arg2, val6_main_arg3, val6_main_arg4, val6_main_arg5, val6_main_v7, val6_main_v30, val6_main_v37])
  all_goals rfl

/-- The buffers' contents after the first 8 pieces. -/
def val8 (V0 : Valuation τ sig (Elt Ideal)) : Valuation τ sig (Elt Ideal) := after c8 (val7 V0)
theorem val8_main_arg0 (V0 : Valuation τ sig (Elt Ideal)) : val8 V0 (no_index (Proc.devRef .tc main_arg0)) = V0 (Proc.devRef .tc main_arg0) := by
  unfold val8
  simp only [c8]
  after_results_simp
  exact val7_main_arg0 V0
theorem val8_main_arg1 (V0 : Valuation τ sig (Elt Ideal)) : val8 V0 (no_index (Proc.devRef .tc main_arg1)) = V0 (Proc.devRef .tc main_arg1) := by
  unfold val8
  simp only [c8]
  after_results_simp
  exact val7_main_arg1 V0
theorem val8_main_arg2 (V0 : Valuation τ sig (Elt Ideal)) : val8 V0 (no_index (Proc.devRef .tc main_arg2)) = V0 (Proc.devRef .tc main_arg2) := by
  unfold val8
  simp only [c8]
  after_results_simp
  exact val7_main_arg2 V0
theorem val8_main_arg3 (V0 : Valuation τ sig (Elt Ideal)) : val8 V0 (no_index (Proc.devRef .tc main_arg3)) = V0 (Proc.devRef .tc main_arg3) := by
  unfold val8
  simp only [c8]
  after_results_simp
  exact val7_main_arg3 V0
theorem val8_main_arg4 (V0 : Valuation τ sig (Elt Ideal)) : val8 V0 (no_index (Proc.devRef .tc main_arg4)) = V0 (Proc.devRef .tc main_arg4) := by
  unfold val8
  simp only [c8]
  after_results_simp
  exact val7_main_arg4 V0
theorem val8_main_arg5 (V0 : Valuation τ sig (Elt Ideal)) : val8 V0 (no_index (Proc.devRef .tc main_arg5)) = V0 (Proc.devRef .tc main_arg5) := by
  unfold val8
  simp only [c8]
  after_results_simp
  exact val7_main_arg5 V0
theorem val8_main_v47 (V0 : Valuation τ sig (Elt Ideal)) : val8 V0 (no_index (Proc.devRef .tc main_v47)) = r (V0 (Proc.devRef .tc main_arg0)) (V0 (Proc.devRef .tc main_arg1)) (V0 (Proc.devRef .tc main_arg2)) (V0 (Proc.devRef .tc main_arg5)) := by
  unfold val8
  simp only [c8]
  after_results_simp
  all_goals (try simp only [val7_main_arg0, val7_main_arg1, val7_main_arg2, val7_main_arg3, val7_main_arg4, val7_main_arg5, val7_main_v43])
  all_goals rfl
theorem val8_main_cst_9 (V0 : Valuation τ sig (Elt Ideal)) : val8 V0 (no_index (Proc.devRef .tc main_cst_9)) = zeroS := by
  unfold val8
  simp only [c8]
  after_results_simp
  all_goals (try simp only [val7_main_arg0, val7_main_arg1, val7_main_arg2, val7_main_arg3, val7_main_arg4, val7_main_arg5, val7_main_v43])
  all_goals rfl

/-- The buffers' contents after the first 9 pieces. -/
def val9 (V0 : Valuation τ sig (Elt Ideal)) : Valuation τ sig (Elt Ideal) := after c9 (val8 V0)
theorem val9_main_arg0 (V0 : Valuation τ sig (Elt Ideal)) : val9 V0 (no_index (Proc.devRef .tc main_arg0)) = V0 (Proc.devRef .tc main_arg0) := by
  unfold val9
  simp only [c9]
  after_results_simp
  exact val8_main_arg0 V0
theorem val9_main_arg1 (V0 : Valuation τ sig (Elt Ideal)) : val9 V0 (no_index (Proc.devRef .tc main_arg1)) = V0 (Proc.devRef .tc main_arg1) := by
  unfold val9
  simp only [c9]
  after_results_simp
  exact val8_main_arg1 V0
theorem val9_main_arg2 (V0 : Valuation τ sig (Elt Ideal)) : val9 V0 (no_index (Proc.devRef .tc main_arg2)) = V0 (Proc.devRef .tc main_arg2) := by
  unfold val9
  simp only [c9]
  after_results_simp
  exact val8_main_arg2 V0
theorem val9_main_arg3 (V0 : Valuation τ sig (Elt Ideal)) : val9 V0 (no_index (Proc.devRef .tc main_arg3)) = V0 (Proc.devRef .tc main_arg3) := by
  unfold val9
  simp only [c9]
  after_results_simp
  exact val8_main_arg3 V0
theorem val9_main_arg4 (V0 : Valuation τ sig (Elt Ideal)) : val9 V0 (no_index (Proc.devRef .tc main_arg4)) = V0 (Proc.devRef .tc main_arg4) := by
  unfold val9
  simp only [c9]
  after_results_simp
  exact val8_main_arg4 V0
theorem val9_main_arg5 (V0 : Valuation τ sig (Elt Ideal)) : val9 V0 (no_index (Proc.devRef .tc main_arg5)) = V0 (Proc.devRef .tc main_arg5) := by
  unfold val9
  simp only [c9]
  after_results_simp
  exact val8_main_arg5 V0
theorem val9_main_v47 (V0 : Valuation τ sig (Elt Ideal)) : val9 V0 (no_index (Proc.devRef .tc main_v47)) = r (V0 (Proc.devRef .tc main_arg0)) (V0 (Proc.devRef .tc main_arg1)) (V0 (Proc.devRef .tc main_arg2)) (V0 (Proc.devRef .tc main_arg5)) := by
  unfold val9
  simp only [c9]
  after_results_simp
  exact val8_main_v47 V0
theorem val9_main_v50 (V0 : Valuation τ sig (Elt Ideal)) : val9 V0 (no_index (Proc.devRef .tc main_v50)) = mean (V0 (Proc.devRef .tc main_arg0)) (V0 (Proc.devRef .tc main_arg1)) (V0 (Proc.devRef .tc main_arg2)) (V0 (Proc.devRef .tc main_arg5)) := by
  unfold val9
  simp only [c9]
  after_results_simp
  all_goals (try simp only [val8_main_arg0, val8_main_arg1, val8_main_arg2, val8_main_arg3, val8_main_arg4, val8_main_arg5, val8_main_v47, val8_main_cst_9])
  all_goals rfl
theorem val9_main_c_11 (V0 : Valuation τ sig (Elt Ideal)) : val9 V0 (no_index (Proc.devRef .tc main_c_11)) = constantI S_ 32 0#32 := by
  unfold val9
  simp only [c9]
  after_results_simp
  all_goals (try simp only [val8_main_arg0, val8_main_arg1, val8_main_arg2, val8_main_arg3, val8_main_arg4, val8_main_arg5, val8_main_v47, val8_main_cst_9])
  all_goals rfl

/-- The buffers' contents after the first 10 pieces. -/
def val10 (V0 : Valuation τ sig (Elt Ideal)) : Valuation τ sig (Elt Ideal) := after c10 (val9 V0)
theorem val10_main_arg0 (V0 : Valuation τ sig (Elt Ideal)) : val10 V0 (no_index (Proc.devRef .tc main_arg0)) = V0 (Proc.devRef .tc main_arg0) := by
  unfold val10
  simp only [c10]
  after_results_simp
  exact val9_main_arg0 V0
theorem val10_main_arg1 (V0 : Valuation τ sig (Elt Ideal)) : val10 V0 (no_index (Proc.devRef .tc main_arg1)) = V0 (Proc.devRef .tc main_arg1) := by
  unfold val10
  simp only [c10]
  after_results_simp
  exact val9_main_arg1 V0
theorem val10_main_arg2 (V0 : Valuation τ sig (Elt Ideal)) : val10 V0 (no_index (Proc.devRef .tc main_arg2)) = V0 (Proc.devRef .tc main_arg2) := by
  unfold val10
  simp only [c10]
  after_results_simp
  exact val9_main_arg2 V0
theorem val10_main_arg3 (V0 : Valuation τ sig (Elt Ideal)) : val10 V0 (no_index (Proc.devRef .tc main_arg3)) = V0 (Proc.devRef .tc main_arg3) := by
  unfold val10
  simp only [c10]
  after_results_simp
  exact val9_main_arg3 V0
theorem val10_main_arg4 (V0 : Valuation τ sig (Elt Ideal)) : val10 V0 (no_index (Proc.devRef .tc main_arg4)) = V0 (Proc.devRef .tc main_arg4) := by
  unfold val10
  simp only [c10]
  after_results_simp
  exact val9_main_arg4 V0
theorem val10_main_arg5 (V0 : Valuation τ sig (Elt Ideal)) : val10 V0 (no_index (Proc.devRef .tc main_arg5)) = V0 (Proc.devRef .tc main_arg5) := by
  unfold val10
  simp only [c10]
  after_results_simp
  exact val9_main_arg5 V0
theorem val10_main_v47 (V0 : Valuation τ sig (Elt Ideal)) : val10 V0 (no_index (Proc.devRef .tc main_v47)) = r (V0 (Proc.devRef .tc main_arg0)) (V0 (Proc.devRef .tc main_arg1)) (V0 (Proc.devRef .tc main_arg2)) (V0 (Proc.devRef .tc main_arg5)) := by
  unfold val10
  simp only [c10]
  after_results_simp
  exact val9_main_v47 V0
theorem val10_main_v50 (V0 : Valuation τ sig (Elt Ideal)) : val10 V0 (no_index (Proc.devRef .tc main_v50)) = mean (V0 (Proc.devRef .tc main_arg0)) (V0 (Proc.devRef .tc main_arg1)) (V0 (Proc.devRef .tc main_arg2)) (V0 (Proc.devRef .tc main_arg5)) := by
  unfold val10
  simp only [c10]
  after_results_simp
  exact val9_main_v50 V0
theorem val10_main_c_11 (V0 : Valuation τ sig (Elt Ideal)) : val10 V0 (no_index (Proc.devRef .tc main_c_11)) = constantI S_ 32 0#32 := by
  unfold val10
  simp only [c10]
  after_results_simp
  exact val9_main_c_11 V0
theorem val10_main_call2_v6 (V0 : Valuation τ sig (Elt Ideal)) : val10 V0 (no_index (Proc.devRef .tc main_call2_v6)) = sq (V0 (Proc.devRef .tc main_arg0)) (V0 (Proc.devRef .tc main_arg1)) (V0 (Proc.devRef .tc main_arg2)) (V0 (Proc.devRef .tc main_arg5)) := by
  unfold val10
  simp only [c10]
  after_results_simp
  all_goals (try simp only [val9_main_arg0, val9_main_arg1, val9_main_arg2, val9_main_arg3, val9_main_arg4, val9_main_arg5, val9_main_v47, val9_main_v50, val9_main_c_11])
  all_goals rfl

/-- The buffers' contents after the first 11 pieces. -/
def val11 (V0 : Valuation τ sig (Elt Ideal)) : Valuation τ sig (Elt Ideal) := after c11 (val10 V0)
theorem val11_main_arg0 (V0 : Valuation τ sig (Elt Ideal)) : val11 V0 (no_index (Proc.devRef .tc main_arg0)) = V0 (Proc.devRef .tc main_arg0) := by
  unfold val11
  simp only [c11]
  after_results_simp
  exact val10_main_arg0 V0
theorem val11_main_arg1 (V0 : Valuation τ sig (Elt Ideal)) : val11 V0 (no_index (Proc.devRef .tc main_arg1)) = V0 (Proc.devRef .tc main_arg1) := by
  unfold val11
  simp only [c11]
  after_results_simp
  exact val10_main_arg1 V0
theorem val11_main_arg2 (V0 : Valuation τ sig (Elt Ideal)) : val11 V0 (no_index (Proc.devRef .tc main_arg2)) = V0 (Proc.devRef .tc main_arg2) := by
  unfold val11
  simp only [c11]
  after_results_simp
  exact val10_main_arg2 V0
theorem val11_main_arg3 (V0 : Valuation τ sig (Elt Ideal)) : val11 V0 (no_index (Proc.devRef .tc main_arg3)) = V0 (Proc.devRef .tc main_arg3) := by
  unfold val11
  simp only [c11]
  after_results_simp
  exact val10_main_arg3 V0
theorem val11_main_arg4 (V0 : Valuation τ sig (Elt Ideal)) : val11 V0 (no_index (Proc.devRef .tc main_arg4)) = V0 (Proc.devRef .tc main_arg4) := by
  unfold val11
  simp only [c11]
  after_results_simp
  exact val10_main_arg4 V0
theorem val11_main_arg5 (V0 : Valuation τ sig (Elt Ideal)) : val11 V0 (no_index (Proc.devRef .tc main_arg5)) = V0 (Proc.devRef .tc main_arg5) := by
  unfold val11
  simp only [c11]
  after_results_simp
  exact val10_main_arg5 V0
theorem val11_main_v47 (V0 : Valuation τ sig (Elt Ideal)) : val11 V0 (no_index (Proc.devRef .tc main_v47)) = r (V0 (Proc.devRef .tc main_arg0)) (V0 (Proc.devRef .tc main_arg1)) (V0 (Proc.devRef .tc main_arg2)) (V0 (Proc.devRef .tc main_arg5)) := by
  unfold val11
  simp only [c11]
  after_results_simp
  exact val10_main_v47 V0
theorem val11_main_v50 (V0 : Valuation τ sig (Elt Ideal)) : val11 V0 (no_index (Proc.devRef .tc main_v50)) = mean (V0 (Proc.devRef .tc main_arg0)) (V0 (Proc.devRef .tc main_arg1)) (V0 (Proc.devRef .tc main_arg2)) (V0 (Proc.devRef .tc main_arg5)) := by
  unfold val11
  simp only [c11]
  after_results_simp
  exact val10_main_v50 V0
theorem val11_main_v51 (V0 : Valuation τ sig (Elt Ideal)) : val11 V0 (no_index (Proc.devRef .tc main_v51)) = var (V0 (Proc.devRef .tc main_arg0)) (V0 (Proc.devRef .tc main_arg1)) (V0 (Proc.devRef .tc main_arg2)) (V0 (Proc.devRef .tc main_arg5)) := by
  unfold val11
  simp only [c11]
  after_results_simp
  all_goals (try simp only [val10_main_arg0, val10_main_arg1, val10_main_arg2, val10_main_arg3, val10_main_arg4, val10_main_arg5, val10_main_v47, val10_main_v50, val10_main_c_11, val10_main_call2_v6])
  all_goals rfl

/-- The buffers' contents after the first 12 pieces. -/
def val12 (V0 : Valuation τ sig (Elt Ideal)) : Valuation τ sig (Elt Ideal) := after c12 (val11 V0)
theorem val12_main_arg0 (V0 : Valuation τ sig (Elt Ideal)) : val12 V0 (no_index (Proc.devRef .tc main_arg0)) = V0 (Proc.devRef .tc main_arg0) := by
  unfold val12
  simp only [c12]
  after_results_simp
  exact val11_main_arg0 V0
theorem val12_main_arg1 (V0 : Valuation τ sig (Elt Ideal)) : val12 V0 (no_index (Proc.devRef .tc main_arg1)) = V0 (Proc.devRef .tc main_arg1) := by
  unfold val12
  simp only [c12]
  after_results_simp
  exact val11_main_arg1 V0
theorem val12_main_arg2 (V0 : Valuation τ sig (Elt Ideal)) : val12 V0 (no_index (Proc.devRef .tc main_arg2)) = V0 (Proc.devRef .tc main_arg2) := by
  unfold val12
  simp only [c12]
  after_results_simp
  exact val11_main_arg2 V0
theorem val12_main_arg3 (V0 : Valuation τ sig (Elt Ideal)) : val12 V0 (no_index (Proc.devRef .tc main_arg3)) = V0 (Proc.devRef .tc main_arg3) := by
  unfold val12
  simp only [c12]
  after_results_simp
  exact val11_main_arg3 V0
theorem val12_main_arg4 (V0 : Valuation τ sig (Elt Ideal)) : val12 V0 (no_index (Proc.devRef .tc main_arg4)) = V0 (Proc.devRef .tc main_arg4) := by
  unfold val12
  simp only [c12]
  after_results_simp
  exact val11_main_arg4 V0
theorem val12_main_arg5 (V0 : Valuation τ sig (Elt Ideal)) : val12 V0 (no_index (Proc.devRef .tc main_arg5)) = V0 (Proc.devRef .tc main_arg5) := by
  unfold val12
  simp only [c12]
  after_results_simp
  exact val11_main_arg5 V0
theorem val12_main_v66 (V0 : Valuation τ sig (Elt Ideal)) : val12 V0 (no_index (Proc.devRef .tc main_v66)) = bnr (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val12
  simp only [c12]
  after_results_simp
  all_goals (try simp only [val11_main_arg0, val11_main_arg1, val11_main_arg2, val11_main_arg3, val11_main_arg4, val11_main_arg5, val11_main_v47, val11_main_v50, val11_main_v51])
  all_goals rfl

/-- The buffers' contents after the first 13 pieces. -/
def val13 (V0 : Valuation τ sig (Elt Ideal)) : Valuation τ sig (Elt Ideal) := after c13 (val12 V0)
theorem val13_main_arg0 (V0 : Valuation τ sig (Elt Ideal)) : val13 V0 (no_index (Proc.devRef .tc main_arg0)) = V0 (Proc.devRef .tc main_arg0) := by
  unfold val13
  simp only [c13]
  after_results_simp
  exact val12_main_arg0 V0
theorem val13_main_arg1 (V0 : Valuation τ sig (Elt Ideal)) : val13 V0 (no_index (Proc.devRef .tc main_arg1)) = V0 (Proc.devRef .tc main_arg1) := by
  unfold val13
  simp only [c13]
  after_results_simp
  exact val12_main_arg1 V0
theorem val13_main_arg2 (V0 : Valuation τ sig (Elt Ideal)) : val13 V0 (no_index (Proc.devRef .tc main_arg2)) = V0 (Proc.devRef .tc main_arg2) := by
  unfold val13
  simp only [c13]
  after_results_simp
  exact val12_main_arg2 V0
theorem val13_main_arg3 (V0 : Valuation τ sig (Elt Ideal)) : val13 V0 (no_index (Proc.devRef .tc main_arg3)) = V0 (Proc.devRef .tc main_arg3) := by
  unfold val13
  simp only [c13]
  after_results_simp
  exact val12_main_arg3 V0
theorem val13_main_arg4 (V0 : Valuation τ sig (Elt Ideal)) : val13 V0 (no_index (Proc.devRef .tc main_arg4)) = V0 (Proc.devRef .tc main_arg4) := by
  unfold val13
  simp only [c13]
  after_results_simp
  exact val12_main_arg4 V0
theorem val13_main_arg5 (V0 : Valuation τ sig (Elt Ideal)) : val13 V0 (no_index (Proc.devRef .tc main_arg5)) = V0 (Proc.devRef .tc main_arg5) := by
  unfold val13
  simp only [c13]
  after_results_simp
  exact val12_main_arg5 V0
theorem val13_main_v74 (V0 : Valuation τ sig (Elt Ideal)) : val13 V0 (no_index (Proc.devRef .tc main_v74)) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val13
  simp only [c13]
  after_results_simp
  all_goals (try simp only [val12_main_arg0, val12_main_arg1, val12_main_arg2, val12_main_arg3, val12_main_arg4, val12_main_arg5, val12_main_v66])
  all_goals rfl

/-- The whole list run from `V0` leaves the buffers at the last piece's contents. -/
theorem after_ops (V0 : Valuation τ sig (Elt Ideal)) : after ops V0 = val13 V0 := by
  simp only [ops, ops0, ops1, after_append']
  rfl

end Cert.RefValue

end
-- ==== Proof.RefRun.lean ====
/-
  The reference program's run, read back.

  From any memory with zero counters, every weakly fair execution of the reference's @main terminates without a fault;
  at the end the result buffer holds the last stage of the reference computation applied to the six argument arrays
  as the memory held them at the start, and the six argument buffers hold what they held at the start.
-/
import proofs.«101444_j62766652064051_2_alg».proof.Proof.RefRunOps
import proofs.«101444_j62766652064051_2_alg».proof.Proof.RefRunVal
import proofs.«101444_j62766652064051_2_alg».proof.Proof.RefDefs

noncomputable section

namespace Cert.RefValue

open Cert.ReferenceIdeal Idealize.ShloMosaic Idealize.ShloMosaic.TcCoe Idealize.SL.Sem Idealize.ShloMosaic.StableHlo

/-- Every weakly fair execution of the reference's @main terminates with the result buffer at `out` of the
    arguments' launch contents and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v74) = out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono (fun _ h c => ⟨(h c main_v74).trans ((congrFun (after_ops (launchContents m c)) _).trans (val13_main_v74 (launchContents m c))),
      (h c main_arg0).trans ((congrFun (after_ops (launchContents m c)) _).trans (val13_main_arg0 (launchContents m c))),
      (h c main_arg1).trans ((congrFun (after_ops (launchContents m c)) _).trans (val13_main_arg1 (launchContents m c))),
      (h c main_arg2).trans ((congrFun (after_ops (launchContents m c)) _).trans (val13_main_arg2 (launchContents m c))),
      (h c main_arg3).trans ((congrFun (after_ops (launchContents m c)) _).trans (val13_main_arg3 (launchContents m c))),
      (h c main_arg4).trans ((congrFun (after_ops (launchContents m c)) _).trans (val13_main_arg4 (launchContents m c))),
      (h c main_arg5).trans ((congrFun (after_ops (launchContents m c)) _).trans (val13_main_arg5 (launchContents m c)))⟩)
    (run_seq scopedRefs_eq scopedSems_eq (Cert.ReferenceIdeal.defs (F := Ideal)) (Cert.ReferenceIdeal.main (F := Ideal)) (fun _ => ops) main_eq (fun _ => ops_sub) m ρ)

end Cert.RefValue

end
-- ==== Proof.LibScatterRows.lean ====
/-
  A scatter-add of whole rows, read at an index.

  Adding the rows of an update matrix `upd : [R, D]` into the rows of an operand `x : [N, D]` at the row numbers held in
  an integer column `idx : [R, 1]` is a scatter whose row axis is the inserted (one-element) window axis named by the
  scatter index, and whose column axis is the one update window axis. Update element `(e, c)` lands at row `idx[e, 0]`
  — read as a signed integer and NOT clamped: an update whose row number is outside `[0, N − 1]` is dropped — and
  column `c`. So at the extended reals element `(r, c)` of the result is

      x[r, c] + ∑ over the update rows e with idx[e, 0] = r of upd[e, c].

  The rank-1 form (operand `[N]`, indices `[R, 1]`, updates `[R]`) has no window axis at all: update element `e` lands
  at position `idx[e, 0]`, and element `r` of the result is `x[r] + ∑ over e with idx[e, 0] = r of upd[e]`.
-/
import Idealize.ShloMosaic.PureOps
import Idealize.ShloMosaic.PureOps.Ideal
import Idealize.ShloMosaic.Lib.ValueIdx

namespace Cert.Lib.ScatterRows

open Idealize.ShloMosaic Idealize.ShloMosaic.ValueIdx
open scoped BigOperators

/-- WHERE AN UPDATE LANDS: update index `j` lands at operand index `i` exactly when on every operand axis the signed
    start plus the window coordinate is `i`'s coordinate (being a coordinate of `i`, that number is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hEq a
      have := h a
      rw [← hEq]
      show _ = (((d.start j idx a + (d.window j a : Int)).toNat : Nat) : Int)
      omega
    · intro hEq
      funext a
      refine Fin.ext ?_
      show (d.start j idx a + (d.window j a : Int)).toNat = (i a).val
      have := hEq a
      omega
  · rename_i h
    constructor
    · intro hEq; exact absurd hEq (by simp)
    · intro hEq
      exfalso; apply h
      intro a
      have := hEq a
      have := (i a).isLt
      omega

/-! ## Rows of a matrix -/

/-- The dimension numbers of that scatter for an operand `[N, D]`, scatter indices `[R, 1]` and updates `[R, D]`. -/
abbrev rowsDims (N R D : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

section Rows
variable {N R D w : Nat} (wf : ScatterDims.WF ⟨2, ![N, D]⟩ ⟨2, ![R, 1]⟩ ⟨2, ![R, D]⟩ [1] [0] [0] 1)

/-- The row axis is the one the scatter index names: its start is the row number `idx[e, 0]`, read signed. -/
theorem rows_start_row (idx : IVec ⟨2, ![R, 1]⟩ w) (e : Fin R) (c' : Fin D) :
    (rowsDims N R D wf).start (ix2 e c') idx (0 : Fin 2) = (idx (ix2 e (0 : Fin 1))).toInt := by
  unfold ScatterDims.start
  rw [dif_pos (show (0 : Fin 2) ∈ (rowsDims N R D wf).scatterDimsToOperandDims from List.mem_singleton.mpr rfl)]
  have hsi : (rowsDims N R D wf).siIdx (ix2 e c') ⟨List.idxOf (0 : Fin 2) (rowsDims N R D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the scatter index: its start is `0`. -/
theorem rows_start_col (idx : IVec ⟨2, ![R, 1]⟩ w) (j : (⟨2, ![R, D]⟩ : Shape).Idx) :
    (rowsDims N R D wf).start j idx (1 : Fin 2) = 0 := by
  unfold ScatterDims.start
  rw [dif_neg (show (1 : Fin 2) ∉ ([0] : List (Fin 2)) by decide)]

/-- The row axis is an inserted window axis: no window coordinate. -/
theorem rows_window_row (j : (⟨2, ![R, D]⟩ : Shape).Idx) : (rowsDims N R D wf).window j (0 : Fin 2) = 0 := by
  unfold ScatterDims.window
  have h0 : (0 : Fin 2) ∉ (List.finRange 2).filter (· ∉ ([0] : List (Fin 2))) := by decide
  rw [dif_neg (show (0 : Fin 2) ∉ (rowsDims N R D wf).sKept from h0)]

/-- The column axis is the window axis: its window coordinate is the update's column. -/
theorem rows_window_col (e : Fin R) (c' : Fin D) : (rowsDims N R D wf).window (ix2 e c') (1 : Fin 2) = c'.val := by
  unfold ScatterDims.window
  have h1 : (1 : Fin 2) ∈ (List.finRange 2).filter (· ∉ ([0] : List (Fin 2))) := by decide
  rw [dif_pos (show (1 : Fin 2) ∈ (rowsDims N R D wf).sKept from h1)]
  rfl

/-- WHERE UPDATE ELEMENT `(e, c')` LANDS: at `(r, c)` exactly when its row number `idx[e, 0]`, read signed, is `r` and its
    column is `c`. -/
theorem rows_resultIdx?_iff (idx : IVec ⟨2, ![R, 1]⟩ w) (e : Fin R) (c' : Fin D) (r : Fin N) (c : Fin D) :
    (rowsDims N R D wf).resultIdx? (ix2 e c') idx = some (ix2 r c)
      ↔ (idx (ix2 e (0 : Fin 1))).toInt = (r.val : Int) ∧ c' = c := by
  rw [resultIdx?_eq_some_iff]
  constructor
  · intro h
    have h0 := h (0 : Fin 2)
    have h1 := h (1 : Fin 2)
    rw [rows_start_row, rows_window_row] at h0
    rw [rows_start_col, rows_window_col] at h1
    have h0' : (idx (ix2 e (0 : Fin 1))).toInt + ((0 : Nat) : Int) = (r.val : Int) := h0
    have h1' : (0 : Int) + (c'.val : Int) = (c.val : Int) := h1
    exact ⟨by omega, Fin.ext (by omega)⟩
  · rintro ⟨h0, rfl⟩ a
    match a with
    | ⟨0, _⟩ =>
      show (rowsDims N R D wf).start (ix2 e c') idx (0 : Fin 2) + ((rowsDims N R D wf).window (ix2 e c') (0 : Fin 2) : Int)
        = (r.val : Int)
      rw [rows_start_row, rows_window_row]; omega
    | ⟨1, _⟩ =>
      show (rowsDims N R D wf).start (ix2 e c') idx (1 : Fin 2) + ((rowsDims N R D wf).window (ix2 e c') (1 : Fin 2) : Int)
        = (c'.val : Int)
      rw [rows_start_col, rows_window_col]; omega

/-- THE SCATTER-ADD READ AT `(r, c)`: the operand's element plus the sum, over the update rows whose row number
    `idx[e, 0]` (read signed) is `r`, of their elements in column `c`. -/
theorem scatterAdd_rows_apply (x : (⟨2, ![N, D]⟩ : Shape).Idx → EReal) (idx : IVec ⟨2, ![R, 1]⟩ w)
    (upd : (⟨2, ![R, D]⟩ : Shape).Idx → EReal) (r : Fin N) (c : Fin D) :
    Ideal.hostScatterAdd (rowsDims N R D wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases he : (idx (ix2 e (0 : Fin 1))).toInt = (r.val : Int)
  · rw [if_pos he]
    refine (Finset.sum_congr rfl fun c' _ =>
      if_congr ((rows_resultIdx?_iff wf idx e c' r c).trans (and_iff_right he)) rfl rfl).trans ?_
    exact (Finset.sum_ite_eq' Finset.univ c fun c' => upd (ix2 e c')).trans (if_pos (Finset.mem_univ c))
  · rw [if_neg he]
    exact Finset.sum_eq_zero fun c' _ =>
      if_neg fun h => he ((rows_resultIdx?_iff wf idx e c' r c).mp h).1

end Rows

/-! ## Elements of a vector -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of the rank-1 scatter: an operand `[N]`, scatter indices `[R, 1]` and updates `[R]`; the
    operand's one axis is the inserted window axis the scatter index names, and the updates have no window axis. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The one operand axis is named by the scatter index: its start is the position `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: no window coordinate. -/
theorem vec_window (j : (⟨1, ![R]⟩ : Shape).Idx) : (vecDims N R wf).window j (0 : Fin 1) = 0 := by
  unfold ScatterDims.window
  have h0 : (0 : Fin 1) ∉ (List.finRange 1).filter (· ∉ ([0] : List (Fin 1))) := by decide
  rw [dif_neg (show (0 : Fin 1) ∉ (vecDims N R wf).sKept from h0)]

/-- WHERE UPDATE ELEMENT `e` LANDS: at `r` exactly when its position `idx[e, 0]`, read signed, is `r`. -/
theorem vec_resultIdx?_iff (idx : IVec ⟨2, ![R, 1]⟩ w) (e : Fin R) (r : Fin N) :
    (vecDims N R wf).resultIdx? (ix1 e) idx = some (ix1 r) ↔ (idx (ix2 e (0 : Fin 1))).toInt = (r.val : Int) := by
  rw [resultIdx?_eq_some_iff]
  constructor
  · intro h
    have h0 := h (0 : Fin 1)
    rw [vec_start, vec_window] at h0
    have h0' : (idx (ix2 e (0 : Fin 1))).toInt + ((0 : Nat) : Int) = (r.val : Int) := h0
    omega
  · intro h0 a
    obtain rfl : a = 0 := Subsingleton.elim _ _
    show (vecDims N R wf).start (ix1 e) idx (0 : Fin 1) + ((vecDims N R wf).window (ix1 e) (0 : Fin 1) : Int) = (r.val : Int)
    rw [vec_start, vec_window]; omega

/-- THE RANK-1 SCATTER-ADD READ AT `r`: the operand's element plus the sum of the update elements whose position
    `idx[e, 0]` (read signed) is `r`. -/
theorem scatterAdd_vec_apply (x : (⟨1, ![N]⟩ : Shape).Idx → EReal) (idx : IVec ⟨2, ![R, 1]⟩ w)
    (upd : (⟨1, ![R]⟩ : Shape).Idx → EReal) (r : Fin N) :
    Ideal.hostScatterAdd (vecDims N R wf) x idx upd (ix1 r)
      = x (ix1 r) + ∑ e : Fin R, if (idx (ix2 e (0 : Fin 1))).toInt = (r.val : Int) then upd (ix1 e) else 0 := by
  unfold Ideal.hostScatterAdd
  congr 1
  rw [Finset.sum_filter, sum_idx1]
  exact Finset.sum_congr rfl fun e _ => if_congr (vec_resultIdx?_iff wf idx e r) rfl rfl

end Vec

end Cert.Lib.ScatterRows
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.Reads.lean ====
/-
  Small layout and reduction operations of the two host programs, read at an index.

  * a vector made a column, a vector made a row, a row repeated down the rows, a column repeated along the columns;
  * a host sum of an `[a, b]` array over its first axis (one value per column) and over its second axis (one value per
    row); a host sum of an `[a, n, b]` array over its first two axes;
  * a sum over 100000 nodes regrouped as 20 tiles of 5000 rows.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«101444_j62766652064051_2_alg».proof.Proof.LibSumSplit
import proofs.«101444_j62766652064051_2_alg».proof.Proof.KSpec

noncomputable section

namespace Cert.Reads

open Idealize.ShloMosaic Idealize.ShloMosaic.ValueIdx
open scoped BigOperators

variable {α : Type}

/-- A vector repeated as a column `[a, 1]` reads entry `e` at `(e, u)`. -/
theorem bcast_a_a1 {a : ℕ} (v : (⟨1, ![a]⟩ : Shape).Idx → α) (h : (⟨1, ![a]⟩ : Shape).BroadcastsInDim ⟨2, ![a, 1]⟩ ![0])
    (e : Fin a) (u : Fin 1) : broadcastInDim ⟨2, ![a, 1]⟩ ![0] h v (ix2 e u) = v (ix1 e) := by
  refine broadcastInDim_apply _ h v (ix2 e u) (ix1 e) fun ax => ?_
  match ax with
  | ⟨0, _⟩ =>
    show e.val = if a = 1 then 0 else e.val
    split
    · have := e.isLt; omega
    · rfl

/-- A vector made a row `[1, b]` reads entry `c` at `(u, c)`. -/
theorem bcast_b_1b {b : ℕ} (v : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` repeated down `a` rows reads the row's entry `c` at `(n, c)`. -/
theorem bcast_1b_ab {a b : ℕ} (v : (⟨2, ![1, b]⟩ : Shape).Idx → α)
    (h : (⟨2, ![1, b]⟩ : Shape).BroadcastsInDim ⟨2, ![a, b]⟩ ![0, 1]) (n : Fin a) (c : Fin b) :
    broadcastInDim ⟨2, ![a, b]⟩ ![0, 1] h v (ix2 n c) = v (ix2 (0 : Fin 1) c) := by
  refine broadcastInDim_apply _ h v (ix2 n c) (ix2 (0 : Fin 1) c) fun ax => ?_
  match ax with
  | ⟨0, _⟩ => rfl
  | ⟨1, _⟩ =>
    show c.val = if b = 1 then 0 else c.val
    split
    · have := c.isLt; omega
    · rfl

/-- A column `[a, 1]` repeated along `b` columns reads the column's entry `n` at `(n, c)`. -/
theorem bcast_a1_ab {a b : ℕ} (v : (⟨2, ![a, 1]⟩ : Shape).Idx → α)
    (h : (⟨2, ![a, 1]⟩ : Shape).BroadcastsInDim ⟨2, ![a, b]⟩ ![0, 1]) (n : Fin a) (c : Fin b) :
    broadcastInDim ⟨2, ![a, b]⟩ ![0, 1] h v (ix2 n c) = v (ix2 n (0 : Fin 1)) := by
  refine broadcastInDim_apply _ h v (ix2 n c) (ix2 n (0 : Fin 1)) fun ax => ?_
  match ax with
  | ⟨0, _⟩ =>
    show n.val = if a = 1 then 0 else n.val
    split
    · have := n.isLt; omega
    · rfl
  | ⟨1, _⟩ => rfl

/-- Column `c` of the reduced array with coordinate `n` put back on the reduced (first) axis is the index `(n, c)`. -/
theorem lift_col {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

/-- The host's sum of an `[a, b]` array over its first axis, at column `c`: the initial value plus the column's sum. -/
theorem hostReduceAdd_cols {a b : ℕ} (h' : (⟨2, ![a, b]⟩ : Shape).ReducesTo [0] (⟨1, ![b]⟩ : Shape))
    (h : (⟨2, ![a, b]⟩ : Shape).Reduces [0] (⟨1, ![b]⟩ : Shape)) (x : (⟨2, ![a, b]⟩ : Shape).Idx → EReal) (init : EReal)
    (c : Fin b) : Ideal.hostReduceAdd h' x init (ix1 c) = init + ∑ n : Fin a, x (ix2 n c) := by
  refine (Ideal.hostReduceAdd_single h' h x init (ix1 c)).trans (congrArg (init + ·) ?_)
  exact congrArg (fun f => Finset.sum (Finset.univ : Finset (Fin a)) f) (funext fun k => congrArg x (lift_col h c k))

/-- The host's sum of an `[a, b]` array over its second axis, at row `r`: the initial value plus the row's sum. -/
theorem hostReduceAdd_rows {a b : ℕ} (h' : (⟨2, ![a, b]⟩ : Shape).ReducesTo [1] (⟨1, ![a]⟩ : Shape))
    (h : (⟨2, ![a, b]⟩ : Shape).Reduces [1] (⟨1, ![a]⟩ : Shape)) (x : (⟨2, ![a, b]⟩ : Shape).Idx → EReal) (init : EReal)
    (r : Fin a) : Ideal.hostReduceAdd h' x init (ix1 r) = init + ∑ k : Fin b, x (ix2 r k) := by
  refine (Ideal.hostReduceAdd_single h' h x init (ix1 r)).trans (congrArg (init + ·) ?_)
  exact congrArg (fun f => Finset.sum (Finset.univ : Finset (Fin b)) f) (funext fun k => congrArg x (lift_row h r k))

/-- The host's sum of an `[a, n, b]` array over its first two axes, at `c`: the initial value plus the double sum
    over the two reduced coordinates. The indices that drop to `c` are exactly the `(i, k, c)`. -/
theorem hostReduceAdd_first_two {a n b : ℕ} (h : (⟨3, ![a, n, b]⟩ : Shape).ReducesTo [0, 1] (⟨1, ![b]⟩ : Shape))
    (x : (⟨3, ![a, n, b]⟩ : Shape).Idx → EReal) (init : EReal) (c : Fin b) :
    Ideal.hostReduceAdd h x init (ix1 c) = init + ∑ i : Fin a, ∑ k : Fin n, x (ix3 i k c) := by
  unfold Ideal.hostReduceAdd
  refine congrArg (init + ·) ?_
  rw [← Fintype.sum_prod_type']
  have hdrop : ∀ i : (⟨3, ![a, n, b]⟩ : Shape).Idx, ((h.drop i) 0).val = (i 2).val := fun i => rfl
  have hleft : ∀ i ∈ Finset.univ.filter (fun i => h.drop i = ix1 c), ix3 (i 0) (i 1) c = i := by
    intro i hi
    have hj := (Finset.mem_filter.1 hi).2
    have h2 : (i 2).val = c.val := by
      have := congrArg (fun y : (⟨1, ![b]⟩ : Shape).Idx => (y 0).val) hj
      exact (hdrop i).symm.trans this
    funext d; apply Fin.ext
    match d with
    | ⟨0, _⟩ => rfl
    | ⟨1, _⟩ => rfl
    | ⟨2, _⟩ => exact h2.symm
  refine Finset.sum_nbij' (fun i => (i 0, i 1)) (fun p => ix3 p.1 p.2 c) ?_ ?_ ?_ ?_ ?_
  · intro i _; exact Finset.mem_univ _
  · intro p _
    refine Finset.mem_filter.2 ⟨Finset.mem_univ _, ?_⟩
    funext d; apply Fin.ext
    match d with
    | ⟨0, _⟩ => exact hdrop _
  · intro i hi; exact hleft i hi
  · intro p _; rfl
  · intro i hi; exact congrArg x (hleft i hi).symm

/-- A sum over the 100000 nodes is the sum over the 20 tiles of the sums over each tile's 5000 rows. -/
theorem sum_nodes_tiles {M : Type*} [AddCommMonoid M] (f : Fin 100000 → M) :
    ∑ n, f n = ∑ t : Fin 20, ∑ p : Fin 5000, f (Cert.KSpec.rowOf t p) := by
  rw [Cert.PointDist.sum_tiles (show 20 * 5000 = 100000 from rfl) f]
  refine Finset.sum_congr rfl fun t _ => Finset.sum_congr rfl fun p _ => congrArg f (Fin.ext ?_)
  show t.val * 5000 + p.val = 5000 * t.val + p.val
  omega

end Cert.Reads

end
-- ==== Proof.Math.lean ====
/-
  The real-number algebra behind the equivalence, stated on the extended reals for finite (real) entries.

  * A finite sum of reals, read in the extended reals, is the sum of the entries read there (`coe_sum`).
  * Factoring a common real factor out of a masked sum of products (`masked_sum_factor`): if every selected term
    carries the same last factor `d`, the factor comes out of the sum. This is what lets a per-edge weight
    `dis[row]·dis[col]` be applied as `dis[row]` before the aggregation and `dis[col]` after it.
  * The two formulas for the variance of finitely many reals agree (`variance_forms`): the mean of the squares minus
    the square of the mean is the mean of the squared deviations, and is not negative, so cutting it off below at zero
    changes nothing.
  * The reciprocal square root chosen where the count is positive and zero elsewhere is a real (`scale_real`).
  * The float constants the two programs spell: `1.0` and `100000.0`.
-/
import Idealize.ShloMosaic.PureOps.Ideal
import Idealize.ShloMosaic.PureOps.Ideal.Laws

noncomputable section

namespace Cert.Math

open Idealize.ShloMosaic
open scoped BigOperators

/-- `1.0` denotes the real `1`. -/
theorem ofBits_one : Ideal.ofBits .f32 0x3F800000#32 = 1 := by
  simp [Ideal.ofBits, Ideal.ieee, -EReal.coe_mul]; norm_num

/-- `100000.0` denotes the real `100000`. -/
theorem ofBits_1e5 : Ideal.ofBits .f32 0x47C35000#32 = ((100000 : ℝ) : EReal) := by
  simp [Ideal.ofBits, Ideal.ieee, -EReal.coe_mul]; norm_num

/-- A finite sum of reals read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals that are all real is real. -/
theorem sum_real {ι : Type*} (s : Finset ι) (f : ι → EReal) (g : ι → ℝ) (h : ∀ i ∈ s, f i = (g i : EReal)) :
    ∑ i ∈ s, f i = ((∑ i ∈ s, g i : ℝ) : EReal) := by
  rw [coe_sum]; exact Finset.sum_congr rfl h

/-- The larger of a real and zero is a real. -/
theorem max_coe_zero (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

/-- Factoring a common real factor out of a masked sum of products. -/
theorem masked_sum_factor {ι : Type*} [Fintype ι] (p : ι → Prop) [DecidablePred p] (a b : ι → ℝ) (d' : ι → EReal) (d : ℝ)
    (hd : ∀ e, p e → d' e = (d : EReal)) :
    (∑ e, if p e then (a e : EReal) * ((b e : EReal) * d' e) else 0)
      = (∑ e, if p e then (a e : EReal) * (b e : EReal) else 0) * (d : EReal) := by
  have hL : ∀ e ∈ (Finset.univ : Finset ι), (if p e then (a e : EReal) * ((b e : EReal) * d' e) else 0)
      = (((if p e then a e * b e else 0) * d : ℝ) : EReal) := by
    intro e _
    by_cases h : p e
    · rw [if_pos h, if_pos h, hd e h, ← EReal.coe_mul, ← EReal.coe_mul, mul_assoc]
    · rw [if_neg h, if_neg h, zero_mul, EReal.coe_zero]
  have hR : ∀ e ∈ (Finset.univ : Finset ι), (if p e then (a e : EReal) * (b e : EReal) else 0)
      = (((if p e then a e * b e else 0) : ℝ) : EReal) := by
    intro e _
    by_cases h : p e
    · rw [if_pos h, if_pos h, EReal.coe_mul]
    · rw [if_neg h, if_neg h, EReal.coe_zero]
  rw [sum_real _ _ _ hL, sum_real _ _ _ hR, ← EReal.coe_mul, Finset.sum_mul]

/-- The two formulas for the variance of `n` reals agree, in the reals. -/
theorem variance_real (n : ℕ) (hn : 0 < n) (r : Fin n → ℝ) :
    (∑ i, (r i - (∑ j, r j) * (1 / (n : ℝ))) * (r i - (∑ j, r j) * (1 / (n : ℝ)))) * (1 / (n : ℝ))
      = (∑ i, r i * r i) * (1 / (n : ℝ)) - ((∑ j, r j) * (1 / (n : ℝ))) * ((∑ j, r j) * (1 / (n : ℝ))) := by
  have hn' : (n : ℝ) ≠ 0 := by exact_mod_cast hn.ne'
  set s := ∑ j, r j with hs
  set m := s * (1 / (n : ℝ)) with hm
  have e1 : ∑ i, (r i - m) * (r i - m) = (∑ i, r i * r i) - 2 * m * s + (n : ℝ) * (m * m) := by
    have : ∀ i, (r i - m) * (r i - m) = r i * r i - 2 * m * r i + m * m := fun i => by ring
    simp only [this]
    rw [Finset.sum_add_distrib, Finset.sum_sub_distrib, ← Finset.mul_sum, Finset.sum_const, Finset.card_univ,
      Fintype.card_fin, nsmul_eq_mul]
  rw [e1, hm]
  field_simp
  ring

/-- … and the common value is not negative. -/
theorem variance_nonneg (n : ℕ) (r : Fin n → ℝ) (m : ℝ) : 0 ≤ (∑ i, (r i - m) * (r i - m)) * (1 / (n : ℝ)) :=
  mul_nonneg (Finset.sum_nonneg fun i _ => mul_self_nonneg _) (by positivity)

/-- The two formulas for the variance of `n` reals, on the extended reals: the mean of the squares minus the square of
    the mean, cut off below at zero, is the mean of the squared deviations. -/
theorem variance_forms (n : ℕ) (hn : 0 < n) (r : Fin n → ℝ) :
    max (Ideal.div (∑ i, (r i : EReal) * (r i : EReal)) ((n : ℝ) : EReal)
          - Ideal.div (∑ i, (r i : EReal)) ((n : ℝ) : EReal) * Ideal.div (∑ i, (r i : EReal)) ((n : ℝ) : EReal)) 0
      = Ideal.div (∑ i, ((r i : EReal) - Ideal.div (∑ j, (r j : EReal)) ((n : ℝ) : EReal))
          * ((r i : EReal) - Ideal.div (∑ j, (r j : EReal)) ((n : ℝ) : EReal))) ((n : ℝ) : EReal) := by
  have hn' : (n : ℝ) ≠ 0 := by exact_mod_cast hn.ne'
  have hS : (∑ j, (r j : EReal)) = ((∑ j, r j : ℝ) : EReal) := (coe_sum _ _).symm
  have hQ : (∑ i, (r i : EReal) * (r i : EReal)) = ((∑ i, r i * r i : ℝ) : EReal) := by
    rw [coe_sum]; exact Finset.sum_congr rfl fun i _ => (EReal.coe_mul _ _).symm
  have hμ : Ideal.div (∑ j, (r j : EReal)) ((n : ℝ) : EReal) = (((∑ j, r j) * (1 / (n : ℝ)) : ℝ) : EReal) := by
    rw [Ideal.div_coe hn', hS, ← EReal.coe_mul]
  have hD : (∑ i, ((r i : EReal) - Ideal.div (∑ j, (r j : EReal)) ((n : ℝ) : EReal))
          * ((r i : EReal) - Ideal.div (∑ j, (r j : EReal)) ((n : ℝ) : EReal)))
      = ((∑ i, (r i - (∑ j, r j) * (1 / (n : ℝ))) * (r i - (∑ j, r j) * (1 / (n : ℝ))) : ℝ) : EReal) := by
    rw [coe_sum, hμ]
    exact Finset.sum_congr rfl fun i _ => by rw [← EReal.coe_sub, ← EReal.coe_mul]
  rw [hD, hμ, Ideal.div_coe hn', Ideal.div_coe hn', hQ, ← EReal.coe_mul, ← EReal.coe_mul, ← EReal.coe_mul, ← EReal.coe_sub,
    ← variance_real n hn r, max_coe_zero, max_eq_left (variance_nonneg n r _)]

/-- The scale factor of a node whose count `δ` is not negative — the reciprocal square root where the count is positive,
    zero elsewhere — is a real. -/
theorem scale_real (δ : ℝ) (hδ : 0 ≤ δ) (z : EReal) (hz : z = 0) :
    ∃ d : ℝ, Scalar.select (Ideal.cmp .ogt (δ : EReal) z) (Ideal.rsqrt (δ : EReal)) z = (d : EReal) := by
  subst hz
  by_cases h : (0 : EReal) < (δ : EReal)
  · refine ⟨(Real.sqrt δ)⁻¹, ?_⟩
    have hc : Ideal.cmp .ogt (δ : EReal) 0 = 1#1 := by simp [Ideal.cmp, h]
    have hpos : 0 < δ := by exact_mod_cast h
    rw [hc]
    exact (if_pos rfl).trans (by rw [Ideal.rsqrt_coe, if_neg (not_lt.mpr hδ), if_neg hpos.ne'])
  · refine ⟨0, ?_⟩
    have hc : Ideal.cmp .ogt (δ : EReal) 0 = 0#1 := by simp [Ideal.cmp, h]
    rw [hc]
    exact (if_neg (by decide)).trans rfl

end Cert.Math

end
-- ==== Proof.Edges.lean ====
/-
  The edge lists of the reference program, and the fact the aggregation's algebra needs of their targets.

  Every edge `e` (the listed ones, then one self loop per node) has a target word; read signed it is `colI e`, and the
  edge is summed into node `n` exactly when `colI e = n`. Its source node `ρ e` and its target node `κ e` are what the
  gathers read: the word with 100000 added when negative, then clamped into the node range.
  * If an edge's target word reads as a node number `n`, it is not negative, so nothing is added, the clamp does nothing,
    and `κ e = n` (`kappa_of_col`).
-/
import proofs.«101444_j62766652064051_2_alg».proof.Proof.RefDefs
import proofs.«101444_j62766652064051_2_alg».proof.Proof.LibScatterRows
import proofs.«101444_j62766652064051_2_alg».proof.Proof.Reads
import proofs.«101444_j62766652064051_2_alg».proof.Proof.Math
import Idealize.ShloMosaic.Lib.IdealHost

noncomputable section

namespace Cert.Edges

open Idealize.ShloMosaic Idealize.ShloMosaic.ValueIdx Cert.ReferenceIdeal Cert.ReferenceIdeal.Facts₀ Cert.RefValue
open scoped BigOperators

variable [Cert.ReferenceIdeal.Facts]

/-- A word read signed and clamped into the node range, as a gather reads a row number. -/
def node (w : BitVec 32) : Fin 100000 := ⟨min w.toInt.toNat (100000 - 1), by omega⟩

/-- The target words as a column of scatter indices. -/
def colB (ei : IVec S2x1600000 32) : IVec S1700000x1 32 :=
  broadcastInDim S1700000x1 ![0] bcast_S1700000_S1700000x1_0 (col ei)

/-- Edge `e`'s target word, read signed. -/
def colI (ei : IVec S2x1600000 32) (e : Fin 1700000) : Int := (colB ei (ix2 e (0 : Fin 1))).toInt

/-- Edge `e`'s source node. -/
def ρ (ei : IVec S2x1600000 32) (e : Fin 1700000) : Fin 100000 := node (rowWB ei (ix2 e (0 : Fin 1)))

/-- Edge `e`'s target node. -/
def κ (ei : IVec S2x1600000 32) (e : Fin 1700000) : Fin 100000 := node (colWB ei (ix2 e (0 : Fin 1)))

/-- A word that reads signed as a natural number is not below zero. -/
theorem cmpi_slt_zero_of_toInt (w : BitVec 32) (k : Nat) (h : w.toInt = (k : Int)) : IntOp.cmpi .slt w 0#32 = 0#1 := by
  have e : w.slt 0#32 = false := by
    rw [BitVec.slt_eq_decide, h]
    exact decide_eq_false (by rw [show (0#32 : BitVec 32).toInt = 0 from rfl]; omega)
  show BitVec.ofBool (w.slt 0#32) = 0#1
  rw [e]; rfl

/-- Wrapping leaves a word that reads as a natural number alone. -/
theorem wrap_of_nat (v : IVec S1700000 32) (e : Fin 1700000) (k : Nat) (h : (v (ix1 e)).toInt = (k : Int)) :
    wrap v (ix1 e) = v (ix1 e) := by
  have hc : IntOp.cmpi .slt (v (ix1 e)) 0#32 = 0#1 := cmpi_slt_zero_of_toInt _ k h
  show Scalar.select (IntOp.cmpi .slt (v (ix1 e))
      (broadcastInDim S1700000 ![] bcast_S_S1700000 (constantI S_ 32 0#32) (ix1 e))) _ _ = _
  rw [broadcastInDim_scalar_apply]
  show Scalar.select (IntOp.cmpi .slt (v (ix1 e)) 0#32) _ _ = _
  rw [hc]; exact select_zero _ _

/-- An edge whose target word reads as node `n` has target node `n`. -/
theorem kappa_of_col (ei : IVec S2x1600000 32) (e : Fin 1700000) (n : Fin 100000) (h : colI ei e = (n.val : Int)) :
    κ ei e = n := by
  have hc : (col ei (ix1 e)).toInt = (n.val : Int) := by
    have := h; unfold colI colB at this
    rwa [Cert.Reads.bcast_a_a1] at this
  unfold κ colWB colW
  rw [Cert.Reads.bcast_a_a1, wrap_of_nat (col ei) e n.val hc]
  apply Fin.ext
  show min (col ei (ix1 e)).toInt.toNat (100000 - 1) = n.val
  rw [hc, Int.toNat_natCast]
  have := n.isLt
  omega

end Cert.Edges

end
-- ==== Proof.Ops.lean ====
/-
  Elementwise host operations over the extended reals, read at an index (each is its scalar operation on the entries).
-/
import Idealize.ShloMosaic.PureOps.Ideal
import Idealize.ShloMosaic.PureOps.Ideal.Laws
import Idealize.ShloMosaic.Lib.ValueIdx
import Idealize.ShloMosaic.Lib.IdealHost

noncomputable section

namespace Cert.Ops

open Idealize.ShloMosaic Idealize.ShloMosaic.ValueIdx

variable {s : Shape}

/-- The host's reciprocal square root, entry by entry. -/
theorem hostRsqrt_apply (a : FVec Ideal s .f32) (i : s.Idx) : Host.rsqrt (F := Ideal) a i = Ideal.rsqrt (a i) := rfl

/-- The host's square root, entry by entry. -/
theorem hostSqrt_apply (a : FVec Ideal s .f32) (i : s.Idx) : Host.sqrt (F := Ideal) a i = Ideal.sqrt (a i) := rfl

/-- A comparison, entry by entry. -/
theorem cmpf_ogt_apply (a b : FVec Ideal s .f32) (i : s.Idx) :
    cmpf (F := Ideal) .ogt a b i = Ideal.cmp .ogt (a i) (b i) := rfl

/-- A constant array holds the real its pattern denotes. -/
theorem const_apply (b : BitVec 32) (i : s.Idx) : constant (F := Ideal) s .f32 b i = Ideal.ofBits .f32 b := rfl

/-- The zero constant. -/
theorem const_zero_apply (i : s.Idx) : constant (F := Ideal) s .f32 0x00000000#32 i = 0 := Ideal.ofBits_zero_f32

/-- A signed integer made a float is the integer. -/
theorem sitofp_f32_apply (a : IVec s 32) (i : s.Idx) :
    sitofp (F := Ideal) .f32 a i = (((a i).toInt : ℝ) : EReal) := rfl

end Cert.Ops

end
-- ==== Proof.LibGatherRows.lean ====
/-
  A gather of whole rows, read at an index.

  Taking rows of a matrix `x : [N, D]` at an integer column of row numbers `idx : [R, 1]` is a gather that collapses the
  row axis, keeps the column axis as its one offset axis (slices of one row, `D` wide) and reads each start index off
  `idx`'s second axis. Its element `(r, d)` is `x` at row `idx[r, 0]` — read as a signed integer and clamped into
  `[0, N − 1]`, as every start index of a gather is — and column `d`.
-/
import Idealize.ShloMosaic.PureOps
import Idealize.ShloMosaic.Lib.ValueIdx

namespace Cert.Lib.GatherRows

open Idealize.ShloMosaic Idealize.ShloMosaic.ValueIdx

variable {α : Type}

/-- The dimension numbers of that gather for an operand `[N, D]`, start indices `[R, 1]` and a result `[R, D]`. -/
abbrev rowsDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Where result index `(r, d)` reads its row number: `[r, 0]`. -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, d)`: the operand at the row `idx[r, 0]`, read signed and clamped into `[0, N − 1]`, and
    column `d`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N R D wf) x idx y
      = x (ix2 (⟨min (idx (rowsIdx y)).toInt.toNat (N - 1), by omega⟩ : Fin N) (⟨(y 1).val, idx2_lt1 y⟩ : Fin D)) := by
  unfold Host.gather
  congr 1
  funext a
  refine Fin.ext ?_
  show (rowsDims N R D wf).start y idx a + (rowsDims N R D wf).batchCoord y a + (rowsDims N R D wf).offCoord y a = _
  rw [GatherDims.batchCoord_eq_zero _ _ _ List.not_mem_nil, Nat.add_zero]
  -- the row axis: collapsed (no offset), its start the clamped row number
  have row : (rowsDims N R D wf).start y idx (0 : Fin 2) + (rowsDims N R D wf).offCoord y (0 : Fin 2)
      = min (idx (rowsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N R D wf).startIndexMap from List.mem_singleton.mpr rfl)]
    have hsi : (rowsDims N R D wf).siIdx y ⟨List.idxOf (0 : Fin 2) (rowsDims N R D wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  -- the column axis: not in the start index map (start 0), the result's offset axis
  have col : (rowsDims N R D wf).start y idx (1 : Fin 2) + (rowsDims N R D wf).offCoord y (1 : Fin 2) = (y 1).val := by
    have h1 : (1 : Fin 2) ∉ ([0] : List (Fin 2)) := by decide
    have hk : (1 : Fin 2) ∈ (rowsDims N R D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows
-- ==== Proof.LibGatherVec.lean ====
/-
  A gather of single elements of a vector, read at an index.

  Taking elements of a vector `x : [N]` at an integer column of positions `idx : [R, 1]` is a gather that collapses the
  operand's one axis (slices of one element), has no offset axis, and reads each start index off `idx`'s second axis.
  Its element `e` is `x` at the position `idx[e, 0]` — read as a signed integer and clamped into `[0, N − 1]`, as every
  start index of a gather is.
-/
import Idealize.ShloMosaic.PureOps
import Idealize.ShloMosaic.Lib.ValueIdx

namespace Cert.Lib.GatherVec

open Idealize.ShloMosaic Idealize.ShloMosaic.ValueIdx

variable {α : Type}

/-- The dimension numbers of that gather for an operand `[N]`, start indices `[R, 1]` and a result `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `e`: the operand at the position `idx[e, 0]`, read signed and clamped into `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N R wf).start (ix1 e) idx 0 + (vecDims N R wf).batchCoord (ix1 e) 0 + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.GatherVec
-- ==== Proof.GatherNode.lean ====
/-
  The two gathers of the programs — rows of a 100000-row matrix, entries of a 100000-entry vector, at a column of
  1700000 row numbers — read at an index through `Edges.node`: the row number read signed and clamped into the node range.
-/
import proofs.«101444_j62766652064051_2_alg».proof.Proof.Edges
import proofs.«101444_j62766652064051_2_alg».proof.Proof.LibGatherRows
import proofs.«101444_j62766652064051_2_alg».proof.Proof.LibGatherVec

noncomputable section

namespace Cert.GatherNode

open Idealize.ShloMosaic Idealize.ShloMosaic.ValueIdx

variable {α : Type}

/-- A gathered row's entry `(e, c)` is the operand's entry `c` of the row whose number edge `e` holds. -/
theorem gather_rows_node {D : Nat}
    (wf : GatherDims.WF ⟨2, ![100000, D]⟩ ⟨2, ![1700000, 1]⟩ ⟨2, ![1700000, D]⟩ [1] [0] [] [0] [] 1 ![1, D])
    (x : (⟨2, ![100000, D]⟩ : Shape).Idx → α) (idx : IVec ⟨2, ![1700000, 1]⟩ 32) (e : Fin 1700000) (c : Fin D) :
    Host.gather (Cert.Lib.GatherRows.rowsDims 100000 1700000 D wf) x idx (ix2 e c)
      = x (ix2 (Cert.Edges.node (idx (ix2 e (0 : Fin 1)))) c) := by
  rw [Cert.Lib.GatherRows.gather_rows_apply (by norm_num)]
  have h : Cert.Lib.GatherRows.rowsIdx (ix2 e c) = ix2 e (0 : Fin 1) :=
    funext fun a => by
      match a with
      | ⟨0, _⟩ => rfl
      | ⟨1, _⟩ => rfl
  refine congrArg x (funext fun d => Fin.ext ?_)
  match d with
  | ⟨0, _⟩ =>
    show min (idx (Cert.Lib.GatherRows.rowsIdx (ix2 e c))).toInt.toNat (100000 - 1) = min (idx (ix2 e (0 : Fin 1))).toInt.toNat (100000 - 1)
    rw [h]
  | ⟨1, _⟩ => rfl

/-- A gathered entry `e` is the operand's entry at the position edge `e` holds. -/
theorem gather_vec_node (wf : GatherDims.WF ⟨1, ![100000]⟩ ⟨2, ![1700000, 1]⟩ ⟨1, ![1700000]⟩ [] [0] [] [0] [] 1 ![1])
    (x : (⟨1, ![100000]⟩ : Shape).Idx → α) (idx : IVec ⟨2, ![1700000, 1]⟩ 32) (e : Fin 1700000) :
    Host.gather (Cert.Lib.GatherVec.vecDims 100000 1700000 wf) x idx (ix1 e)
      = x (ix1 (Cert.Edges.node (idx (ix2 e (0 : Fin 1))))) :=
  Cert.Lib.GatherVec.gather_vec_apply (by norm_num) wf x idx e

end Cert.GatherNode

end
-- ==== Proof.Spec.lean ====
/-
  The layer both programs compute, as mathematics over the extended reals, and why the two arrangements agree.

  Nodes `n < 100000`, features `c < 128`, edges (with the self-loops) `e < 1700000`. Edge `e` has a target read as a
  signed integer `colI e` (an edge whose target is no node is dropped), a source node `ρ e` and, when its target is a
  node, that node `κ e`. Every node has a scale factor `dis n`.

  * `H`: the node features times the weight matrix.
  * The kernel scales each source row by `dis` BEFORE summing over the edges into a node and scales the sum by the
    node's `dis` AFTER (`aggK`, `rK`); the reference multiplies each edge's message by `dis[source] · dis[target]`
    and then sums (`aggR`, `rR`). Every edge summed into node `n` has target `n`, so the second factor is the common
    real `dis n` and comes out of the sum: `r_eq` (finite entries: the distributive law needs real numbers).
  * The batch statistics per feature: the mean, and the variance as the kernel takes it (mean of squares minus squared
    mean, cut off below at zero: `varK`) and as the reference takes it (mean of squared deviations: `varR`); they agree
    on real entries: `var_eq`.
  * `out`: standardise with the mean and the variance (plus a small constant, reciprocal square root), scale by gamma,
    shift by beta, and divide each row by its Euclidean length (at least a small constant).
-/
import proofs.«101444_j62766652064051_2_alg».proof.Proof.Math
import proofs.«101444_j62766652064051_2_alg».proof.Proof.KSpec

noncomputable section

namespace Cert.Spec

open Idealize.ShloMosaic Idealize.ShloMosaic.ValueIdx Cert.KSpec
open scoped BigOperators

/-- A vector of extended reals. -/
abbrev Arr1 (a : Nat) : Type := (⟨1, ![a]⟩ : Shape).Idx → EReal

section Aggregation
variable (x : Arr2 100000 128) (w : Arr2 128 128) (bias : Arr1 128) (dis : Arr1 100000)
  (colI : Fin 1700000 → Int) (ρ κ : Fin 1700000 → Fin 100000)

/-- The node features times the weight matrix. -/
def H (n : Fin 100000) (c : Fin 128) : EReal := ∑ k : Fin 128, x (ix2 n k) * w (ix2 k c)

/-- The kernel's aggregate: the pre-scaled source rows summed into their target nodes. -/
def aggK (n : Fin 100000) (c : Fin 128) : EReal :=
  ∑ e : Fin 1700000, if colI e = (n.val : Int) then H x w (ρ e) c * dis (ix1 (ρ e)) else 0

/-- The kernel's rectified value: the aggregate post-scaled by the node's factor, plus the bias. -/
def rK (n : Fin 100000) (c : Fin 128) : EReal := max (aggK x w dis colI ρ n c * dis (ix1 n) + bias (ix1 c)) 0

/-- The reference's aggregate: each message weighted by both scale factors, then summed. -/
def aggR (n : Fin 100000) (c : Fin 128) : EReal :=
  ∑ e : Fin 1700000, if colI e = (n.val : Int) then H x w (ρ e) c * (dis (ix1 (ρ e)) * dis (ix1 (κ e))) else 0

/-- The reference's rectified value. -/
def rR (n : Fin 100000) (c : Fin 128) : EReal := max (aggR x w dis colI ρ κ n c + bias (ix1 c)) 0

variable {x w bias dis colI ρ κ}

/-- The product of two real matrices has real entries. -/
theorem H_real (hx : ∀ i, ∃ r : ℝ, x i = (r : EReal)) (hw : ∀ i, ∃ r : ℝ, w i = (r : EReal)) (n : Fin 100000) (c : Fin 128) :
    ∃ q : ℝ, H x w n c = (q : EReal) := by
  choose xr hxr using hx
  choose wr hwr using hw
  exact ⟨∑ k : Fin 128, xr (ix2 n k) * wr (ix2 k c),
    Cert.Math.sum_real _ _ _ fun k _ => by rw [hxr, hwr, ← EReal.coe_mul]⟩

/-- With real entries, post-scaling the kernel's aggregate gives the reference's aggregate, and both are real. -/
theorem agg_eq (hx : ∀ i, ∃ r : ℝ, x i = (r : EReal)) (hw : ∀ i, ∃ r : ℝ, w i = (r : EReal))
    (hd : ∀ i, ∃ r : ℝ, dis i = (r : EReal)) (hκ : ∀ e (n : Fin 100000), colI e = (n.val : Int) → κ e = n)
    (n : Fin 100000) (c : Fin 128) :
    aggK x w dis colI ρ n c * dis (ix1 n) = aggR x w dis colI ρ κ n c
      ∧ ∃ q : ℝ, aggR x w dis colI ρ κ n c = (q : EReal) := by
  choose hr hhr using H_real hx hw
  choose dr hdr using hd
  have e1 : aggR x w dis colI ρ κ n c
      = (∑ e : Fin 1700000, if colI e = (n.val : Int) then ((hr (ρ e) c : ℝ) : EReal) * ((dr (ix1 (ρ e)) : ℝ) : EReal) else 0)
        * ((dr (ix1 n) : ℝ) : EReal) := by
    rw [← Cert.Math.masked_sum_factor (fun e => colI e = (n.val : Int)) (fun e => hr (ρ e) c) (fun e => dr (ix1 (ρ e)))
      (fun e => dis (ix1 (κ e))) (dr (ix1 n)) (fun e he => by rw [hκ e n he, hdr])]
    exact Finset.sum_congr rfl fun e _ => by rw [hhr, hdr]
  have e2 : aggK x w dis colI ρ n c
      = ∑ e : Fin 1700000, if colI e = (n.val : Int) then ((hr (ρ e) c : ℝ) : EReal) * ((dr (ix1 (ρ e)) : ℝ) : EReal) else 0 :=
    Finset.sum_congr rfl fun e _ => by rw [hhr, hdr]
  refine ⟨by rw [e1, e2, hdr], ?_⟩
  rw [e1]
  have e3 : (∑ e : Fin 1700000, if colI e = (n.val : Int) then ((hr (ρ e) c : ℝ) : EReal) * ((dr (ix1 (ρ e)) : ℝ) : EReal) else 0)
      = ((∑ e : Fin 1700000, if colI e = (n.val : Int) then hr (ρ e) c * dr (ix1 (ρ e)) else 0 : ℝ) : EReal) :=
    Cert.Math.sum_real _ _ _ fun e _ => by
      by_cases h : colI e = (n.val : Int)
      · rw [if_pos h, if_pos h, EReal.coe_mul]
      · rw [if_neg h, if_neg h, EReal.coe_zero]
  rw [e3, ← EReal.coe_mul]
  exact ⟨_, rfl⟩

/-- With real entries the two rectified values agree … -/
theorem r_eq (hx : ∀ i, ∃ r : ℝ, x i = (r : EReal)) (hw : ∀ i, ∃ r : ℝ, w i = (r : EReal))
    (hd : ∀ i, ∃ r : ℝ, dis i = (r : EReal)) (hκ : ∀ e (n : Fin 100000), colI e = (n.val : Int) → κ e = n)
    (n : Fin 100000) (c : Fin 128) : rK x w bias dis colI ρ n c = rR x w bias dis colI ρ κ n c := by
  unfold rK rR
  rw [(agg_eq hx hw hd hκ n c).1]

/-- … and are real. -/
theorem rR_real (hx : ∀ i, ∃ r : ℝ, x i = (r : EReal)) (hw : ∀ i, ∃ r : ℝ, w i = (r : EReal))
    (hb : ∀ i, ∃ r : ℝ, bias i = (r : EReal))
    (hd : ∀ i, ∃ r : ℝ, dis i = (r : EReal)) (hκ : ∀ e (n : Fin 100000), colI e = (n.val : Int) → κ e = n)
    (n : Fin 100000) (c : Fin 128) : ∃ q : ℝ, rR x w bias dis colI ρ κ n c = (q : EReal) := by
  obtain ⟨q, hq⟩ := (agg_eq (ρ := ρ) hx hw hd hκ n c).2
  obtain ⟨b, hb'⟩ := hb (ix1 c)
  unfold rR
  rw [hq, hb', ← EReal.coe_add, Cert.Math.max_coe_zero]
  exact ⟨_, rfl⟩

end Aggregation

section Statistics
variable (r : Fin 100000 → Fin 128 → EReal)

/-- The batch mean of a feature. -/
def mean (c : Fin 128) : EReal := Ideal.div (∑ n : Fin 100000, r n c) ((100000 : ℝ) : EReal)

/-- The batch variance as the kernel takes it. -/
def varK (c : Fin 128) : EReal :=
  max (Ideal.div (∑ n : Fin 100000, r n c * r n c) ((100000 : ℝ) : EReal) - mean r c * mean r c) 0

/-- The batch variance as the reference takes it. -/
def varR (c : Fin 128) : EReal :=
  Ideal.div (∑ n : Fin 100000, (r n c - mean r c) * (r n c - mean r c)) ((100000 : ℝ) : EReal)

/-- On real entries the two variances agree. -/
theorem var_eq (hr : ∀ n c, ∃ q : ℝ, r n c = (q : EReal)) (c : Fin 128) : varK r c = varR r c := by
  choose q hq using hr
  have h := Cert.Math.variance_forms 100000 (by norm_num) (fun n => q n c)
  rw [show ((100000 : ℕ) : ℝ) = (100000 : ℝ) from by norm_num] at h
  unfold varK varR mean
  simp only [hq]
  exact h

variable (m v : Fin 128 → EReal) (gamma beta : Arr1 128)

/-- The standardised value. -/
def bn (n : Fin 100000) (c : Fin 128) : EReal :=
  (r n c - m c) * Ideal.rsqrt (v c + Ideal.ofBits .f32 0x3727C5AC#32) * gamma (ix1 c) + beta (ix1 c)

/-- The standardised row divided by its length (at least the small constant). -/
def out (n : Fin 100000) (c : Fin 128) : EReal :=
  Ideal.div (bn r m v gamma beta n c)
    (max (Ideal.sqrt (∑ c' : Fin 128, bn r m v gamma beta n c' * bn r m v gamma beta n c'))
      (Ideal.ofBits .f32 0x2B8CBCCC#32))

end Statistics

end Cert.Spec

end
-- ==== Proof.KRead.lean ====
/-
  The kernel program's stages read at an index: its result is the layer of Spec.lean in the kernel's arrangement
  (`Spec.rK`, `Spec.varK`).
-/
import proofs.«101444_j62766652064051_2_alg».proof.Proof.KDefs
import proofs.«101444_j62766652064051_2_alg».proof.Proof.Edges
import proofs.«101444_j62766652064051_2_alg».proof.Proof.Ops
import proofs.«101444_j62766652064051_2_alg».proof.Proof.GatherNode
import proofs.«101444_j62766652064051_2_alg».proof.Proof.LibColumns
import proofs.«101444_j62766652064051_2_alg».proof.Proof.Spec
import Idealize.ShloMosaic.Lib.ValueLayout

noncomputable section

namespace Cert.KRead

open Idealize.ShloMosaic Idealize.ShloMosaic.ValueIdx Cert.KernelIdeal Cert.KernelIdeal.Gen Cert.KValue Cert.Ops
open scoped BigOperators

/-- Edge `e`'s target word, read signed. -/
def colI (ei : IVec S2x1600000 32) (e : Fin 1700000) : Int := (colB ei (ix2 e (0 : Fin 1))).toInt

/-- Edge `e`'s source node. -/
def ρ (ei : IVec S2x1600000 32) (e : Fin 1700000) : Fin 100000 := Cert.Edges.node (rowWB ei (ix2 e (0 : Fin 1)))

/-- A feature vector made a row reads its entry `c` at `(0, c)`. -/
theorem row2_apply (v : FVec Ideal S128 .f32) (c : Fin 128) : row2 v (ix2 (0 : Fin 1) c) = v (ix1 c) :=
  shapeCast_a_1a_apply v _ 0 c

/-- The scale factors made a column read node `n`'s at `(n, 0)`. -/
theorem dis2_apply (ei : IVec S2x1600000 32) (n : Fin 100000) : dis2 ei (ix2 n (0 : Fin 1)) = dis ei (ix1 n) :=
  Cert.Columns.shapeCast_a_a1_apply (dis ei) _ n 0

/-- The first kernel's result at `(n, c)`. -/
theorem hs_apply (x : FVec Ideal S100000x128 .f32) (w : FVec Ideal S128x128 .f32) (ei : IVec S2x1600000 32)
    (n : Fin 100000) (c : Fin 128) : hs x w ei (ix2 n c) = Cert.Spec.H x w n c * dis ei (ix1 n) := by
  show Cert.KSpec.g0 x w (dis2 ei) n c = _
  unfold Cert.KSpec.g0 Cert.Spec.H
  rw [dis2_apply]

/-- The messages are the gathered rows. -/
theorem msgs_eq (x : FVec Ideal S100000x128 .f32) (w : FVec Ideal S128x128 .f32) (ei : IVec S2x1600000 32) :
    msgs x w ei = Host.gather (Cert.Lib.GatherRows.rowsDims 100000 1700000 128
      gather_S100000x128_S1700000x1_S1700000x128_1_0_n_n_0_1_1128_wf) (hs x w ei) (rowWB ei) := rfl

/-- Edge `e`'s message: its source's product row, scaled by the source's factor. -/
theorem msgs_apply (x : FVec Ideal S100000x128 .f32) (w : FVec Ideal S128x128 .f32) (ei : IVec S2x1600000 32)
    (e : Fin 1700000) (c : Fin 128) :
    msgs x w ei (ix2 e c) = Cert.Spec.H x w (ρ ei e) c * dis ei (ix1 (ρ ei e)) := by
  unfold ρ
  rw [msgs_eq, Cert.GatherNode.gather_rows_node, hs_apply]

/-- The aggregate is the scatter-add of the messages. -/
theorem agg0_eq (x : FVec Ideal S100000x128 .f32) (w : FVec Ideal S128x128 .f32) (ei : IVec S2x1600000 32) :
    agg0 x w ei = Ideal.hostScatterAdd (Cert.Lib.ScatterRows.rowsDims 100000 1700000 128
      scatter_S100000x128_S1700000x1_S1700000x128_1_0_0_1_wf)
      (broadcastInDim S100000x128 ![] bcast_S_S100000x128 (constant (F := Ideal) S_ .f32 0x00000000#32)) (colB ei)
      (msgs x w ei) := rfl

/-- The aggregate. -/
theorem agg0_apply (x : FVec Ideal S100000x128 .f32) (w : FVec Ideal S128x128 .f32) (ei : IVec S2x1600000 32)
    (n : Fin 100000) (c : Fin 128) :
    agg0 x w ei (ix2 n c) = Cert.Spec.aggK x w (dis ei) (colI ei) (ρ ei) n c := by
  rw [agg0_eq, Cert.Lib.ScatterRows.scatterAdd_rows_apply, broadcastInDim_scalar_apply, const_zero_apply, zero_add]
  unfold Cert.Spec.aggK
  exact Finset.sum_congr rfl fun e _ => if_congr Iff.rfl (msgs_apply x w ei e c) rfl

section Stats
variable (x : FVec Ideal S100000x128 .f32) (w : FVec Ideal S128x128 .f32) (bias gamma beta : FVec Ideal S128 .f32)
  (ei : IVec S2x1600000 32)

/-- The rectified value. -/
theorem relu_apply (n : Fin 100000) (c : Fin 128) :
    Cert.KSpec.relu (agg0 x w ei) (dis2 ei) (bias2 bias) n c = Cert.Spec.rK x w bias (dis ei) (colI ei) (ρ ei) n c := by
  unfold Cert.KSpec.relu Cert.Spec.rK bias2
  rw [agg0_apply, dis2_apply, row2_apply]

/-- The rectified values as a function of the node and the feature. -/
def R (n : Fin 100000) (c : Fin 128) : EReal := Cert.KSpec.relu (agg0 x w ei) (dis2 ei) (bias2 bias) n c

/-- The per-tile sums at `(t, k, c)`. -/
theorem sumP_apply (t : Fin 20) (k : Fin 1) (c : Fin 128) :
    sumP x w bias ei (ix3 t k c) = ∑ p : Fin 5000, R x w bias ei (Cert.KSpec.rowOf t p) c := rfl

/-- The per-tile sums of squares at `(t, k, c)`. -/
theorem sumsqP_apply (t : Fin 20) (k : Fin 1) (c : Fin 128) :
    sumsqP x w bias ei (ix3 t k c)
      = ∑ p : Fin 5000, R x w bias ei (Cert.KSpec.rowOf t p) c * R x w bias ei (Cert.KSpec.rowOf t p) c := rfl

/-- Summing over the tiles. -/
theorem sumTiles_eq (p : FVec Ideal S20x1x128 .f32) (c : Fin 128) :
    sumTiles p (ix1 c) = ∑ t : Fin 20, ∑ k : Fin 1, p (ix3 t k c) := by
  unfold sumTiles
  rw [hostReduceAdd_apply, Cert.Reads.hostReduceAdd_first_two, const_zero_apply, zero_add]

/-- Per-tile sums summed over the tiles: the sum over all nodes. -/
theorem sumTiles_S1 (c : Fin 128) : sumTiles (sumP x w bias ei) (ix1 c) = ∑ n : Fin 100000, R x w bias ei n c := by
  rw [sumTiles_eq, Cert.Reads.sum_nodes_tiles]
  refine Finset.sum_congr rfl fun t _ => ?_
  rw [Fintype.sum_unique, sumP_apply]

/-- The same for the squares. -/
theorem sumTiles_S2 (c : Fin 128) :
    sumTiles (sumsqP x w bias ei) (ix1 c) = ∑ n : Fin 100000, R x w bias ei n c * R x w bias ei n c := by
  rw [sumTiles_eq, Cert.Reads.sum_nodes_tiles (fun n => R x w bias ei n c * R x w bias ei n c)]
  refine Finset.sum_congr rfl fun t _ => ?_
  rw [Fintype.sum_unique, sumsqP_apply]

/-- The node count. -/
theorem nodes_apply (c : Fin 128) : nodes (ix1 c) = ((100000 : ℝ) : EReal) := by
  unfold nodes
  rw [broadcastInDim_scalar_apply, const_apply]
  exact Cert.Math.ofBits_1e5

/-- A mean of per-tile sums. -/
theorem meanOf_apply (p : FVec Ideal S20x1x128 .f32) (c : Fin 128) :
    meanOf p (ix1 c) = Ideal.div (sumTiles p (ix1 c)) ((100000 : ℝ) : EReal) := by
  unfold meanOf
  rw [hostDivf_apply, nodes_apply]

/-- The mean. -/
theorem mean_apply (c : Fin 128) : mean x w bias ei (ix1 c) = Cert.Spec.mean (R x w bias ei) c := by
  unfold mean Cert.Spec.mean
  rw [meanOf_apply, sumTiles_S1]

/-- The variance. -/
theorem var_apply (c : Fin 128) : var x w bias ei (ix1 c) = Cert.Spec.varK (R x w bias ei) c := by
  unfold var varOf Cert.Spec.varK Cert.Spec.mean
  rw [maximumf_apply, subf_apply, mulf_apply, broadcastInDim_scalar_apply, const_zero_apply, meanOf_apply, meanOf_apply,
    sumTiles_S1, sumTiles_S2]

/-- The inverse standard deviation. -/
theorem istd_apply (c : Fin 128) :
    istd x w bias ei (ix1 c) = Ideal.rsqrt (Cert.Spec.varK (R x w bias ei) c + Ideal.ofBits .f32 0x3727C5AC#32) := by
  have hv := var_apply x w bias ei c
  unfold var at hv
  unfold istd istdOf
  rw [hostRsqrt_apply, addf_apply, hv, broadcastInDim_scalar_apply, const_apply]

/-- The standardised value. -/
theorem bn_apply (n : Fin 100000) (c : Fin 128) :
    Cert.KSpec.bn (agg0 x w ei) (dis2 ei) (bias2 bias) (mean2 x w bias ei) (istd2 x w bias ei) (gamma2 gamma) (beta2 beta) n c
      = Cert.Spec.bn (R x w bias ei) (Cert.Spec.mean (R x w bias ei)) (Cert.Spec.varK (R x w bias ei)) gamma beta n c := by
  unfold Cert.KSpec.bn Cert.Spec.bn mean2 istd2 gamma2 beta2
  rw [row2_apply, row2_apply, row2_apply, row2_apply, mean_apply, istd_apply]
  rfl

/-- The result. -/
theorem out_apply (n : Fin 100000) (c : Fin 128) :
    out x w bias gamma beta ei (ix2 n c)
      = Cert.Spec.out (R x w bias ei) (Cert.Spec.mean (R x w bias ei)) (Cert.Spec.varK (R x w bias ei)) gamma beta n c := by
  show Cert.KSpec.g2 (agg0 x w ei) (dis2 ei) (bias2 bias) (mean2 x w bias ei) (istd2 x w bias ei) (gamma2 gamma) (beta2 beta) n c = _
  unfold Cert.KSpec.g2 Cert.Spec.out
  simp only [bn_apply]

end Stats

end Cert.KRead

end
-- ==== Proof.RRead.lean ====
/-
  The reference program's stages read at an index: its result is the layer of Spec.lean in the reference's arrangement
  (`Spec.rR`, `Spec.varR`).
-/
import proofs.«101444_j62766652064051_2_alg».proof.Proof.Edges
import proofs.«101444_j62766652064051_2_alg».proof.Proof.Ops
import proofs.«101444_j62766652064051_2_alg».proof.Proof.GatherNode
import proofs.«101444_j62766652064051_2_alg».proof.Proof.Gen.ReferenceIdeal
import proofs.«101444_j62766652064051_2_alg».proof.Proof.LibDotRows
import proofs.«101444_j62766652064051_2_alg».proof.Proof.Spec

noncomputable section

namespace Cert.RRead

open Idealize.ShloMosaic Idealize.ShloMosaic.ValueIdx Cert.ReferenceIdeal Cert.ReferenceIdeal.Facts₀ Cert.RefValue Cert.Edges
  Cert.Ops
open scoped BigOperators

/-- The float zero. -/
theorem zeroS_apply (j : S_.Idx) : zeroS j = 0 := Ideal.ofBits_zero_f32

/-- The node count. -/
theorem countS_apply (j : S_.Idx) : countS j = ((100000 : ℝ) : EReal) := Cert.Math.ofBits_1e5

/-- A feature vector repeated down the rows reads its entry `c` at `(n, c)`. -/
theorem rows_apply (v : FVec Ideal S128 .f32) (n : Fin 100000) (c : Fin 128) : rows v (ix2 n c) = v (ix1 c) := by
  unfold rows
  rw [Cert.Reads.bcast_1b_ab, Cert.Reads.bcast_b_1b]

/-- The product of the features and the weights at `(p, q)`. -/
theorem h_apply (l : FVec Ideal S100000x128 .f32) (r : FVec Ideal S128x128 .f32) (p : Fin 100000) (q : Fin 128) :
    h l r (ix2 p q) = Cert.Spec.H l r p q := by
  unfold h Cert.Spec.H
  refine (Ideal.dotGeneral_apply _ _ _ l r (ix2 p q)).trans ?_
  dot_rows dot_S100000x128_S128x128_S100000x128_1_0_0_1_n_n S100000x128 S128x128 128

theorem disRow_eq (ei : IVec S2x1600000 32) :
    disRow ei = Host.gather (Cert.Lib.GatherVec.vecDims 100000 1700000 gather_S100000_S1700000x1_S1700000_n_0_n_n_0_1_1_wf)
      (dis ei) (rowWB ei) := rfl

theorem disCol_eq (ei : IVec S2x1600000 32) :
    disCol ei = Host.gather (Cert.Lib.GatherVec.vecDims 100000 1700000 gather_S100000_S1700000x1_S1700000_n_0_n_n_0_1_1_wf)
      (dis ei) (colWB ei) := rfl

/-- Edge `e`'s factor of its source. -/
theorem disRow_apply (ei : IVec S2x1600000 32) (e : Fin 1700000) : disRow ei (ix1 e) = dis ei (ix1 (ρ ei e)) := by
  unfold ρ
  rw [disRow_eq, Cert.GatherNode.gather_vec_node]

/-- Edge `e`'s factor of its target. -/
theorem disCol_apply (ei : IVec S2x1600000 32) (e : Fin 1700000) : disCol ei (ix1 e) = dis ei (ix1 (κ ei e)) := by
  unfold κ
  rw [disCol_eq, Cert.GatherNode.gather_vec_node]

theorem hRows_eq (x : FVec Ideal S100000x128 .f32) (w : FVec Ideal S128x128 .f32) (ei : IVec S2x1600000 32) :
    hRows x w ei = Host.gather (Cert.Lib.GatherRows.rowsDims 100000 1700000 128
      gather_S100000x128_S1700000x1_S1700000x128_1_0_n_n_0_1_1128_wf) (h x w) (rowWB ei) := rfl

/-- Edge `e`'s product row. -/
theorem hRows_apply (x : FVec Ideal S100000x128 .f32) (w : FVec Ideal S128x128 .f32) (ei : IVec S2x1600000 32)
    (e : Fin 1700000) (c : Fin 128) : hRows x w ei (ix2 e c) = Cert.Spec.H x w (ρ ei e) c := by
  unfold ρ
  rw [hRows_eq, Cert.GatherNode.gather_rows_node, h_apply]

/-- Edge `e`'s message. -/
theorem msgs_apply (x : FVec Ideal S100000x128 .f32) (w : FVec Ideal S128x128 .f32) (ei : IVec S2x1600000 32)
    (e : Fin 1700000) (c : Fin 128) :
    msgs x w ei (ix2 e c) = Cert.Spec.H x w (ρ ei e) c * (dis ei (ix1 (ρ ei e)) * dis ei (ix1 (κ ei e))) := by
  unfold msgs RefValue.norm
  rw [mulf_apply, hRows_apply, Cert.Reads.bcast_a1_ab, Cert.Reads.bcast_a_a1, mulf_apply, disRow_apply, disCol_apply]

theorem agg_eq (x : FVec Ideal S100000x128 .f32) (w : FVec Ideal S128x128 .f32) (ei : IVec S2x1600000 32) :
    agg x w ei = Ideal.hostScatterAdd (Cert.Lib.ScatterRows.rowsDims 100000 1700000 128
      scatter_S100000x128_S1700000x1_S1700000x128_1_0_0_1_wf)
      (broadcastInDim S100000x128 ![] bcast_S_S100000x128 zeroS) (colB ei) (msgs x w ei) := rfl

/-- The aggregate. -/
theorem agg_apply (x : FVec Ideal S100000x128 .f32) (w : FVec Ideal S128x128 .f32) (ei : IVec S2x1600000 32)
    (n : Fin 100000) (c : Fin 128) :
    agg x w ei (ix2 n c) = Cert.Spec.aggR x w (dis ei) (colI ei) (ρ ei) (κ ei) n c := by
  rw [agg_eq, Cert.Lib.ScatterRows.scatterAdd_rows_apply, broadcastInDim_scalar_apply, zeroS_apply, zero_add]
  unfold Cert.Spec.aggR
  exact Finset.sum_congr rfl fun e _ => if_congr Iff.rfl (msgs_apply x w ei e c) rfl

/-- The rectified value. -/
theorem r_apply (x : FVec Ideal S100000x128 .f32) (w : FVec Ideal S128x128 .f32) (bias : FVec Ideal S128 .f32)
    (ei : IVec S2x1600000 32) (n : Fin 100000) (c : Fin 128) :
    r x w bias ei (ix2 n c) = Cert.Spec.rR x w bias (dis ei) (colI ei) (ρ ei) (κ ei) n c := by
  unfold r pre Cert.Spec.rR
  rw [maximumf_apply, addf_apply, agg_apply, rows_apply, broadcastInDim_scalar_apply, zeroS_apply]

section Stats
variable (x : FVec Ideal S100000x128 .f32) (w : FVec Ideal S128x128 .f32) (bias gamma beta : FVec Ideal S128 .f32)
  (ei : IVec S2x1600000 32)

/-- The rectified values as a function of the node and the feature. -/
def R (n : Fin 100000) (c : Fin 128) : EReal := r x w bias ei (ix2 n c)

theorem R_def (n : Fin 100000) (c : Fin 128) : r x w bias ei (ix2 n c) = R x w bias ei n c := rfl

/-- The sum over the nodes. -/
theorem colsum_apply (y : FVec Ideal S100000x128 .f32) (c : Fin 128) :
    Host.reduceAdd (F := Ideal) y zeroS reducesTo_S100000x128_S128_d0 h_S_ (ix1 c) = ∑ n : Fin 100000, y (ix2 n c) := by
  rw [hostReduceAdd_apply, Cert.Reads.hostReduceAdd_cols reducesTo_S100000x128_S128_d0 (by decide), zeroS_apply, zero_add]

/-- The mean. -/
theorem mean_apply (c : Fin 128) : mean x w bias ei (ix1 c) = Cert.Spec.mean (R x w bias ei) c := by
  unfold mean Cert.Spec.mean
  rw [hostDivf_apply, colsum_apply, broadcastInDim_scalar_apply, countS_apply]
  rfl

/-- The mean as taken again inside the variance. -/
theorem varMean_apply (u : Fin 1) (c : Fin 128) : varMean x w bias ei (ix2 u c) = Cert.Spec.mean (R x w bias ei) c := by
  unfold varMean Cert.Spec.mean
  rw [hostDivf_apply, Cert.Reads.bcast_b_1b, colsum_apply, broadcastInDim_scalar_apply, countS_apply]
  rfl

/-- A constant integer array holds its word. -/
theorem constI_apply {s : Shape} (b : BitVec 32) (i : s.Idx) : constantI s 32 b i = b := rfl

/-- The variance's divisor is the node count. -/
theorem denom_apply (j : S_.Idx) : denom j = ((100000 : ℝ) : EReal) := by
  unfold denom
  rw [subf_apply, countS_apply, sitofp_f32_apply, constI_apply, show (0#32 : BitVec 32).toInt = 0 from rfl]
  simp

/-- It is positive. -/
theorem varOk_apply (j : S_.Idx) : varOk j = 1#1 := by
  unfold varOk
  rw [cmpf_ogt_apply, denom_apply, zeroS_apply]
  have : (0 : EReal) < ((100000 : ℝ) : EReal) := by exact_mod_cast (by norm_num : (0 : ℝ) < 100000)
  simp [Ideal.cmp, this]

/-- The deviations from the mean. -/
theorem centered_apply (n : Fin 100000) (c : Fin 128) :
    centered x w bias ei (ix2 n c) = R x w bias ei n c - Cert.Spec.mean (R x w bias ei) c := by
  unfold centered
  rw [subf_apply, Cert.Reads.bcast_1b_ab, varMean_apply, R_def]

/-- The variance. -/
theorem var_apply (c : Fin 128) : var x w bias ei (ix1 c) = Cert.Spec.varR (R x w bias ei) c := by
  unfold var
  rw [select_apply, broadcastInDim_scalar_apply, varOk_apply, select_one]
  unfold varRaw Cert.Spec.varR RefValue.sq
  rw [hostDivf_apply, colsum_apply, broadcastInDim_scalar_apply, denom_apply]
  refine congrArg (fun s => Ideal.div s ((100000 : ℝ) : EReal)) (Finset.sum_congr rfl fun n _ => ?_)
  rw [mulf_apply, centered_apply]

/-- The inverse standard deviation. -/
theorem istd_apply (c : Fin 128) :
    istd x w bias ei (ix1 c) = Ideal.rsqrt (Cert.Spec.varR (R x w bias ei) c + Ideal.ofBits .f32 0x3727C5AC#32) := by
  unfold istd
  rw [hostRsqrt_apply, addf_apply, var_apply, broadcastInDim_scalar_apply, const_apply]

/-- The standardised value. -/
theorem bnr_apply (n : Fin 100000) (c : Fin 128) :
    bnr x w bias gamma beta ei (ix2 n c)
      = Cert.Spec.bn (R x w bias ei) (Cert.Spec.mean (R x w bias ei)) (Cert.Spec.varR (R x w bias ei)) gamma beta n c := by
  unfold bnr centred Cert.Spec.bn
  rw [addf_apply, mulf_apply, mulf_apply, subf_apply, rows_apply, rows_apply, rows_apply, rows_apply, mean_apply, istd_apply,
    R_def]

/-- The squared length of a row. -/
theorem rowSq_apply (n : Fin 100000) :
    rowSq x w bias gamma beta ei (ix1 n)
      = ∑ c' : Fin 128, Cert.Spec.bn (R x w bias ei) (Cert.Spec.mean (R x w bias ei)) (Cert.Spec.varR (R x w bias ei)) gamma beta n c'
          * Cert.Spec.bn (R x w bias ei) (Cert.Spec.mean (R x w bias ei)) (Cert.Spec.varR (R x w bias ei)) gamma beta n c' := by
  unfold rowSq
  rw [hostReduceAdd_apply, Cert.Reads.hostReduceAdd_rows reducesTo_S100000x128_S100000_d1 (by decide), zeroS_apply, zero_add]
  refine Finset.sum_congr rfl fun c' _ => ?_
  rw [mulf_apply, bnr_apply]

/-- The result. -/
theorem out_apply (n : Fin 100000) (c : Fin 128) :
    out x w bias gamma beta ei (ix2 n c)
      = Cert.Spec.out (R x w bias ei) (Cert.Spec.mean (R x w bias ei)) (Cert.Spec.varR (R x w bias ei)) gamma beta n c := by
  unfold out len Cert.Spec.out
  rw [hostDivf_apply, Cert.Reads.bcast_a1_ab, bnr_apply, maximumf_apply, hostSqrt_apply, Cert.Reads.bcast_a_a1, rowSq_apply,
    broadcastInDim_scalar_apply, const_apply]

end Stats

end Cert.RRead

end
-- ==== Proof.EdgesDis.lean ====
/-
  A node's degree is a count — a sum of ones over the edges summed into it — so it is a real that is not negative, and
  the node's scale factor (its reciprocal square root where positive, zero elsewhere) is a real.
-/
import proofs.«101444_j62766652064051_2_alg».proof.Proof.Edges
import proofs.«101444_j62766652064051_2_alg».proof.Proof.Ops

noncomputable section

namespace Cert.Edges

open Idealize.ShloMosaic Idealize.ShloMosaic.ValueIdx Cert.ReferenceIdeal Cert.ReferenceIdeal.Facts₀ Cert.RefValue Cert.Ops
open scoped BigOperators

variable [Cert.ReferenceIdeal.Facts]

/-- The rank-0 zero array's one entry is zero. -/
theorem zeroS_apply (i : S_.Idx) : zeroS i = 0 := const_zero_apply i

/-- The degrees are the scatter-add of a one per edge into the edge's target. -/
theorem deg_eq (ei : IVec S2x1600000 32) :
    deg ei = Ideal.hostScatterAdd (Cert.Lib.ScatterRows.vecDims 100000 1700000 scatter_S100000_S1700000x1_S1700000_n_0_0_1_wf)
      (broadcastInDim S100000 ![] bcast_S_S100000 zeroS) (colB ei)
      (broadcastInDim S1700000 ![] bcast_S_S1700000 (constant (F := Ideal) S_ .f32 0x3F800000#32)) := rfl

/-- A node's degree is the number of edges summed into it, as a real. -/
theorem deg_apply (ei : IVec S2x1600000 32) (n : Fin 100000) :
    deg ei (ix1 n) = ((∑ e : Fin 1700000, if colI ei e = (n.val : Int) then (1 : ℝ) else 0 : ℝ) : EReal) := by
  rw [deg_eq, Cert.Lib.ScatterRows.scatterAdd_vec_apply, broadcastInDim_scalar_apply, zeroS_apply, zero_add]
  refine Cert.Math.sum_real _ _ _ fun e _ => ?_
  by_cases he : colI ei e = (n.val : Int)
  · rw [if_pos he, if_pos (show (colB ei (ix2 e (0 : Fin 1))).toInt = (n.val : Int) from he), broadcastInDim_scalar_apply,
      const_apply, Cert.Math.ofBits_one]
    rfl
  · rw [if_neg he, if_neg (show ¬(colB ei (ix2 e (0 : Fin 1))).toInt = (n.val : Int) from he)]
    rfl

/-- Node `n`'s scale factor is a real. -/
theorem dis_real_node (ei : IVec S2x1600000 32) (n : Fin 100000) : ∃ d : ℝ, dis ei (ix1 n) = (d : EReal) := by
  have hδ : (0 : ℝ) ≤ ∑ e : Fin 1700000, if colI ei e = (n.val : Int) then (1 : ℝ) else 0 :=
    Finset.sum_nonneg fun e _ => by split <;> norm_num
  have hz : broadcastInDim S100000 ![] bcast_S_S100000 zeroS (ix1 n) = 0 := by
    rw [broadcastInDim_scalar_apply, zeroS_apply]
  unfold dis
  rw [select_apply, cmpf_ogt_apply, hostRsqrt_apply, deg_apply]
  exact Cert.Math.scale_real _ hδ _ hz

/-- Every scale factor is a real. -/
theorem dis_real (ei : IVec S2x1600000 32) (i : S100000.Idx) : ∃ d : ℝ, dis ei i = (d : EReal) := by
  obtain ⟨d, hd⟩ := dis_real_node ei (i 0)
  exact ⟨d, (congrArg (dis ei) (eq_ix1 i)).trans hd⟩

end Cert.Edges

end
-- ==== Proof.Bridge.lean ====
/-
  The two programs compute one function of real inputs.

  Both read the edge lists the same way (the same target words, the same source nodes, the same scale factors: the two
  texts spell these stages identically), so the kernel's result is the layer in the kernel's arrangement and the
  reference's result is the layer in the reference's arrangement of the SAME data. With real features, weights and bias
  the two rectified aggregates agree (`Spec.r_eq`) and are real, so the two variances agree (`Spec.var_eq`), and what
  follows is one formula on both sides.
-/
import proofs.«101444_j62766652064051_2_alg».proof.Proof.KRead
import proofs.«101444_j62766652064051_2_alg».proof.Proof.RRead
import proofs.«101444_j62766652064051_2_alg».proof.Proof.EdgesDis
import proofs.«101444_j62766652064051_2_alg».proof.Proof.Gen.ReferenceIdeal

noncomputable section

namespace Cert.Bridge

open Idealize.ShloMosaic Idealize.ShloMosaic.ValueIdx Cert.KSpec
open scoped BigOperators

/-- The two programs' scale factors are one function of the edge list. -/
theorem dis_eq (ei : IVec ⟨2, ![2, 1600000]⟩ 32) : Cert.KValue.dis ei = Cert.RefValue.dis ei := rfl

/-- … and so are the target words … -/
theorem colI_eq (ei : IVec ⟨2, ![2, 1600000]⟩ 32) : Cert.KRead.colI ei = Cert.Edges.colI ei := rfl

/-- … and the source nodes. -/
theorem rho_eq (ei : IVec ⟨2, ![2, 1600000]⟩ 32) : Cert.KRead.ρ ei = Cert.Edges.ρ ei := rfl

variable (x : Arr2 100000 128) (w : Arr2 128 128) (bias gamma beta : Cert.Spec.Arr1 128) (ei : IVec ⟨2, ![2, 1600000]⟩ 32)

/-- With real entries the two programs' rectified aggregates agree. -/
theorem R_eq (hx : ∀ i, ∃ r : ℝ, x i = (r : EReal)) (hw : ∀ i, ∃ r : ℝ, w i = (r : EReal)) :
    Cert.KRead.R x w bias ei = Cert.RRead.R x w bias ei := by
  funext n c
  unfold Cert.KRead.R Cert.RRead.R
  rw [Cert.KRead.relu_apply, Cert.RRead.r_apply, dis_eq, colI_eq, rho_eq]
  exact Cert.Spec.r_eq hx hw (Cert.Edges.dis_real ei) (Cert.Edges.kappa_of_col ei) n c

/-- … and are real. -/
theorem R_real (hx : ∀ i, ∃ r : ℝ, x i = (r : EReal)) (hw : ∀ i, ∃ r : ℝ, w i = (r : EReal))
    (hb : ∀ i, ∃ r : ℝ, bias i = (r : EReal)) (n : Fin 100000) (c : Fin 128) :
    ∃ q : ℝ, Cert.RRead.R x w bias ei n c = (q : EReal) := by
  unfold Cert.RRead.R
  rw [Cert.RRead.r_apply]
  exact Cert.Spec.rR_real hx hw hb (Cert.Edges.dis_real ei) (Cert.Edges.kappa_of_col ei) n c

/-- With real features, weights and bias the two programs' results are equal. -/
theorem out_eq (hx : ∀ i, ∃ r : ℝ, x i = (r : EReal)) (hw : ∀ i, ∃ r : ℝ, w i = (r : EReal))
    (hb : ∀ i, ∃ r : ℝ, bias i = (r : EReal)) :
    Cert.KValue.out x w bias gamma beta ei = Cert.RefValue.out x w bias gamma beta ei := by
  funext i
  obtain ⟨n, c, rfl⟩ : ∃ (n : Fin 100000) (c : Fin 128), i = ix2 n c := ⟨i 0, i 1, eq_ix2 i⟩
  rw [Cert.KRead.out_apply, Cert.RRead.out_apply, R_eq x w bias ei hx hw,
    funext (Cert.Spec.var_eq (Cert.RRead.R x w bias ei) (R_real x w bias ei hx hw hb))]

end Cert.Bridge

end
-- ==== Proof.Finite.lean ====
/-
  Finite inputs are real numbers.

  The precondition says of every float input that each entry's absolute value is below plus infinity, all these
  comparisons joined by `and`. An extended real whose absolute value is below plus infinity is neither infinity, so it
  is a real number. The aggregation's algebra needs this of the node features, the weight matrix and the bias.
-/
import proofs.«101444_j62766652064051_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- The pattern of plus infinity denotes the top element. -/
theorem ofBits_inf : Ideal.ofBits .f32 0x7F800000#32 = ⊤ := by
  simp [Ideal.ofBits, Ideal.ieee]

/-- An extended real whose absolute value is below plus infinity is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  induction x using EReal.rec with
  | bot => exact absurd h (by simp [Ideal.cmpf_def, Ideal.cmp, FloatOps.hostAbsf, FloatOps.absf])
  | top => exact absurd h (by simp [Ideal.cmpf_def, Ideal.cmp, FloatOps.hostAbsf, FloatOps.absf])
  | coe r => exact ⟨r, rfl⟩

variable [Facts]

/-- Under the precondition the node features, the weight matrix and the bias hold real numbers. -/
theorem real_of_pre (x : FVec Ideal S100000x128 .f32) (w : FVec Ideal S128x128 .f32) (b g be : FVec Ideal S128 .f32)
    (ei : IVec S2x1600000 32) (h : fn (F := Ideal) x w b g be ei = fun _ => 1#1) :
    (∀ i, ∃ r : ℝ, x i = (r : EReal)) ∧ (∀ i, ∃ r : ℝ, w i = (r : EReal)) ∧ (∀ i, ∃ r : ℝ, b i = (r : EReal)) := by
  have h0 := congrFun h ValueIdx.ix0
  dsimp only [fn, fn_part1] at h0
  obtain ⟨h18, -⟩ := IntOp.andi_eq_one.mp h0
  obtain ⟨h13, -⟩ := IntOp.andi_eq_one.mp h18
  obtain ⟨h8, h12⟩ := IntOp.andi_eq_one.mp h13
  obtain ⟨h3, h7⟩ := IntOp.andi_eq_one.mp h8
  refine ⟨fun i => ?_, fun i => ?_, fun i => ?_⟩
  · exact real_of_abs_lt _ (Host.reduce_andi_all _ _ _ _ _ h3 i)
  · exact real_of_abs_lt _ (Host.reduce_andi_all _ _ _ _ _ h7 i)
  · exact real_of_abs_lt _ (Host.reduce_andi_all _ _ _ _ _ h12 i)

end Cert.Finite

end
-- ==== Proof.lean ====
/-
  One graph-convolution layer with batch normalisation and row normalisation, computed two ways, is one function.

  The layer: node features times a weight matrix; each node's in-degree `deg` (self loop included) and the scale
  `dis = deg^(-1/2)`; for every edge the source's product row weighted by `dis[source] · dis[target]`, summed into the
  target; plus a bias, cut off below at zero; standardised per feature with the batch mean and variance, times gamma,
  plus beta; every row divided by its Euclidean length (at least a small constant).

  The kernel program applies `dis[source]` before the aggregation and `dis[target]` after it, takes the batch sums tile by
  tile, and the variance as the mean of the squares minus the square of the mean (cut off below at zero); the reference
  weights each edge's message by both factors and takes the variance as the mean of the squared deviations. Over the
  extended reals the two agree on finite inputs: a common real factor comes out of a sum of reals, a sum over the nodes
  is the sum over the tiles of the tiles' sums, and the two variance formulas are one real number that is not negative.

  * The frames of the two kernel programs are the generated ones; the reference's frame is its run with the result dropped.
  * The idealisation changed no operation, so nothing is owed for it.
  * The value claim joins the kernel program's run (its result buffer ends at `KValue.out` of the arguments) with the
    reference's run (`RefValue.out`) by `Bridge.out_eq`, whose finiteness hypotheses come from the precondition.
-/
import proofs.«101444_j62766652064051_2_alg».proof.Defs
import proofs.«101444_j62766652064051_2_alg».proof.Proof.Gen.Kernel
import proofs.«101444_j62766652064051_2_alg».proof.Proof.Gen.Kernel.Frame
import proofs.«101444_j62766652064051_2_alg».proof.Proof.Gen.KernelIdeal
import proofs.«101444_j62766652064051_2_alg».proof.Proof.Gen.KernelIdeal.Frame
import proofs.«101444_j62766652064051_2_alg».proof.Proof.Gen.ReferenceIdeal
import proofs.«101444_j62766652064051_2_alg».proof.Proof.Gen.Pre_finite_inputs
import proofs.«101444_j62766652064051_2_alg».proof.Proof.KWalk
import proofs.«101444_j62766652064051_2_alg».proof.Proof.RefRun
import proofs.«101444_j62766652064051_2_alg».proof.Proof.Bridge
import proofs.«101444_j62766652064051_2_alg».proof.Proof.Finite
import Idealize.ShloMosaic.Adequacy
import Idealize.ShloMosaic.Init

noncomputable section

namespace Cert.Proof

open Idealize.ShloMosaic Idealize.ShloMosaic.TcCoe Idealize.SL.Sem

/-- The kernel program terminates without a fault and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki :
    Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with the result dropped. -/
theorem frame_ri :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefValue.run m ρ)

/-- From memories agreeing on finite arguments both programs end with the same result array. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨_, Cert.KValue.run m ρ, ?_⟩
  refine (θ_run Cert.ReferenceIdeal.defs _ _).mono (fun _ h c => ⟨(h c).1.trans ?_, (h c).2⟩) (Cert.RefValue.run m' ρ')
  obtain ⟨hx, hw, hb⟩ := Cert.Finite.real_of_pre _ _ _ _ _ _ (hpre c)
  rw [(hagree c).1, (hagree c).2.1, (hagree c).2.2.1, (hagree c).2.2.2.1, (hagree c).2.2.2.2.1, (hagree c).2.2.2.2.2]
  exact (Cert.Bridge.out_eq _ _ _ _ _ _ hx hw hb).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
